-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S100000x128 : Shape := ⟨2, ![100000, 128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S4096x200 : S_.BroadcastsInDim S4096x200 (![] : Fin 0 → Fin S4096x200.rank)
  reducesTo_S4096x200_S_d0_1 : S4096x200.ReducesTo [0, 1] S_

variable [Facts]

def fn_part1 {F : FTy → Type} [FloatOps F] (main_arg0 : IVec S4096x200 32) (main_v13 : IVec S_ 1) (main_v15 : IVec S4096x200 1) (main_c_5 : IVec S_ 32) : IVec S_ 1 :=
  let main_v16 : IVec S4096x200 32 := broadcastInDim S4096x200 ![] bcast_S_S4096x200 main_c_5
  let main_v17 : IVec S4096x200 1 := cmpi .sle main_arg0 main_v16
  let main_v18 : IVec S4096x200 1 := andi main_v15 main_v17
  let main_c_6 : IVec S_ 1 := constantI S_ 1 1#1
  let main_v19 : IVec S_ 1 := (fun x v => Host.reduce IntOp.andi x v reducesTo_S4096x200_S_d0_1 h_S_) main_v18 main_c_6
  let main_v20 : IVec S_ 1 := andi main_v13 main_v19
  main_v20

def fn {F : FTy → Type} [FloatOps F] (main_arg0 : IVec S4096x200 32) (main_arg1 : FVec F S100000x128 .f32) (main_arg2 : FVec F S1x128 .f32) (main_arg3 : FVec F S1 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 0#32
  let main_v14 : IVec S4096x200 32 := broadcastInDim S4096x200 ![] bcast_S_S4096x200 main_c_4
  let main_v15 : IVec S4096x200 1 := cmpi .sge main_arg0 main_v14
  let main_c_5 : IVec S_ 32 := constantI S_ 32 99999#32
  fn_part1 (F := F) main_arg0 main_v13 main_v15 main_c_5
-- ==== Kernel.lean ====
abbrev S4096x200 : Shape := ⟨2, ![4096, 200]⟩
abbrev S100000x128 : Shape := ⟨2, ![100000, 128]⟩
abbrev S1x128 : Shape := ⟨2, ![1, 128]⟩
abbrev S1 : Shape := ⟨1, ![1]⟩
abbrev S49x1x2048 : Shape := ⟨3, ![49, 1, 2048]⟩
abbrev S2048x128 : Shape := ⟨2, ![2048, 128]⟩
abbrev S1x1x2048 : Shape := ⟨3, ![1, 1, 2048]⟩
abbrev S1x2048 : Shape := ⟨2, ![1, 2048]⟩
abbrev S100352 : Shape := ⟨1, ![100352]⟩
abbrev S819200 : Shape := ⟨1, ![819200]⟩
abbrev S12800 : Shape := ⟨1, ![12800]⟩
abbrev S_ : Shape := ⟨0, ![]⟩
abbrev S16 : Shape := ⟨1, ![16]⟩
abbrev S4096x200x1 : Shape := ⟨3, ![4096, 200, 1]⟩

abbrev nBuf : Table → Nat
  | .hbm => 9
  | .local .tc .vmem => 5
  | .local .tc .smem => 1
  | .local .scVector .vmem => 3
  | _ => 0

abbrev bufTy : (tb : Table) → Fin (nBuf tb) → BufTy
  | .hbm, ⟨0, _⟩ => ⟨S4096x200, .i32⟩
  | .hbm, ⟨1, _⟩ => ⟨S100000x128, .f32⟩
  | .hbm, ⟨2, _⟩ => ⟨S1x128, .f32⟩
  | .hbm, ⟨3, _⟩ => ⟨S1, .f32⟩
  | .hbm, ⟨4, _⟩ => ⟨S49x1x2048, .f32⟩
  | .hbm, ⟨5, _⟩ => ⟨S100352, .f32⟩
  | .hbm, ⟨6, _⟩ => ⟨S819200, .i32⟩
  | .hbm, ⟨7, _⟩ => ⟨S819200, .f32⟩
  | .hbm, ⟨8, _⟩ => ⟨S4096x200x1, .f32⟩
  | .local .tc .vmem, ⟨0, _⟩ => ⟨S1x128, .f32⟩
  | .local .tc .vmem, ⟨1, _⟩ => ⟨S2048x128, .f32⟩
  | .local .tc .vmem, ⟨2, _⟩ => ⟨S2048x128, .f32⟩
  | .local .tc .vmem, ⟨3, _⟩ => ⟨S1x1x2048, .f32⟩
  | .local .tc .vmem, ⟨4, _⟩ => ⟨S1x1x2048, .f32⟩
  | .local .tc .smem, ⟨0, _⟩ => ⟨S1, .f32⟩
  | .local .scVector .vmem, ⟨0, _⟩ => ⟨S100352, .f32⟩
  | .local .scVector .vmem, ⟨1, _⟩ => ⟨S12800, .i32⟩
  | .local .scVector .vmem, ⟨2, _⟩ => ⟨S12800, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v1_scv : Ref sig .scVector := ⟨.hbm, 5, rfl⟩
abbrev main_v2_scv : Ref sig .scVector := ⟨.hbm, 6, rfl⟩
abbrev main_v3_scv : Ref sig .scVector := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg2_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v3 : BitVec 32 := Scalar.addi v2 c0_i32
  ![v3.toNat]
@[reducible] def k1_t1_loop : Scf.Loop 32 :=
  let c0_i32_1 : BitVec 32 := 0#32
  let c800_i32 : BitVec 32 := 800#32
  let v4 : BitVec 32 := Scalar.addi c0_i32_1 c800_i32
  let c1_i32 : BitVec 32 := 1#32
  ⟨c0_i32_1, v4, c1_i32⟩
def k1_off2 (k1_t1 : Fin k1_t1_loop.trips) : Fin 1 → Nat :=
  let c0_i32_1 : BitVec 32 := 0#32
  let c1_i32 : BitVec 32 := 1#32
  let arg8 : BitVec 32 := Scf.iv c0_i32_1 c1_i32 k1_t1
  let c16_i32 : BitVec 32 := 16#32
  let v9 : BitVec 32 := Scalar.muli arg8 c16_i32
  let v10 : Index := Scalar.indexCast v9
  ![v10.toNat]

def k1_chk1 (v11 : IVec S16 32) : Prop :=
  (∀ a x, ((![v11] : Fin 1 → IVec S16 32) a x).toNat < S100352.size a)
instance k1_chk1.dec : ∀ (v11 : IVec S16 32), Decidable (k1_chk1 v11) := fun v11 => decidable_of_iff' _ (Iff.of_eq (k1_chk1.eq_1 v11))
theorem k1_idx1_inb : ∀ (v11 : IVec S16 32) (k1_hw1 : k1_chk1 v11), ∀ a x, ((![v11] : Fin 1 → IVec S16 32) a x).toNat < S100352.size a := fun v11 k1_hw1 => k1_hw1
def k1_off3 (k1_t1 : Fin k1_t1_loop.trips) : Fin 1 → Nat :=
  let c0_i32_1 : BitVec 32 := 0#32
  let c1_i32 : BitVec 32 := 1#32
  let arg8 : BitVec 32 := Scf.iv c0_i32_1 c1_i32 k1_t1
  let c16_i32 : BitVec 32 := 16#32
  let v9 : BitVec 32 := Scalar.muli arg8 c16_i32
  let v13 : Index := Scalar.indexCast v9
  ![v13.toNat]
@[reducible] def k1_t2_loop : Scf.Loop 32 :=
  let c0_i32_4 : BitVec 32 := 0#32
  let c800_i32_5 : BitVec 32 := 800#32
  let v7 : BitVec 32 := Scalar.addi c0_i32_4 c800_i32_5
  let c1_i32_6 : BitVec 32 := 1#32
  ⟨c0_i32_4, v7, c1_i32_6⟩
def k1_off4 (k1_t2 : Fin k1_t2_loop.trips) : Fin 1 → Nat :=
  let c0_i32_4 : BitVec 32 := 0#32
  let c1_i32_6 : BitVec 32 := 1#32
  let arg8 : BitVec 32 := Scf.iv c0_i32_4 c1_i32_6 k1_t2
  let c16_i32 : BitVec 32 := 16#32
  let v9 : BitVec 32 := Scalar.muli arg8 c16_i32
  let v10 : Index := Scalar.indexCast v9
  ![v10.toNat]

def k1_chk2 (v11 : IVec S16 32) : Prop :=
  (∀ a x, ((![v11] : Fin 1 → IVec S16 32) a x).toNat < S100352.size a)
instance k1_chk2.dec : ∀ (v11 : IVec S16 32), Decidable (k1_chk2 v11) := fun v11 => decidable_of_iff' _ (Iff.of_eq (k1_chk2.eq_1 v11))
theorem k1_idx2_inb : ∀ (v11 : IVec S16 32) (k1_hw2 : k1_chk2 v11), ∀ a x, ((![v11] : Fin 1 → IVec S16 32) a x).toNat < S100352.size a := fun v11 k1_hw2 => k1_hw2
def k1_off5 (k1_t2 : Fin k1_t2_loop.trips) : Fin 1 → Nat :=
  let c0_i32_4 : BitVec 32 := 0#32
  let c1_i32_6 : BitVec 32 := 1#32
  let arg8 : BitVec 32 := Scf.iv c0_i32_4 c1_i32_6 k1_t2
  let c16_i32 : BitVec 32 := 16#32
  let v9 : BitVec 32 := Scalar.muli arg8 c16_i32
  let v13 : Index := Scalar.indexCast v9
  ![v13.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S1x128_S1x128_0_0 : ∀ a, (![0, 0] : Fin 2 → Nat) a + S1x128.size a ≤ S1x128.size a
  h_S1x128 : 0 < S1x128.numel
  inb_S2048x128_S2048x128_0_0 : ∀ a, (![0, 0] : Fin 2 → Nat) a + S2048x128.size a ≤ S2048x128.size a
  h_S2048x128 : 0 < S2048x128.numel
  inb_S1_S1_0 : ∀ a, (![0] : Fin 1 → Nat) a + S1.size a ≤ S1.size a
  numel1_S1 : S1.numel = 1
  shapeCasts_S1x2048_S1x1x2048 : S1x2048.ShapeCasts S1x1x2048
  inb_S1x1x2048_S1x1x2048_0_0_0 : ∀ a, (![0, 0, 0] : Fin 3 → Nat) a + S1x1x2048.size a ≤ S1x1x2048.size a
  h_S1x1x2048 : 0 < S1x1x2048.numel
  shapeCasts_S49x1x2048_S100352 : S49x1x2048.ShapeCasts S100352
  shapeCasts_S4096x200_S819200 : S4096x200.ShapeCasts S819200
  h_S16 : 0 < S16.numel
  h_S100352 : 0 < S100352.numel
  shapeCasts_S819200_S4096x200x1 : S819200.ShapeCasts S4096x200x1
  dot_S1x128_S2048x128_S1x2048_1_1_0_0_n_n_wf : DotDims.WF S1x128 S2048x128 S1x2048 [1] [1] [0] [0] [] []
  hcc1_scoped0 : 6 + S_.numel ≤ 11
  hcc1_scoped1 : 7 + S_.numel ≤ 11
  hcc1_scoped2 : 8 + S_.numel ≤ 11
  hcc1_scoped3 : 9 + S_.numel ≤ 11
  hcc1_scoped4 : 10 + S_.numel ≤ 11
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x128.size a ≤ S1x128.size a
  hwx0_0 : ∀ i : grid0.Coords, EltTy.bits .f32 = 32 ∨ (Rect.block (s := S1x128) S1x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x128.size a < S100000x128.size a
  hwx0_1 : ∀ i : grid0.Coords, EltTy.bits .f32 = 32 ∨ (Rect.unit (s := S100000x128) (fun a => cc0_transform_1 i a * S2048x128.size a) (fun a => (Pipeline.Clip.of (cc0_transform_1 i a) (S2048x128.size a) (S100000x128.size a)).extent (S2048x128.size a)) fun a => Pipeline.Clip.inb (Pipeline.Clip.ok_of (hstart0_1 i a))).WholeWords (EltTy.packing .f32)
  hwxs0_1 : ∀ i : grid0.Coords, EltTy.bits .f32 = 32 ∨ (Rect.unit (s := S2048x128) (fun _ => 0) (fun a => (Pipeline.Clip.of (cc0_transform_1 i a) (S2048x128.size a) (S100000x128.size a)).extent (S2048x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S49x1x2048.size a
  hwx0_3 : ∀ i : grid0.Coords, EltTy.bits .f32 = 32 ∨ (Rect.block (s := S49x1x2048) S1x1x2048.size (cc0_transform_3 i) (hinb0_3 i)).WholeWords (EltTy.packing .f32)
  hcore1 : grid1.bound 0 ≤ τ.nSC
  hsub1 : grid1.bound 1 ≤ τ.nSub
  k1_off1_inb : ∀ i : grid1.Coords, ∀ (r : Fin 2), ∀ a, (k1_off1 i (BitVec.ofNat 32 (12800 * r.val))) a + S12800.size a ≤ S819200.size a
  k1_t1_ok : k1_t1_loop.OK
  k1_off2_inb : ∀ k1_t1 : Fin k1_t1_loop.trips, ∀ a, (k1_off2 k1_t1) a + S16.size a ≤ S12800.size a
  k1_off3_inb : ∀ k1_t1 : Fin k1_t1_loop.trips, ∀ a, (k1_off3 k1_t1) a + S16.size a ≤ S12800.size a
  k1_t2_ok : k1_t2_loop.OK
  k1_off4_inb : ∀ k1_t2 : Fin k1_t2_loop.trips, ∀ a, (k1_off4 k1_t2) a + S16.size a ≤ S12800.size a
  k1_off5_inb : ∀ k1_t2 : Fin k1_t2_loop.trips, ∀ a, (k1_off5 k1_t2) a + S16.size a ≤ S12800.size a

variable [Facts₀]

abbrev cc1_scoped0 : DmaSems sig S_ := SemArray.consecutive 6 S_ hcc1_scoped0
abbrev cc1_scoped1 : DmaSems sig S_ := SemArray.consecutive 7 S_ hcc1_scoped1
abbrev cc1_scoped2 : DmaSems sig S_ := SemArray.consecutive 8 S_ hcc1_scoped2
abbrev cc1_scoped3 : DmaSems sig S_ := SemArray.consecutive 9 S_ hcc1_scoped3
abbrev cc1_scoped4 : DmaSems sig S_ := SemArray.consecutive 10 S_ hcc1_scoped4
def dot_S1x128_S2048x128_S1x2048_1_1_0_0_n_n : DotDims S1x128 S2048x128 S1x2048 where
  lhsContracting := [1]
  rhsContracting := [1]
  lhsNonContracting := [0]
  rhsNonContracting := [0]
  lhsBatch := []
  rhsBatch := []
  wf := dot_S1x128_S2048x128_S1x2048_1_1_0_0_n_n_wf

abbrev win0_0 : Pipeline.Window sig grid0 :=
  Pipeline.Window.ofSpec (Memref.whole main_arg2) S1x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S2048x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg3) S1.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x200 : Shape := ⟨2, ![4096, 200]⟩
abbrev S100000x128 : Shape := ⟨2, ![100000, 128]⟩
abbrev S1x128 : Shape := ⟨2, ![1, 128]⟩
abbrev S1 : Shape := ⟨1, ![1]⟩
abbrev S_ : Shape := ⟨0, ![]⟩
abbrev S4096x200x1 : Shape := ⟨3, ![4096, 200, 1]⟩
abbrev S1x1x1 : Shape := ⟨3, ![1, 1, 1]⟩
abbrev S4096x200x128 : Shape := ⟨3, ![4096, 200, 128]⟩

abbrev nBuf : Space → Nat
  | .hbm => 31
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x128, .f32⟩
  | .hbm, ⟨2, _⟩ => ⟨S1x128, .f32⟩
  | .hbm, ⟨3, _⟩ => ⟨S1, .f32⟩
  | .hbm, ⟨4, _⟩ => ⟨S_, .i32⟩
  | .hbm, ⟨5, _⟩ => ⟨S4096x200, .i32⟩
  | .hbm, ⟨6, _⟩ => ⟨S4096x200, .i1⟩
  | .hbm, ⟨7, _⟩ => ⟨S_, .i32⟩
  | .hbm, ⟨8, _⟩ => ⟨S4096x200, .i32⟩
  | .hbm, ⟨9, _⟩ => ⟨S4096x200, .i32⟩
  | .hbm, ⟨10, _⟩ => ⟨S4096x200, .i32⟩
  | .hbm, ⟨11, _⟩ => ⟨S4096x200x1, .i32⟩
  | .hbm, ⟨12, _⟩ => ⟨S1, .i32⟩
  | .hbm, ⟨13, _⟩ => ⟨S_, .i32⟩
  | .hbm, ⟨14, _⟩ => ⟨S4096x200x1, .i32⟩
  | .hbm, ⟨15, _⟩ => ⟨S4096x200x1, .i1⟩
  | .hbm, ⟨16, _⟩ => ⟨S1x1x1, .i32⟩
  | .hbm, ⟨17, _⟩ => ⟨S4096x200x1, .i32⟩
  | .hbm, ⟨18, _⟩ => ⟨S4096x200x1, .i1⟩
  | .hbm, ⟨19, _⟩ => ⟨S4096x200x1, .i1⟩
  | .hbm, ⟨20, _⟩ => ⟨S_, .i1⟩
  | .hbm, ⟨21, _⟩ => ⟨S4096x200, .i1⟩
  | .hbm, ⟨22, _⟩ => ⟨S4096x200x128, .f32⟩
  | .hbm, ⟨23, _⟩ => ⟨S4096x200x128, .i1⟩
  | .hbm, ⟨24, _⟩ => ⟨S_, .f32⟩
  | .hbm, ⟨25, _⟩ => ⟨S4096x200x128, .f32⟩
  | .hbm, ⟨26, _⟩ => ⟨S4096x200x128, .f32⟩
  | .hbm, ⟨27, _⟩ => ⟨S4096x200x1, .f32⟩
  | .hbm, ⟨28, _⟩ => ⟨S1x1x1, .f32⟩
  | .hbm, ⟨29, _⟩ => ⟨S4096x200x1, .f32⟩
  | .hbm, ⟨30, _⟩ => ⟨S4096x200x1, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  gather_S100000x128_S4096x200x1_S4096x200x128_2_0_n_n_0_2_1128_wf : GatherDims.WF S100000x128 S4096x200x1 S4096x200x128 [2] [0] [] [0] [] 2 ![1, 128]
  dot_S4096x200x128_S1x128_S4096x200x1_2_1_01_0_n_n_wf : DotDims.WF S4096x200x128 S1x128 S4096x200x1 [2] [1] [0, 1] [0] [] []

variable [Facts₀]

def gather_S100000x128_S4096x200x1_S4096x200x128_2_0_n_n_0_2_1128 : GatherDims S100000x128 S4096x200x1 S4096x200x128 where
  offsetDims := [2]
  collapsedSliceDims := [0]
  operandBatchingDims := []
  startIndicesBatchingDims := []
  startIndexMap := [0]
  indexVectorDim := 2
  sliceSizes := ![1, 128]
  wf := gather_S100000x128_S4096x200x1_S4096x200x128_2_0_n_n_0_2_1128_wf
def dot_S4096x200x128_S1x128_S4096x200x1_2_1_01_0_n_n : DotDims S4096x200x128 S1x128 S4096x200x1 where
  lhsContracting := [2]
  rhsContracting := [1]
  lhsNonContracting := [0, 1]
  rhsNonContracting := [0]
  lhsBatch := []
  rhsBatch := []
  wf := dot_S4096x200x128_S1x128_S4096x200x1_2_1_01_0_n_n_wf

class Facts : Prop extends Facts₀ where

variable [Facts]
-- ==== Proof.KI.Common.lean ====
/-
  The gather-of-scores kernel as the SparseCore launch theorem sees it, and what its handshakes carry.

  The program: on each device's TensorCore, one pipelined region computes a score per table row (49 blocks of 2048
  rows, the last block running past the table's 100000 rows), the scores and the indices are laid out flat, and one
  vector-subcore kernel on 2 SparseCores × 16 subcores gathers: every subcore copies ALL the scores into its own memory and,
  for each of its two chunks of 12800 indices, copies the chunk in, looks each index up in its copy of the scores, and
  copies the 12800 looked-up scores out to the same positions of the flat result.

  What travels to a subcore and back: a read share of the flat scores and of the flat indices (each whole), and full
  ownership of the two chunks of the flat result it writes. The flat result is 64 chunks of 12800: chunk number
  `4 s + 2 c + r` is chunk `r` of subcore `s` of SparseCore `c`. What is known of the scores when the kernel starts, and of
  the result when it ends, is a predicate `Val d k` on the value at flat position `k`: the scores satisfy it at the
  position each index names, so the result satisfies it everywhere.
-/
import proofs.«211127_g52536039965321_cont_9to1c4b_697_4_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.ValueIdx
import Idealize.ShloMosaic.Lib.Tactic
import proofs.«211127_g52536039965321_cont_9to1c4b_697_4_alg».proof.Proof.Gen.KernelIdeal
import proofs.«211127_g52536039965321_cont_9to1c4b_697_4_alg».proof.Proof.Gen.KernelIdeal.Skeleton
import proofs.«211127_g52536039965321_cont_9to1c4b_697_4_alg».proof.Proof.Gen.KernelIdeal.Launch
import proofs.«211127_g52536039965321_cont_9to1c4b_697_4_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelined region's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds, the left component. -/
abbrev EH : Emb UH (MT nD τ sig (HIx 1) (Elt F) ℕ UU ℕ) := embL
/-- The pipelined region's rounds, the middle component. -/
def EP : Emb UP (MT nD τ sig (HIx 1) (Elt F) ℕ UU ℕ) := (Emb.inl : Emb UP (UP × Counters)).trans embR

/-! ## The flat arrays and their pieces -/

variable (m : (ℓ : Loc nD τ sig) → Buf (Elt F) ℓ) (ρ : Dev nD → PrngReg)

/-- The flat scores (100352 of them), the flat indices and the flat result (819200 each), as the TensorCore names them. -/
abbrev sLoc (d : Dev nD) : Loc nD τ sig := (SparseCore.T d).loc main_v1
abbrev iLoc (d : Dev nD) : Loc nD τ sig := (SparseCore.T d).loc main_v2
abbrev oLoc (d : Dev nD) : Loc nD τ sig := (SparseCore.T d).loc main_v3

/-- The same three arrays as a vector subcore's kernel addresses them. -/
abbrev sV : Memref sig .scVector .hbm S100352 .f32 := Memref.whole main_v1_scv
abbrev iV : Memref sig .scVector .hbm S819200 .i32 := Memref.whole main_v2_scv
abbrev oV : Memref sig .scVector .hbm S819200 .f32 := Memref.whole main_v3_scv

/-- Position `n` of the flat scores, kept inside the array. -/
def sAt (n : ℕ) : S100352.Idx := ValueIdx.ix1 (⟨min n 100351, by omega⟩ : Fin 100352)

theorem hdiv64 : 64 ∣ S819200.size 0 := ⟨12800, rfl⟩
/-- Chunk `n` of 64 of a flat array of 819200: positions `12800 n` to `12800 n + 12799`. -/
abbrev chunk (n : Fin 64) : Rect S819200 := Rect.part (s := S819200) (a₀ := 0) hdiv64 n
abbrev chunkSet (n : Fin 64) : Finset S819200.Idx := ((oV : Memref sig .scVector .hbm S819200 .f32).view.slice (chunk n)).set
/-- The number of chunk `r` of subcore `i` of SparseCore `c`. -/
def chunkNo (c : Fin 2) (i : Fin 16) (r : Fin 2) : Fin 64 := ⟨4 * i.val + 2 * c.val + r.val, by omega⟩

/-- The read share of SparseCore `c`, and of its subcore `i`. -/
abbrev qC (c : Fin 2) : PosShare TreeShare := Transfers.shareTok fullShare 2 c
abbrev qT (c : Fin 2) (i : Fin 16) : PosShare TreeShare := Transfers.shareTok (qC c) 16 i

/-! ## What the handshakes carry -/

section Pay

variable [FloatOps F]
variable (I : (d : Dev nD) → Buf (Elt F) (iLoc d))
variable (Val : (d : Dev nD) → S819200.Idx → Elt F .f32 → Prop)

/-- What is known of flat scores `Sc` when the kernel starts: at the position each index names, the value the result
    is to have there. -/
def Sok (d : Dev nD) (Sc : Buf (Elt F) (sLoc d)) : Prop := ∀ k : S819200.Idx, Val d k (Sc (sAt (I d k).toNat))

/-- A subcore's task takes: a read share of the flat scores (some contents of which `Sok` holds) and of the flat
    indices, and its two chunks of the flat result; -/
def goRes (d : Dev nD) (c : Fin 2) (i : Fin 16) : sProp 𝕄 :=
  iprop(∃ Sc : Buf (Elt F) (sLoc d), ⌜Sok I Val d Sc⌝ ∗ (sLoc d ↦{qT c i} Sc) ∗ (iLoc d ↦{qT c i} I d)
    ∗ (oLoc d ↦[chunkSet (chunkNo c i 0)]{fullShare} m (oLoc d)) ∗ (oLoc d ↦[chunkSet (chunkNo c i 1)]{fullShare} m (oLoc d)))

/-- and brings back its two chunks, each at contents every value of which is as `Val` says. -/
def tdChunk (d : Dev nD) (n : Fin 64) : sProp 𝕄 :=
  iprop(∃ f : Buf (Elt F) (oLoc d), (oLoc d ↦[chunkSet n]{fullShare} f) ∗ ⌜∀ k ∈ chunkSet n, Val d k (f k)⌝)
def tdRes (d : Dev nD) (c : Fin 2) (i : Fin 16) : sProp 𝕄 :=
  iprop(tdChunk Val d (chunkNo c i 0) ∗ tdChunk Val d (chunkNo c i 1))

/-- The one call: each SparseCore is handed its sixteen subcores' tasks' resources and hands back theirs; the kernel owes
    nothing of its own and consumes nothing of the launch's. -/
def P : (K (F := F)).Pay (nD := nD) (Val := Elt F) (Name := ℕ) (U := UU) where
  st := fun q d c => match q with | 0 => bigSep Finset.univ fun i : Fin 16 => goRes m I Val d (Fin.cast nCore_zero c) i
  dn := fun q d c => match q with | 0 => bigSep Finset.univ fun i : Fin 16 => tdRes Val d (Fin.cast nCore_zero c) i
  go := fun q d c i => match q with | 0 => goRes m I Val d (Fin.cast nCore_zero c) (Fin.cast nSub_zero i)
  td := fun q d c i => match q with | 0 => tdRes Val d (Fin.cast nCore_zero c) (Fin.cast nSub_zero i)
  x := fun _ _ => iprop(emp)

end Pay

end Cert.Proof.KI

end
-- ==== Proof.KI.LaunchA.lean ====
/-
  The launch of the gather-of-scores program, first half: the payloads can be stored in the handshakes' cells; a
  SparseCore's share of the call IS its sixteen subcores' tasks' resources, so handing them out and collecting them is
  the identity; the launch element of the ghost state is the handshakes' rounds, the pipelined region's rounds and
  empty counters; and from what @main leaves — the four argument arrays as launched, the result array a re-laid flat
  array every value of which is as `Val` says — the final memory reads the same.
-/
import proofs.«211127_g52536039965321_cont_9to1c4b_697_4_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]
variable (I : (d : Dev nD) → Buf (Elt F) (iLoc d)) (Val : (d : Dev nD) → S819200.Idx → Elt F .f32 → Prop)

/-! ## The payloads are storable -/

instance goRes_storable (d : Dev nD) (c : Fin 2) (i : Fin 16) : BI.Storable (upEmb : UEmb _ 𝕄) (goRes m I Val d c i) := by
  unfold goRes; infer_instance
instance tdChunk_storable (d : Dev nD) (n : Fin 64) : BI.Storable (upEmb : UEmb _ 𝕄) (tdChunk (F := F) Val d n) := by
  unfold tdChunk; infer_instance
instance tdRes_storable (d : Dev nD) (c : Fin 2) (i : Fin 16) : BI.Storable (upEmb : UEmb _ 𝕄) (tdRes (F := F) Val d c i) := by
  unfold tdRes; infer_instance

instance P_storable : (P (F := F) m I Val).IsStorable where
  st q d c := match q with
    | 0 => (inferInstance : BI.Storable (upEmb : UEmb _ 𝕄) (bigSep Finset.univ fun i : Fin 16 => goRes m I Val d (Fin.cast nCore_zero c) i))
  dn q d c := match q with
    | 0 => (inferInstance : BI.Storable (upEmb : UEmb _ 𝕄) (bigSep Finset.univ fun i : Fin 16 => tdRes (F := F) Val d (Fin.cast nCore_zero c) i))
  go q d c i := match q with
    | 0 => (inferInstance : BI.Storable (upEmb : UEmb _ 𝕄) (goRes m I Val d (Fin.cast nCore_zero c) (Fin.cast nSub_zero i)))
  td q d c i := match q with
    | 0 => (inferInstance : BI.Storable (upEmb : UEmb _ 𝕄) (tdRes (F := F) Val d (Fin.cast nCore_zero c) (Fin.cast nSub_zero i)))

/-! ## A SparseCore's share is its subcores' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m I Val) 0 := by
  intro d c
  show (bigSep Finset.univ fun i : Fin 16 => goRes m I Val d (Fin.cast nCore_zero c) i) ⊢ |={Set.univ}=> iprop(
      (bigSep Finset.univ fun i : Fin ((K (F := F)).nSub 0) => goRes m I Val d (Fin.cast nCore_zero c) (Fin.cast nSub_zero i))
      ∗ ((bigSep Finset.univ fun i : Fin ((K (F := F)).nSub 0) => tdRes (F := F) Val d (Fin.cast nCore_zero c) (Fin.cast nSub_zero i))
          -∗ bigSep Finset.univ fun i : Fin 16 => tdRes (F := F) Val d (Fin.cast nCore_zero c) i))
  rw [bigSep_tasks (F := F) (fun i => goRes m I Val d (Fin.cast nCore_zero c) i),
    bigSep_tasks (F := F) (fun i => tdRes (F := F) Val d (Fin.cast nCore_zero c) i)]
  iintro H; imodintro
  isplitl [H]; · iexact H
  iintro H; iexact H

/-! ## The launch element -/

section Element

variable (uP₀ : UP)

def u₀ : UU := (initOf (K (F := F)).hsCells (K (F := F)).hsToks, (uP₀, 1))

omit [FloatOps F] in
theorem bigSep_emp' {J : Type} (s : Finset J) : (bigSep s fun _ => iprop(emp)) = (iprop(emp) : sProp 𝕄) := bigSep_emp_const s

theorem hu₀ (regionGhost : Dev nD → sProp 𝕄) (hfund : (BI.own (EP (F := F) uP₀) : sProp 𝕄) ⊢ iprop(|==> bigSep Finset.univ regionGhost)) :
    (ownU (u₀ (F := F) uP₀) : sProp 𝕄)
      ⊢ |={Set.univ}=> iprop(BI.own (EH (initOf (K (F := F)).hsCells (K (F := F)).hsToks)) ∗ (bigSep Finset.univ regionGhost)
        ∗ bigSep Finset.univ fun thr : Thread nD τ => bigSep Finset.univ fun q : Fin 1 => (P m I Val).x q thr) := by
  unfold u₀
  iintro Hu
  ihave H := (ownU_pair _ _) $$ Hu
  icases H with ⟨HH, HR⟩
  ihave HR' := (own_pair_emb (embR (A := UH) (B := UP × Counters)) uP₀ (1 : Counters)) $$ HR
  icases HR' with ⟨HP, -⟩
  have hfund' : (BI.own (((Emb.inl : Emb UP (UP × Counters)).trans (embR (A := UH) (B := UP × Counters))) uP₀) : sProp 𝕄)
      ⊢ iprop(|==> bigSep Finset.univ regionGhost) := hfund
  imod hfund' $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Element

/-! ## What @main leaves, and the claim read off the final memory -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev rLoc (d : Dev nD) : Loc nD τ sig := (SparseCore.T d).loc main_v4

/-- The result array from the flat result: the same values in the result's layout. -/
def relay (d : Dev nD) (g : Buf (Elt F) (oLoc d)) : Buf (Elt F) (rLoc d) :=
  fun i => shapeCast S4096x200x1 g shapeCasts_S819200_S4096x200x1 i

/-- The result array is the re-laid flat array `g`, every value of which is as `Val` says. -/
def ResOk (d : Dev nD) (r : Buf (Elt F) (rLoc d)) : Prop := ∃ g : Buf (Elt F) (oLoc d), (∀ k : S819200.Idx, Val d k (g k)) ∧ r = relay d g

def FIN (d : Dev nD) : sProp 𝕄 :=
  iprop((a0Loc d ↦{fullShare} m (a0Loc d)) ∗ (a1Loc d ↦{fullShare} m (a1Loc d)) ∗ (a2Loc d ↦{fullShare} m (a2Loc d)) ∗ (a3Loc d ↦{fullShare} m (a3Loc d))
    ∗ ∃ r : Buf (Elt F) (rLoc d), ⌜ResOk Val d r⌝ ∗ rLoc d ↦{fullShare} r)

def fq (d : Dev nD) (s' : Phys nD τ sig (Elt F)) : Prop :=
  ResOk Val d (s'.mem.mem (rLoc d)) ∧ s'.mem.mem (a0Loc d) = m (a0Loc d) ∧ s'.mem.mem (a1Loc d) = m (a1Loc d)
    ∧ s'.mem.mem (a2Loc d) = m (a2Loc d) ∧ s'.mem.mem (a3Loc d) = m (a3Loc d)

theorem agree_full (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h1, HSI, -⟩
  isplitr
  · ipureintro; exact funext fun i => h1 i (Finset.mem_univ i)
  · iexact HSI

theorem hfin (d : Dev nD) (s' : Phys nD τ sig (Elt F)) : iprop(FIN m Val d ∗ SI s') ⊢ (⌜fq m Val d s'⌝ : sProp 𝕄) := by
  unfold FIN
  iintro ⟨⟨H0, H1, H2, H3, %r, %hr, Hr⟩, HSI⟩
  ihave H := (agree_full s' (a0Loc d) _) $$ [H0 HSI]
  · isplitl [H0] <;> iassumption
  icases H with ⟨%h0, HSI⟩
  ihave H := (agree_full s' (a1Loc d) _) $$ [H1 HSI]
  · isplitl [H1] <;> iassumption
  icases H with ⟨%h1, HSI⟩
  ihave H := (agree_full s' (a2Loc d) _) $$ [H2 HSI]
  · isplitl [H2] <;> iassumption
  icases H with ⟨%h2, HSI⟩
  ihave H := (agree_full s' (a3Loc d) _) $$ [H3 HSI]
  · isplitl [H3] <;> iassumption
  icases H with ⟨%h3, HSI⟩
  ihave H := (agree_full s' (rLoc d) r) $$ [Hr HSI]
  · isplitl [Hr] <;> iassumption
  icases H with ⟨%h4, -⟩
  ipureintro
  exact ⟨h4 ▸ hr, h0, h1, h2, h3⟩

def QC : PUnit × MemSt nD τ sig (Elt F) → Prop := fun r => ∀ c : Dev nD,
  ResOk Val c (r.2.mem (rLoc c)) ∧ r.2.mem (a0Loc c) = m (a0Loc c) ∧ r.2.mem (a1Loc c) = m (a1Loc c)
    ∧ r.2.mem (a2Loc c) = m (a2Loc c) ∧ r.2.mem (a3Loc c) = m (a3Loc c)

end Cert.Proof.KI

end
-- ==== Proof.KI.LaunchB.lean ====
/-
  The launch of the gather-of-scores program, second half: how @main's arrays are dealt to the 32 subcores and
  collected again. The flat scores and the flat indices are read by every subcore: each goes out as 2 × 16 read shares
  of the whole array. The flat result is written in 64 disjoint chunks of 12800 that cover it; chunk `4 i + 2 c + r` goes to
  subcore `i` of SparseCore `c`, so the 64 chunks regroup as 2 × 16 pairs. Coming back, each chunk is at contents whose every
  value is as `Val` says; the chunks being disjoint and covering, they are one array of which the same holds everywhere.
-/
import proofs.«211127_g52536039965321_cont_9to1c4b_697_4_alg».proof.Proof.KI.LaunchA

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]
variable (I : (d : Dev nD) → Buf (Elt F) (iLoc d)) (Val : (d : Dev nD) → S819200.Idx → Elt F .f32 → Prop)

/-! ## Read shares for 2 × 16 subcores -/

omit [FloatOps F] in
theorem share_split (ℓ : Loc nD τ sig) (f : Buf (Elt F) ℓ) :
    (ℓ ↦{fullShare} f : sProp 𝕄) ⊢ bigSep Finset.univ fun c : Fin 2 => bigSep Finset.univ fun i : Fin 16 => ℓ ↦{qT c i} f := by
  refine (Transfers.pointsTo_toks_split fullShare 2).trans (sep_elim_right.trans ?_)
  exact bigSep_mono fun c _ => (Transfers.pointsTo_toks_split (qC c) 16).trans sep_elim_right

/-! ## The flat result in 64 chunks -/

omit [FloatOps F] in
theorem chunkSet_part (n : Fin 64) : chunkSet n = (chunk n).set := by
  show ((View.whole (main_v3_scv : Ref sig .scVector)).slice (chunk n)).set = _
  rw [View.set_slice]; exact Finset.map_refl
omit [FloatOps F] in
theorem chunks_disjoint : ∀ i ∈ (Finset.univ : Finset (Fin 64)), ∀ j ∈ (Finset.univ : Finset (Fin 64)), i ≠ j → Disjoint (chunkSet i) (chunkSet j) :=
  fun i _ j _ h => by rw [chunkSet_part, chunkSet_part]; exact Rect.part_disjoint hdiv64 h
omit [FloatOps F] in
theorem chunks_cover : (Finset.univ : Finset (Fin 64)).biUnion chunkSet = Finset.univ :=
  (Finset.biUnion_congr rfl fun i _ => chunkSet_part i).trans (Rect.biUnion_part hdiv64)

omit [FloatOps F] in
theorem oPts_chunks (d : Dev nD) (f : Buf (Elt F) (oLoc d)) :
    (oLoc d ↦{fullShare} f : sProp 𝕄) = bigSep Finset.univ fun n : Fin 64 => oLoc d ↦[chunkSet n]{fullShare} f := by
  rw [← pointsTo_biUnion Finset.univ (ℓ := oLoc d) chunkSet chunks_disjoint, chunks_cover]; try rfl

/-- The 64 chunk numbers are the triples (SparseCore, subcore, chunk of the subcore). -/
def chunkEquiv : Fin 2 × Fin 16 × Fin 2 ≃ Fin 64 where
  toFun x := chunkNo x.1 x.2.1 x.2.2
  invFun n := (⟨(n.val / 2) % 2, Nat.mod_lt _ (by decide)⟩, ⟨n.val / 4, by omega⟩, ⟨n.val % 2, Nat.mod_lt _ (by decide)⟩)
  left_inv := by
    rintro ⟨c, i, r⟩
    simp only [chunkNo, Prod.mk.injEq]
    refine ⟨Fin.ext ?_, Fin.ext ?_, Fin.ext ?_⟩ <;> simp only <;> omega
  right_inv := by
    intro n
    simp only [chunkNo]
    exact Fin.ext (by simp only; omega)

omit [FloatOps F] in
theorem bigSep_chunks (Φ : Fin 64 → sProp 𝕄) :
    bigSep Finset.univ Φ = bigSep Finset.univ fun c : Fin 2 => bigSep Finset.univ fun i : Fin 16 => iprop(Φ (chunkNo c i 0) ∗ Φ (chunkNo c i 1)) := by
  rw [← Finset.map_univ_equiv chunkEquiv, BI.bigSep_map, bigSep_univ_prod]
  refine bigSep_congr fun c _ => ?_
  rw [bigSep_univ_prod]
  refine bigSep_congr fun i _ => ?_
  exact bigSep_univ_two _

/-! ## Dealing the arrays to the tasks, and collecting the result -/

theorem go_intro (d : Dev nD) (Sc : Buf (Elt F) (sLoc d)) (hS : Sok I Val d Sc) :
    iprop((sLoc d ↦{fullShare} Sc) ∗ (iLoc d ↦{fullShare} I d) ∗ (oLoc d ↦{fullShare} m (oLoc d)))
      ⊢ (bigSep Finset.univ fun c : Fin 2 => bigSep Finset.univ fun i : Fin 16 => goRes m I Val d c i : sProp 𝕄) := by
  have hitem : ∀ (c : Fin 2) (i : Fin 16), iprop((sLoc d ↦{qT c i} Sc) ∗ (iLoc d ↦{qT c i} I d)
      ∗ (oLoc d ↦[chunkSet (chunkNo c i 0)]{fullShare} m (oLoc d)) ∗ (oLoc d ↦[chunkSet (chunkNo c i 1)]{fullShare} m (oLoc d)))
        ⊢ (goRes m I Val d c i : sProp 𝕄) := by
    intro c i
    unfold goRes
    iintro ⟨Hs, Hi, Ho0, Ho1⟩
    iexists Sc
    isplitr; · ipureintro; exact hS
    isplitl [Hs]; · iexact Hs
    isplitl [Hi]; · iexact Hi
    isplitl [Ho0]; · iexact Ho0
    iexact Ho1
  rw [oPts_chunks, bigSep_chunks]
  refine (BIClass.sep_mono (share_split _ _) (BIClass.sep_mono (share_split _ _) .rfl)).trans ?_
  rw [← bigSep_sep', ← bigSep_sep']
  refine bigSep_mono fun c _ => ?_
  rw [← bigSep_sep', ← bigSep_sep']
  exact bigSep_mono fun i _ => hitem c i

omit [FloatOps F] in
theorem sep_pure_comm {A : sProp 𝕄} {φ : Prop} : iprop(A ∗ ⌜φ⌝) ⊢ (iprop(⌜φ⌝ ∗ A) : sProp 𝕄) := by
  iintro ⟨H, %h⟩
  isplitr; · ipureintro; exact h
  iexact H

theorem td_join [∀ e, Nonempty (Elt F e)] (d : Dev nD) :
    (bigSep Finset.univ fun c : Fin 2 => bigSep Finset.univ fun i : Fin 16 => tdRes (F := F) Val d c i)
      ⊢ (iprop(∃ g : Buf (Elt F) (oLoc d), ⌜∀ k : S819200.Idx, Val d k (g k)⌝ ∗ oLoc d ↦{fullShare} g) : sProp 𝕄) := by
  unfold tdRes
  rw [← bigSep_chunks (fun n => tdChunk (F := F) Val d n)]
  unfold tdChunk
  refine (bigSep_exists_pi Finset.univ (fun n (f : Buf (Elt F) (oLoc d)) =>
    iprop((oLoc d ↦[chunkSet n]{fullShare} f) ∗ ⌜∀ k ∈ chunkSet n, Val d k (f k)⌝))).trans ?_
  iintro ⟨%fs, H⟩
  have hcomm : (bigSep Finset.univ fun n : Fin 64 => iprop((oLoc d ↦[chunkSet n]{fullShare} fs n) ∗ ⌜∀ k ∈ chunkSet n, Val d k (fs n k)⌝) : sProp 𝕄)
      ⊢ bigSep Finset.univ fun n : Fin 64 => iprop(⌜∀ k ∈ chunkSet n, Val d k (fs n k)⌝ ∗ (oLoc d ↦[chunkSet n]{fullShare} fs n)) :=
    bigSep_mono fun n _ => sep_pure_comm
  ihave H1 := (hcomm) $$ H
  ihave H2 := (bigSep_pure_sep Finset.univ (fun n : Fin 64 => ∀ k ∈ chunkSet n, Val d k (fs n k)) (fun n => (oLoc d ↦[chunkSet n]{fullShare} fs n))) $$ H1
  icases H2 with ⟨%hv, Hp⟩
  ihave H3 := (pointsTo_biUnion_join Finset.univ chunkSet fs (fs 0) chunks_disjoint) $$ Hp
  icases H3 with ⟨%g, %hg, Hg⟩
  rw [chunks_cover]
  iexists g
  isplitr
  · ipureintro
    intro k
    have hk' : k ∈ (Finset.univ : Finset (Fin 64)).biUnion chunkSet := by rw [chunks_cover]; exact Finset.mem_univ k
    obtain ⟨n, -, hk⟩ := Finset.mem_biUnion.mp hk'
    rw [hg n (Finset.mem_univ n) k hk]
    exact hv n (Finset.mem_univ n) k hk
  · iexact Hg

end Cert.Proof.KI

end
-- ==== Proof.KI.LaunchC.lean ====
/-
  @main of the gather-of-scores program on a device's TensorCore, and the program's run.

  @main runs the pipelined region that leaves the scores in a [49, 1, 2048] array, re-lays that array flat, re-lays
  the index array flat, starts the gather kernel on the two SparseCores and waits for it, and re-lays the flat result as
  the result array. What is known of the scores after the region is a predicate `RegionPost`; it is asked to imply that
  the flat scores satisfy `Val` at the position each index names (`Sok`). The arrays are followed as one valuation of the
  TensorCore's nine arrays, each host operation taking it to the operation's result; the call takes the three flat
  arrays out and puts the flat result back at contents every value of which is as `Val` says.
-/
import proofs.«211127_g52536039965321_cont_9to1c4b_697_4_alg».proof.Proof.KI.LaunchB

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]
variable (Val : (d : Dev nD) → S819200.Idx → Elt F .f32 → Prop)

/-! ## The TensorCore's nine arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev S9 : Finset (DevRef τ sig) := {a0', a1', a2', a3', v0', v1', v2', v3', v4'}
abbrev v0Loc (d : Dev nD) : Loc nD τ sig := (SparseCore.T d).loc main_v0

omit [FloatOps F] in
theorem held_S9 (d : Dev nD) (W : Valuation τ sig (Elt F)) :
    (held (T d) S9 W : sProp 𝕄) = iprop((a0Loc d ↦{fullShare} W a0') ∗ (a1Loc d ↦{fullShare} W a1') ∗ (a2Loc d ↦{fullShare} W a2') ∗ (a3Loc d ↦{fullShare} W a3')
      ∗ (v0Loc d ↦{fullShare} W v0') ∗ (sLoc d ↦{fullShare} W v1') ∗ (iLoc d ↦{fullShare} W v2') ∗ (oLoc d ↦{fullShare} W v3') ∗ (rLoc d ↦{fullShare} W v4')) := by
  unfold held S9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- The seven arrays @main still holds whole after the call (the flat scores and indices went out as read shares). -/
abbrev S7 : Finset (DevRef τ sig) := {a0', a1', a2', a3', v0', v3', v4'}

omit [FloatOps F] in
theorem held_S7 (d : Dev nD) (W : Valuation τ sig (Elt F)) :
    (held (T d) S7 W : sProp 𝕄) = iprop((a0Loc d ↦{fullShare} W a0') ∗ (a1Loc d ↦{fullShare} W a1') ∗ (a2Loc d ↦{fullShare} W a2') ∗ (a3Loc d ↦{fullShare} W a3')
      ∗ (v0Loc d ↦{fullShare} W v0') ∗ (oLoc d ↦{fullShare} W v3') ∗ (rLoc d ↦{fullShare} W v4')) := by
  unfold held S7
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2) ∗ (a3Loc d ↦{fullShare} W main_arg3)
      ∗ (v0Loc d ↦{fullShare} W main_v0) ∗ (sLoc d ↦{fullShare} W main_v1) ∗ (iLoc d ↦{fullShare} W main_v2) ∗ (oLoc d ↦{fullShare} W main_v3) ∗ (rLoc d ↦{fullShare} W main_v4)) := by
  unfold unscopedBufs
  rw [show (Finset.univ.filter fun b : Ref sig .tc => ¬ b.isScoped) = {main_arg0, main_arg1, main_arg2, main_arg3, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-! ## The three re-layings, and the arrays' contents along @main -/

abbrev op1 : HloOp τ sig (Elt F) := StableHlo.reshape main_v0 main_v1 rfl shapeCasts_S49x1x2048_S100352
abbrev op2 : HloOp τ sig (Elt F) := StableHlo.reshape main_arg0 main_v2 rfl shapeCasts_S4096x200_S819200
abbrev op3 : HloOp τ sig (Elt F) := StableHlo.reshape main_v3 main_v4 rfl shapeCasts_S819200_S4096x200x1

/-- The flat scores from the region's [49, 1, 2048] result, and the flat indices from the index array. -/
def flatS (d : Dev nD) (f0 : Buf (Elt F) (v0Loc d)) : Buf (Elt F) (sLoc d) := fun i => shapeCast S100352 f0 shapeCasts_S49x1x2048_S100352 i
def flatI (d : Dev nD) : Buf (Elt F) (iLoc d) := fun i => shapeCast S819200 (m (a0Loc d)) shapeCasts_S4096x200_S819200 i

def V0 (d : Dev nD) : Valuation τ sig (Elt F) := fun b => m (d, b)
def V1 (d : Dev nD) (f0 : Buf (Elt F) (v0Loc d)) : Valuation τ sig (Elt F) := Function.update (V0 m d) v0' f0
def V3 (d : Dev nD) (f0 : Buf (Elt F) (v0Loc d)) : Valuation τ sig (Elt F) := (op2 (F := F)).result ((op1 (F := F)).result (V1 m d f0))
def V4 (d : Dev nD) (f0 : Buf (Elt F) (v0Loc d)) (g : Buf (Elt F) (oLoc d)) : Valuation τ sig (Elt F) := Function.update (V3 m d f0) v3' g
def V5 (d : Dev nD) (f0 : Buf (Elt F) (v0Loc d)) (g : Buf (Elt F) (oLoc d)) : Valuation τ sig (Elt F) := (op3 (F := F)).result (V4 m d f0 g)

theorem hop1 : (op1 (F := F)).bufs ⊆ S9 := show ({v0', v1'} : Finset (DevRef τ sig)) ⊆ S9 by decide
theorem hop2 : (op2 (F := F)).bufs ⊆ S9 := show ({a0', v2'} : Finset (DevRef τ sig)) ⊆ S9 by decide
theorem hop3 : (op3 (F := F)).bufs ⊆ S7 := show ({v3', v4'} : Finset (DevRef τ sig)) ⊆ S7 by decide

section Contents
variable (d : Dev nD) (f0 : Buf (Elt F) (v0Loc d)) (g : Buf (Elt F) (oLoc d))

theorem V1_ne {r : Ref sig .tc} (h : r ≠ main_v0) : V1 m d f0 (Proc.devRef .tc r) = m (d, Proc.devRef .tc r) :=
  Function.update_of_ne (fun e => h (Proc.devRef_injective _ e)) _ _
theorem V3_ne {r : Ref sig .tc} (h0 : r ≠ main_v0) (h1 : r ≠ main_v1) (h2 : r ≠ main_v2) : V3 m d f0 (Proc.devRef .tc r) = m (d, Proc.devRef .tc r) := by
  unfold V3
  rw [StableHlo.reshape_result_ne (h := h2), StableHlo.reshape_result_ne (h := h1), V1_ne m d f0 h0]
theorem V3_v1 : V3 m d f0 v1' = flatS d f0 := by
  unfold V3
  rw [StableHlo.reshape_result_ne (h := show main_v1 ≠ main_v2 by decide), StableHlo.reshape_result]
  unfold V1 flatS
  rw [Function.update_self]
  rfl
theorem V3_v2 : V3 m d f0 v2' = flatI m d := by
  unfold V3
  rw [StableHlo.reshape_result, StableHlo.reshape_result_ne (h := show main_arg0 ≠ main_v1 by decide), V1_ne m d f0 (show main_arg0 ≠ main_v0 by decide)]
  rfl
theorem V4_ne {r : Ref sig .tc} (h : r ≠ main_v3) : V4 m d f0 g (Proc.devRef .tc r) = V3 m d f0 (Proc.devRef .tc r) :=
  Function.update_of_ne (fun e => h (Proc.devRef_injective _ e)) _ _
theorem V4_v3 : V4 m d f0 g v3' = g := Function.update_self _ _ _
theorem V5_arg {r : Ref sig .tc} (h0 : r ≠ main_v0) (h1 : r ≠ main_v1) (h2 : r ≠ main_v2) (h3 : r ≠ main_v3) (h4 : r ≠ main_v4) :
    V5 m d f0 g (Proc.devRef .tc r) = m (d, Proc.devRef .tc r) := by
  unfold V5
  rw [StableHlo.reshape_result_ne (h := h4), V4_ne m d f0 g h3, V3_ne m d f0 h0 h1 h2]
theorem V5_v4 : V5 m d f0 g v4' = relay d g := by
  unfold V5
  rw [StableHlo.reshape_result]
  unfold V4 relay
  rw [Function.update_self]
  rfl

end Contents

/-! ## @main -/

section Main

variable (RegionPost : (d : Dev nD) → Buf (Elt F) (v0Loc d) → Prop)

/-- The region's step, as @main meets it: everything the TensorCore holds goes in; it comes back with the region's result
    array at contents of which `RegionPost` holds, the other arrays untouched. -/
def HRegion (regionGhost : Dev nD → sProp 𝕄) (Pp : (K (F := F)).Pay (nD := nD) (Val := Elt F) (Name := ℕ) (U := UU)) : Prop :=
  ∀ (κ : GSem nD τ sig → ℕ) (d : Dev nD) (Φ : PUnit → sProp 𝕄),
    iprop((K (F := F)).ctx EH Pp κ ∗ (K (F := F)).tcSt EH d 0 ∗ boundary (SparseCore.T d) ∗ unscopedBufs d (fun b => m ((SparseCore.T d).loc b)) ∗ regionGhost d
        ∗ (∀ f0 : Buf (Elt F) (v0Loc d), ⌜RegionPost d f0⌝ -∗ ((K (F := F)).tcSt EH d 0 ∗ boundary (SparseCore.T d)
            ∗ unscopedBufs d (Function.update (fun b => m ((SparseCore.T d).loc b)) main_v0 f0)) -∗ Φ ⟨⟩))
      ⊢ wp frame (wpE ((K (F := F)).defs (D (F := F))) 𝒱 (SparseCore.T d) none) Set.univ
          (Prog.lift (.customCall (SparseCore.inner (Pipeline.entry 0)) ())) Φ

theorem st0_eq (d : Dev nD) : (bigSep Finset.univ fun c : Fin ((K (F := F)).nCore 0) => (P m (flatI m) Val).st 0 d c)
    = bigSep Finset.univ fun c : Fin 2 => bigSep Finset.univ fun i : Fin 16 => goRes m (flatI m) Val d c i := by
  show (bigSep (Finset.univ : Finset (Fin 2)) fun c => bigSep Finset.univ fun i : Fin 16 => goRes m (flatI m) Val d (Fin.cast nCore_zero c) i) = _
  exact bigSep_congr fun c _ => bigSep_congr fun i _ => congrArg (fun c' => goRes m (flatI m) Val d c' i) (Fin.ext rfl)
theorem dn0_eq (d : Dev nD) : (bigSep Finset.univ fun c : Fin ((K (F := F)).nCore 0) => (P m (flatI m) Val).dn 0 d c)
    = bigSep Finset.univ fun c : Fin 2 => bigSep Finset.univ fun i : Fin 16 => tdRes (F := F) Val d c i := by
  show (bigSep (Finset.univ : Finset (Fin 2)) fun c => bigSep Finset.univ fun i : Fin 16 => tdRes (F := F) Val d (Fin.cast nCore_zero c) i) = _
  exact bigSep_congr fun c _ => bigSep_congr fun i _ => congrArg (fun c' => tdRes (F := F) Val d c' i) (Fin.ext rfl)

theorem hmain [∀ e, Nonempty (Elt F e)] (regionGhost : Dev nD → sProp 𝕄) (hreg : HRegion m RegionPost regionGhost (P m (flatI m) Val))
    (hSok : ∀ d f0, RegionPost d f0 → Sok (flatI m) Val d (flatS d f0)) (κ : GSem nD τ sig → ℕ) (d : Dev nD) :
    iprop((K (F := F)).ctx EH (P m (flatI m) Val) κ ∗ (K (F := F)).tcSt EH d 0 ∗ (K (F := F)).tcRes m ρ d ∗ regionGhost d)
      ⊢ wp frame (wpE ((K (F := F)).defs (D (F := F))) 𝒱 (SparseCore.T d) none) Set.univ (main d)
          fun _ => iprop((K (F := F)).tcSt EH d 1 ∗ FIN m Val d) := by
  unfold SparseCore.Cfg.tcRes
  simp only [main, wp_bind, wp_pure]
  iintro ⟨#Hctx, Hst, ⟨Hb, Hbufs, -, -⟩, HG⟩
  iapply (hreg κ d _)
  isplitr; · iexact Hctx
  isplitl [Hst]; · iexact Hst
  isplitl [Hb]; · iexact Hb
  isplitl [Hbufs]; · iexact Hbufs
  isplitl [HG]; · iexact HG
  iintro %f0 %hf0 ⟨Hst, Hb, Hbufs⟩
  -- the arrays as one valuation
  ihave Hheld := (show (unscopedBufs d (Function.update (fun b => m ((SparseCore.T d).loc b)) main_v0 f0) : sProp 𝕄) ⊢ held (SparseCore.T d) S9 (V1 m d f0) from by
    rw [unscopedBufs_eq, held_S9]
    rw [Function.update_self, Function.update_of_ne (show main_arg0 ≠ main_v0 by decide), Function.update_of_ne (show main_arg1 ≠ main_v0 by decide),
      Function.update_of_ne (show main_arg2 ≠ main_v0 by decide), Function.update_of_ne (show main_arg3 ≠ main_v0 by decide),
      Function.update_of_ne (show main_v1 ≠ main_v0 by decide), Function.update_of_ne (show main_v2 ≠ main_v0 by decide),
      Function.update_of_ne (show main_v3 ≠ main_v0 by decide), Function.update_of_ne (show main_v4 ≠ main_v0 by decide)]
    rw [V1_ne m d f0 (show main_arg0 ≠ main_v0 by decide), V1_ne m d f0 (show main_arg1 ≠ main_v0 by decide), V1_ne m d f0 (show main_arg2 ≠ main_v0 by decide),
      V1_ne m d f0 (show main_arg3 ≠ main_v0 by decide), V1_ne m d f0 (show main_v1 ≠ main_v0 by decide), V1_ne m d f0 (show main_v2 ≠ main_v0 by decide),
      V1_ne m d f0 (show main_v3 ≠ main_v0 by decide), V1_ne m d f0 (show main_v4 ≠ main_v0 by decide)]
    try (unfold V1; rw [Function.update_self])
    try exact .rfl) $$ Hbufs
  -- the scores re-laid flat
  iapply (wp_hlo_within 𝒱 (SparseCore.T d) none Set.univ (op := op1) (S := S9) hop1 (V := V1 m d f0)) $$ [Hb Hheld]
  · isplitl [Hb] <;> iassumption
  iintro ⟨Hb, Hheld⟩
  rw [wp_ret]; imodintro
  -- the indices re-laid flat
  iapply (wp_hlo_within 𝒱 (SparseCore.T d) none Set.univ (op := op2) (S := S9) hop2 (V := (op1 (F := F)).result (V1 m d f0))) $$ [Hb Hheld]
  · isplitl [Hb] <;> iassumption
  iintro ⟨Hb, Hheld⟩
  rw [wp_ret]; imodintro
  ihave Hheld := (show (held (SparseCore.T d) S9 ((op2 (F := F)).result ((op1 (F := F)).result (V1 m d f0))) : sProp 𝕄) ⊢ held (SparseCore.T d) S9 (V3 m d f0) from .rfl) $$ Hheld
  ihave Hh := (Entails.of_eq (held_S9 (F := F) d (V3 m d f0))) $$ Hheld
  icases Hh with ⟨H0, H1, H2, H3, Hv0, Hs, Hi, Ho, Hr⟩
  -- the call
  iapply ((K (F := F)).wp_run (D (F := F)) 𝒱 (EH := EH) (P := P m (flatI m) Val) κ d 0) $$ [Hst Hs Hi Ho Hb H0 H1 H2 H3 Hv0 Hr]
  isplitr; · iexact Hctx
  isplitl [Hst]; · iexact Hst
  isplitl [Hs Hi Ho]
  · rw [st0_eq]
    iapply (go_intro m (flatI m) Val d (flatS d f0) (hSok d f0 hf0))
    rw [V3_v1, V3_v2, V3_ne m d f0 (show main_v3 ≠ main_v0 by decide) (show main_v3 ≠ main_v1 by decide) (show main_v3 ≠ main_v2 by decide)]
    isplitl [Hs]; · iexact Hs
    isplitl [Hi]; · iexact Hi
    iexact Ho
  iintro ⟨Hst, Hdn⟩
  ihave Hdn' := (Entails.of_eq (dn0_eq m Val d)) $$ Hdn
  ihave Hj := (td_join Val d) $$ Hdn'
  icases Hj with ⟨%g, %hg, Ho⟩
  -- the result re-laid
  iapply (wp_hlo_within 𝒱 (SparseCore.T d) none Set.univ (op := op3) (S := S7) hop3 (V := V4 m d f0 g)) $$ [Hb H0 H1 H2 H3 Hv0 Ho Hr]
  · isplitl [Hb]; · iexact Hb
    rw [held_S7, V4_ne m d f0 g (show main_arg0 ≠ main_v3 by decide), V4_ne m d f0 g (show main_arg1 ≠ main_v3 by decide),
      V4_ne m d f0 g (show main_arg2 ≠ main_v3 by decide), V4_ne m d f0 g (show main_arg3 ≠ main_v3 by decide),
      V4_ne m d f0 g (show main_v0 ≠ main_v3 by decide), V4_ne m d f0 g (show main_v4 ≠ main_v3 by decide), V4_v3]
    isplitl [H0]; · iexact H0
    isplitl [H1]; · iexact H1
    isplitl [H2]; · iexact H2
    isplitl [H3]; · iexact H3
    isplitl [Hv0]; · iexact Hv0
    isplitl [Ho]; · iexact Ho
    iexact Hr
  iintro ⟨Hb, Hheld⟩
  ihave Hheld := (show (held (SparseCore.T d) S7 ((op3 (F := F)).result (V4 m d f0 g)) : sProp 𝕄) ⊢ held (SparseCore.T d) S7 (V5 m d f0 g) from .rfl) $$ Hheld
  ihave Hh := (Entails.of_eq (held_S7 (F := F) d (V5 m d f0 g))) $$ Hheld
  icases Hh with ⟨H0, H1, H2, H3, -, -, Hr⟩
  rw [wp_ret]; imodintro; imodintro
  isplitl [Hst]; · iexact Hst
  unfold FIN
  isplitl [H0]
  · rw [V5_arg m d f0 g (r := main_arg0) (by decide) (by decide) (by decide) (by decide) (by decide)]; iexact H0
  isplitl [H1]
  · rw [V5_arg m d f0 g (r := main_arg1) (by decide) (by decide) (by decide) (by decide) (by decide)]; iexact H1
  isplitl [H2]
  · rw [V5_arg m d f0 g (r := main_arg2) (by decide) (by decide) (by decide) (by decide) (by decide)]; iexact H2
  isplitl [H3]
  · rw [V5_arg m d f0 g (r := main_arg3) (by decide) (by decide) (by decide) (by decide) (by decide)]; iexact H3
  iexists (relay d g)
  isplitr; · ipureintro; exact ⟨g, hg, rfl⟩
  rw [V5_v4]; iexact Hr

/-! ## The program's run -/

theorem run_main [∀ e, Nonempty (Elt F e)] (regionGhost : Dev nD → sProp 𝕄) (uP₀ : UP)
    (hfund : (BI.own (EP (F := F) uP₀) : sProp 𝕄) ⊢ iprop(|==> bigSep Finset.univ regionGhost))
    (hreg : HRegion m RegionPost regionGhost (P m (flatI m) Val))
    (hSok : ∀ d f0, RegionPost d f0 → Sok (flatI m) Val d (flatS d f0))
    (htile : (K (F := F)).TileObl (D (F := F)) 𝒱 (P m (flatI m) Val) v₀ 0) :
    θ_run (Cert.KernelIdeal.defs (F := F)) (Cert.KernelIdeal.threads (F := F)) ⟨m, fun _ => 0, ρ⟩ (QC m Val) :=
  SparseCore.Cfg.θ_run_sc (K := K (F := F)) (D := D (F := F)) (𝒱 := 𝒱) (EH := EH) (P := P m (flatI m) Val) facts v₀
    (fun q hq => match q with | 0 => nomatch hq)
    (fun q _ => match q with | 0 => htile)
    (fun q _ => match q with | 0 => SparseCore.Cfg.VecSplit.of_plain (vecSplit m (flatI m) Val))
    m ρ main regionGhost (FIN m Val) (u₀ (F := F) uP₀) (sep_elim_left.trans (hu₀ m (flatI m) Val uP₀ regionGhost hfund))
    (hmain m ρ Val RegionPost regionGhost hreg hSok) (fq m Val) (hfin m Val) (QC m Val) (fun _ h => h)

end Main

end Cert.Proof.KI

end
-- ==== Proof.KI.Flat.lean ====
/-
  The flat index at a position is the index array's entry at the position's row and column (the flat array is the index
  array read row by row, 200 to a row); so a bound on every entry of the index array bounds every flat index.
-/
import proofs.«211127_g52536039965321_cont_9to1c4b_697_4_alg».proof.Proof.KI.LaunchC
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ)
variable [FloatOps F]

open Idealize.ShloMosaic.ValueIdx

omit [FloatOps F] in
/-- A rank-1 index's coordinate is below the extent, written as the number itself. -/
theorem idx1_lt {n : Nat} (j : (⟨1, ![n]⟩ : Shape).Idx) : (j 0).val < n := (j 0).isLt

theorem flatI_apply (d : Dev nD) (k : S819200.Idx) :
    flatI m d k = (m (a0Loc d) : S4096x200.Idx → BitVec 32) (ix2 ⟨(k 0).val / 200, by have h := idx1_lt k; omega⟩ ⟨(k 0).val % 200, Nat.mod_lt _ (by decide)⟩) := by
  unfold flatI
  refine shapeCast_apply _ _ _ _ ?_
  show (S4096x200.rowMajor _).val = (S819200.rowMajor k).val
  rw [Shape.rowMajor_val_two, Shape.rowMajor_val_one]
  show (k 0).val / 200 * 200 + (k 0).val % 200 = (k 0).val
  omega

theorem flatI_le (B : ℕ) (d : Dev nD) (h0 : ∀ j : S4096x200.Idx, ((m (a0Loc d) : S4096x200.Idx → BitVec 32) j).toNat ≤ B) (k : S819200.Idx) :
    (flatI m d k).toNat ≤ B := by
  rw [flatI_apply]
  exact h0 _

end Cert.Proof.KI

end
-- ==== Proof.KI.Tile.lean ====
/-
  One subcore's task of the gather-of-scores kernel, generic in the float instance.

  The subcore at place (SparseCore `c`, subcore `s`) is handed a read share of the flat scores (contents `Sc`, of which
  `Sok` is known) and of the flat indices, and its two chunks of the flat result: chunks number `4 s + 2 c + r`, `r = 0, 1`,
  flat positions `12800 (4 s + 2 c + r)` onwards. It copies all the scores into its first scratch; then for each chunk it
  copies the chunk's 12800 indices into its second scratch, runs 800 trips each of which reads 16 indices at `16 t`, looks
  each up in the first scratch and stores the 16 scores at `16 t` of its third scratch, and copies the third scratch out to
  the chunk of the flat result.

  The mathematics carried along: after the first copy the first scratch reads as `Sc`; after a chunk's index copy position
  `p` of the second scratch is the index at flat position `12800 n + p`; before trip `t` the positions below `16 t` of the
  third scratch hold `Sc` at the position their index names (every index is below 100352, so the look-up's side condition
  holds and the clamp in `sAt` does nothing); after the copy out, flat position `k` of the chunk holds `Sc` at the position
  index `k` names, which is what `Val d k` asks by `Sok`.
-/
import proofs.«211127_g52536039965321_cont_9to1c4b_697_4_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Pure

variable {sig' : RefSig} {κ' : Kind} {sp' : Space} {s' : Shape} {e' : EltTy} {Val' : EltTy → Type}

/-- Read through the whole rectangle of a view, the view's own read. -/
theorem read_slice_whole' (v : View sig' κ' sp' s' e') (f : v.ty.Contents Val') (y : s'.Idx) :
    (v.slice (Rect.whole s')).read Val' f y = v.read Val' f y := by
  have h : (v.slice (Rect.whole s')).read Val' f y = v.read Val' f ((Rect.whole s').emb y) := rfl
  rw [h, Rect.emb_whole_apply]

/-- The position of the flat scores a looked-up word below 100352 names is the position `sAt` gives it. -/
theorem idxAt_sAt (v : IVec S16 32) (h : ∀ a x, ((![v] : Fin 1 → IVec S16 32) a x).toNat < S100352.size a) (x : S16.Idx) :
    idxAt (s := S100352) (![v] : Fin 1 → IVec S16 32) h x = sAt (v x).toNat := by
  funext a
  obtain rfl : a = 0 := Subsingleton.elim _ _
  apply Fin.ext
  have hx : (v x).toNat < 100352 := h 0 x
  show (v x).toNat = min (v x).toNat 100351
  omega

end Pure

/-! ## A subcore's place, its scratch and its two chunks -/

/-- The scratch of a subcore: its copy of the scores, the chunk of indices in hand, the chunk of looked-up scores. -/
abbrev sS : Memref sig .scVector .vmem S100352 .f32 := Memref.whole cc1_scratch0
abbrev sI : Memref sig .scVector .vmem S12800 .i32 := Memref.whole cc1_scratch1
abbrev sO : Memref sig .scVector .vmem S12800 .f32 := Memref.whole cc1_scratch2

def coordsV (c : Fin (grid1.bound 0)) (s : Fin (grid1.bound 1)) : grid1.Coords :=
  fun | 0 => c | 1 => s | ⟨_ + 2, h⟩ => absurd h (Nat.not_lt.2 (Nat.le_add_left _ _))

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev jL (L : grid1.Coords) : Fin 16 := Fin.cast bound_one (L 1)

/-- Chunk `r` of the subcore at `L`, as the kernel slices it out of a flat array of 819200. -/
abbrev ckR (L : grid1.Coords) (r : Fin 2) : Rect S819200 :=
  Rect.unit (s := S819200) (k1_off1 L (BitVec.ofNat 32 (12800 * r.val))) S12800.size (k1_off1_inb L r)

/-- It is chunk number `4 s + 2 c + r` of the 64. -/
theorem ckR_eq (L : grid1.Coords) (r : Fin 2) : ckR L r = chunk (chunkNo (cL L) (jL L) r) := by
  unfold ckR chunk Rect.part Rect.block
  congr 1 <;> funext a
  · rw [k1_off1_eq]
    obtain rfl : a = 0 := Subsingleton.elim _ _
    simp [Shape.partIx, Shape.partSize, chunkNo]
    omega
  · obtain rfl : a = 0 := Subsingleton.elim _ _
    simp [Shape.partSize]

section Tile

variable (d : Dev nD) (L : grid1.Coords)

/-- The subcore's thread. -/
abbrev thrV : Thread nD τ := V d (cV L) (jV L)

/-- The cell of one of the subcore's own DMA semaphores. -/
abbrev cellOf (sm : DmaSems sig S_) : GSem nD τ sig := (V d (cV L) (jV L), .dma sm.sem)

theorem cellOf_ne {a b : DmaSems sig S_} (h : (a.sem : DmaSem sig) ≠ b.sem) : cellOf d L a ≠ cellOf d L b :=
  fun e => h (SemLoc.dma.inj (Prod.mk.inj e).2)

theorem cellOf_mem (sm : DmaSems sig S_) (h : (SemLoc.dma sm.sem : SemLoc sig).isScoped .scVector = true) :
    cellOf d L sm ∈ ownCells (V d (cV L) (jV L)) := (mem_ownCells (g := cellOf d L sm)).mpr ⟨rfl, h⟩

/-- The five semaphores of the kernel's five copies are among the subcore's own: they are them, at zero, and the rest. -/
theorem ownSems0_V :
    (ownSems0 (V d (cV L) (jV L)) : sProp 𝕄)
      = iprop(semVal (cellOf d L cc1_scoped0) 0 ∗ semVal (cellOf d L cc1_scoped1) 0 ∗ semVal (cellOf d L cc1_scoped2) 0
          ∗ semVal (cellOf d L cc1_scoped3) 0 ∗ semVal (cellOf d L cc1_scoped4) 0
          ∗ bigSep ((((((ownCells (V d (cV L) (jV L))).erase (cellOf d L cc1_scoped0)).erase (cellOf d L cc1_scoped1)).erase (cellOf d L cc1_scoped2)).erase
              (cellOf d L cc1_scoped3)).erase (cellOf d L cc1_scoped4)) fun g => semVal g 0) := by
  unfold SparseCore.Cfg.ownSems0
  rw [SparseCore.bigSep_erase' (cellOf_mem d L cc1_scoped0 (by decide)),
    SparseCore.bigSep_erase' (Finset.mem_erase.mpr ⟨cellOf_ne d L (by decide), cellOf_mem d L cc1_scoped1 (by decide)⟩),
    SparseCore.bigSep_erase' (Finset.mem_erase.mpr ⟨cellOf_ne d L (by decide), Finset.mem_erase.mpr ⟨cellOf_ne d L (by decide), cellOf_mem d L cc1_scoped2 (by decide)⟩⟩),
    SparseCore.bigSep_erase' (Finset.mem_erase.mpr ⟨cellOf_ne d L (by decide), Finset.mem_erase.mpr ⟨cellOf_ne d L (by decide),
      Finset.mem_erase.mpr ⟨cellOf_ne d L (by decide), cellOf_mem d L cc1_scoped3 (by decide)⟩⟩⟩),
    SparseCore.bigSep_erase' (Finset.mem_erase.mpr ⟨cellOf_ne d L (by decide), Finset.mem_erase.mpr ⟨cellOf_ne d L (by decide),
      Finset.mem_erase.mpr ⟨cellOf_ne d L (by decide), Finset.mem_erase.mpr ⟨cellOf_ne d L (by decide), cellOf_mem d L cc1_scoped4 (by decide)⟩⟩⟩⟩)]

theorem scratch_ne {a b : Ref sig .scVector} (h : a ≠ b) : (Proc.scVector (cV L) (jV L)).devRef a ≠ (Proc.scVector (cV L) (jV L)).devRef b :=
  fun e => absurd (Proc.devRef_injective _ e) h

/-- The three scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨scratch_ne L (by decide),
      SparseCore.Cfg.mem_ownRefs_of_owner (p := Proc.scVector (cV L) (jV L)) (b := (Proc.scVector (cV L) (jV L)).devRef cc1_scratch1) rfl⟩),
    SparseCore.bigSep_erase' (Finset.mem_erase.mpr ⟨scratch_ne L (by decide), Finset.mem_erase.mpr ⟨scratch_ne L (by decide),
      SparseCore.Cfg.mem_ownRefs_of_owner (p := Proc.scVector (cV L) (jV L)) (b := (Proc.scVector (cV L) (jV L)).devRef cc1_scratch2) rfl⟩⟩)]

/-- The kernel's two slices of a flat array of 819200, as the program spells them. -/
abbrev ck0 : Rect S819200 := Rect.unit (s := S819200) (k1_off1 L 0#32) S12800.size (k1_off1_inb L 0)
abbrev ck1 : Rect S819200 := Rect.unit (s := S819200) (k1_off1 L 12800#32) S12800.size (k1_off1_inb L 1)
theorem ck0_eq : ck0 L = chunk (chunkNo (cL L) (jL L) 0) := ckR_eq L 0
theorem ck1_eq : ck1 L = chunk (chunkNo (cL L) (jL L) 1) := ckR_eq L 1

abbrev oCk0 : Memref sig .scVector .hbm S12800 .f32 := (oV : Memref sig .scVector .hbm S819200 .f32).slice (ck0 L) (fun _ => rfl)
abbrev oCk1 : Memref sig .scVector .hbm S12800 .f32 := (oV : Memref sig .scVector .hbm S819200 .f32).slice (ck1 L) (fun _ => rfl)

theorem set_slice_congr {r r' : Rect S819200} (h : r = r') :
    (((oV : Memref sig .scVector .hbm S819200 .f32).view.slice r).set : Finset S819200.Idx) = ((oV : Memref sig .scVector .hbm S819200 .f32).view.slice r').set := by
  subst h; rfl
theorem set_oCk0 : (oCk0 L).view.set = chunkSet (chunkNo (cL L) (jL L) 0) := set_slice_congr (ck0_eq L)
theorem set_oCk1 : (oCk1 L).view.set = chunkSet (chunkNo (cL L) (jL L) 1) := set_slice_congr (ck1_eq L)

theorem pts_oCk0 (f : Buf (Elt F) (oLoc d)) :
    ((oCk0 L).view.loc (V d (cV L) (jV L)) ↦[(oCk0 L).view.set]{fullShare} f : sProp 𝕄) = oLoc d ↦[chunkSet (chunkNo (cL L) (jL L) 0)]{fullShare} f := by
  rw [set_oCk0]
theorem pts_oCk1 (f : Buf (Elt F) (oLoc d)) :
    ((oCk1 L).view.loc (V d (cV L) (jV L)) ↦[(oCk1 L).view.set]{fullShare} f : sProp 𝕄) = oLoc d ↦[chunkSet (chunkNo (cL L) (jL L) 1)]{fullShare} f := by
  rw [set_oCk1]

/-- The flat scores and indices, as the subcore addresses them, are the TensorCore's arrays. -/
theorem pts_sV (q : PosShare TreeShare) (f : Buf (Elt F) (sLoc d)) :
    ((sV : Memref sig .scVector .hbm S100352 .f32).view.loc (V d (cV L) (jV L)) ↦[(sV : Memref sig .scVector .hbm S100352 .f32).view.set]{q} f : sProp 𝕄) = sLoc d ↦{q} f := by
  simp only [Memref.view_whole, View.set_whole]
theorem pts_iV (q : PosShare TreeShare) (f : Buf (Elt F) (iLoc d)) :
    ((iV : Memref sig .scVector .hbm S819200 .i32).view.loc (V d (cV L) (jV L)) ↦[(iV : Memref sig .scVector .hbm S819200 .i32).view.set]{q} f : sProp 𝕄) = iLoc d ↦{q} f := by
  simp only [Memref.view_whole, View.set_whole]
theorem pts_sS (f : Buf (Elt F) ((V d (cV L) (jV L)).loc cc1_scratch0)) :
    ((sS : Memref sig .scVector .vmem S100352 .f32).view.loc (V d (cV L) (jV L)) ↦[(sS : Memref sig .scVector .vmem S100352 .f32).view.set]{fullShare} f : sProp 𝕄)
      = (V d (cV L) (jV L)).loc cc1_scratch0 ↦{fullShare} f := by
  simp only [Memref.view_whole, View.set_whole]
theorem pts_sI (f : Buf (Elt F) ((V d (cV L) (jV L)).loc cc1_scratch1)) :
    ((sI : Memref sig .scVector .vmem S12800 .i32).view.loc (V d (cV L) (jV L)) ↦[(sI : Memref sig .scVector .vmem S12800 .i32).view.set]{fullShare} f : sProp 𝕄)
      = (V d (cV L) (jV L)).loc cc1_scratch1 ↦{fullShare} f := by
  simp only [Memref.view_whole, View.set_whole]
theorem pts_sO (f : Buf (Elt F) ((V d (cV L) (jV L)).loc cc1_scratch2)) :
    ((sO : Memref sig .scVector .vmem S12800 .f32).view.loc (V d (cV L) (jV L)) ↦[(sO : Memref sig .scVector .vmem S12800 .f32).view.set]{fullShare} f : sProp 𝕄)
      = (V d (cV L) (jV L)).loc cc1_scratch2 ↦{fullShare} f := by
  simp only [Memref.view_whole, View.set_whole]

theorem pts_sS_univ (f : Buf (Elt F) ((V d (cV L) (jV L)).loc cc1_scratch0)) :
    ((sS : Memref sig .scVector .vmem S100352 .f32).view.loc (V d (cV L) (jV L)) ↦{fullShare} f : sProp 𝕄) = (V d (cV L) (jV L)).loc cc1_scratch0 ↦{fullShare} f := rfl
theorem pts_sS_access (f : Buf (Elt F) ((V d (cV L) (jV L)).loc cc1_scratch0)) :
    (((sS : Memref sig .scVector .vmem S100352 .f32).access (.whole S100352)).loc (V d (cV L) (jV L)) ↦{fullShare} f : sProp 𝕄) = (V d (cV L) (jV L)).loc cc1_scratch0 ↦{fullShare} f := rfl

variable [FloatOps F]
variable (m : (ℓ : Loc nD τ sig) → Buf (Elt F) ℓ) (I : (d : Dev nD) → Buf (Elt F) (iLoc d)) (Val : (d : Dev nD) → S819200.Idx → Elt F .f32 → Prop)

/-- What is known of the three scratch buffers before trip `t` of the look-up loop over chunk `r`: the first reads as the
    scores `Sc`, the second as the chunk of indices (position `p` of it is flat position `12800 n + p` of the indices), and
    the positions below `16 t` of the third read as the score each index names. -/
def Looked (Sc : Buf (Elt F) (sLoc d)) (r : Fin 2) (t : Nat) (fS : Buf (Elt F) ((V d (cV L) (jV L)).loc cc1_scratch0))
    (fI : Buf (Elt F) ((V d (cV L) (jV L)).loc cc1_scratch1)) (g : Buf (Elt F) ((V d (cV L) (jV L)).loc cc1_scratch2)) : Prop :=
  (∀ j : S100352.Idx, (sS : Memref sig .scVector .vmem S100352 .f32).view.read (Elt F) fS j = Sc j)
    ∧ (∀ p : S12800.Idx, (sI : Memref sig .scVector .vmem S12800 .i32).view.read (Elt F) fI p = I d ((ckR L r).emb p))
    ∧ ∀ p : S12800.Idx, (p 0).val < 16 * t →
        (sO : Memref sig .scVector .vmem S12800 .f32).view.read (Elt F) g p = Sc (sAt (I d ((ckR L r).emb p)).toNat)

/-- The look-up loop's invariant: the three scratch buffers held whole, at contents as `Looked` says. -/
def inv (Sc : Buf (Elt F) (sLoc d)) (r : Fin 2) (t : Nat) (_ : BitVec 32) : sProp 𝕄 :=
  iprop(∃ fS : Buf (Elt F) ((V d (cV L) (jV L)).loc cc1_scratch0), ∃ fI : Buf (Elt F) ((V d (cV L) (jV L)).loc cc1_scratch1),
      ∃ g : Buf (Elt F) ((V d (cV L) (jV L)).loc cc1_scratch2),
    ((sS : Memref sig .scVector .vmem S100352 .f32).view.loc (V d (cV L) (jV L)) ↦{fullShare} fS)
    ∗ ((sI : Memref sig .scVector .vmem S12800 .i32).view.loc (V d (cV L) (jV L)) ↦[(sI : Memref sig .scVector .vmem S12800 .i32).view.set]{fullShare} fI)
    ∗ ((sO : Memref sig .scVector .vmem S12800 .f32).view.loc (V d (cV L) (jV L)) ↦[(sO : Memref sig .scVector .vmem S12800 .f32).view.set]{fullShare} g)
    ∗ ⌜Looked d L I Sc r t fS fI g⌝)

/-- The check on the indices a trip loads passes: they are words of the flat indices, each below 100352. -/
theorem chk_of (hI : ∀ d k, (I d k).toNat < 100352) (r : Fin 2) {fI : Buf (Elt F) ((V d (cV L) (jV L)).loc cc1_scratch1)}
    (hfI : ∀ p : S12800.Idx, (sI : Memref sig .scVector .vmem S12800 .i32).view.read (Elt F) fI p = I d ((ckR L r).emb p))
    (off : Fin 1 → Nat) (inb : ∀ a, off a + S16.size a ≤ S12800.size a) :
    ∀ a x, ((![(sI : Memref sig .scVector .vmem S12800 .i32).view.readAt (Elt F) (Rect.unit (s := S12800) off S16.size inb).toLoadRect fI] : Fin 1 → IVec S16 32) a x).toNat
      < S100352.size a := by
  intro a x
  obtain rfl : a = 0 := Subsingleton.elim _ _
  show ((sI : Memref sig .scVector .vmem S12800 .i32).view.readAt (Elt F) (Rect.unit (s := S12800) off S16.size inb).toLoadRect fI x).toNat < 100352
  rw [View.readAt_apply, hfI]
  exact hI d _

/-- One trip of the look-up: once the sixteen scores looked up for positions `16 t` to `16 t + 15` are stored there, the
    positions below `16 (t + 1)` are done. -/
theorem looked_step (Sc : Buf (Elt F) (sLoc d)) (r : Fin 2) (t : Nat) {fS : Buf (Elt F) ((V d (cV L) (jV L)).loc cc1_scratch0)}
    {fI : Buf (Elt F) ((V d (cV L) (jV L)).loc cc1_scratch1)} {g : Buf (Elt F) ((V d (cV L) (jV L)).loc cc1_scratch2)}
    (h : Looked d L I Sc r t fS fI g) (offA offB : Fin 1 → Nat) (hA : offA = ![16 * t]) (hB : offB = ![16 * t])
    (inbA : ∀ a, offA a + S16.size a ≤ S12800.size a) (inbB : ∀ a, offB a + S16.size a ≤ S12800.size a)
    (hidx : ∀ a x, ((![(sI : Memref sig .scVector .vmem S12800 .i32).view.readAt (Elt F) (Rect.unit (s := S12800) offA S16.size inbA).toLoadRect fI] : Fin 1 → IVec S16 32) a x).toNat
      < S100352.size a) :
    Looked d L I Sc r (t + 1) fS fI
      ((sO : Memref sig .scVector .vmem S12800 .f32).view.writes (Elt F) g [⟨Rect.unit (s := S12800) offB S16.size inbB,
        loadIdx (((sS : Memref sig .scVector .vmem S100352 .f32).access (.whole S100352)).read (Elt F) fS)
          ![(sI : Memref sig .scVector .vmem S12800 .i32).view.readAt (Elt F) (Rect.unit (s := S12800) offA S16.size inbA).toLoadRect fI] hidx⟩]) := by
  obtain ⟨hfS, hfI, hg⟩ := h
  refine ⟨hfS, hfI, fun p hp => ?_⟩
  subst hA hB
  by_cases hm : p ∈ (Rect.unit (s := S12800) ![16 * t] S16.size inbB).set
  · obtain ⟨x, rfl⟩ := (Rect.unit (s := S12800) ![16 * t] S16.size inbB).toLoadRect.exists_idx_of_mem hm
    rw [show (Rect.unit (s := S12800) ![16 * t] S16.size inbB).toLoadRect.idx x = (Rect.unit (s := S12800) ![16 * t] S16.size inbB).emb x from rfl,
      View.read_writes_cons_emb]
    show ((sS : Memref sig .scVector .vmem S100352 .f32).view.slice (Rect.whole S100352)).read (Elt F) fS (idxAt _ hidx x) = _
    rw [read_slice_whole', hfS, idxAt_sAt, View.readAt_apply, hfI]
    rfl
  · have hp' : (p 0).val < 16 * t := by
      by_contra hlt
      apply hm
      rw [Rect.mem_set_unit]
      intro a
      obtain rfl : a = 0 := Subsingleton.elim _ _
      simp
      omega
    rw [View.read_writes_apply_of_forall_not_mem _ _ p _ (by simpa using hm)]
    exact hg p hp'

/-- Chunk `r` of the flat result, as the kernel slices it (at either chunk's literal offset the program's own slice). -/
abbrev oCkR (r : Fin 2) : Memref sig .scVector .hbm S12800 .f32 := (oV : Memref sig .scVector .hbm S819200 .f32).slice (ckR L r) (fun _ => rfl)

omit [FloatOps F] in
theorem chunkSet_eq (n : Fin 64) : chunkSet n = (chunk n).set := by
  show ((View.whole (main_v3_scv : Ref sig .scVector)).slice (chunk n)).set = _
  rw [View.set_slice]; exact Finset.map_refl

/-- What a chunk of the flat result holds once the finished value scratch is copied out to it: at flat position `k` the score
    index `k` names, which is as `Val` asks by what is known of the scores. -/
theorem chunk_val {Sc : Buf (Elt F) (sLoc d)} (hSc : Sok I Val d Sc) (r : Fin 2) {fS : Buf (Elt F) ((V d (cV L) (jV L)).loc cc1_scratch0)}
    {fI : Buf (Elt F) ((V d (cV L) (jV L)).loc cc1_scratch1)} {g : Buf (Elt F) ((V d (cV L) (jV L)).loc cc1_scratch2)}
    (hL : Looked d L I Sc r 800 fS fI g) (Y : Buf (Elt F) (oLoc d))
    (hY : ∀ p : S12800.Idx, (oCkR L r).view.read (Elt F) Y p = (sO : Memref sig .scVector .vmem S12800 .f32).view.read (Elt F) g p) :
    ∀ k ∈ chunkSet (chunkNo (cL L) (jL L) r), Val d k (Y k) := by
  intro k hk
  rw [chunkSet_eq, ← ckR_eq L r] at hk
  obtain ⟨p, rfl⟩ := (ckR L r).toLoadRect.exists_idx_of_mem hk
  have hp : (p 0).val < 16 * 800 := (p 0).isLt
  have h1 : Y ((ckR L r).toLoadRect.idx p) = (sO : Memref sig .scVector .vmem S12800 .f32).view.read (Elt F) g p := hY p
  rw [h1, hL.2.2 p hp]
  exact hSc _

/-- The task of the subcore at `L` of device `d`: the scores copied in; then per chunk the indices copied in, the look-up loop,
    and the looked-up scores copied out to the chunk of the flat result. -/
theorem tile_body (hF : (K (F := F)).Facts) (hI : ∀ d k, (I d k).toNat < 100352) (O : CellTallies nD τ sig (HIx 1)) (W : Waits sig (HIx 1)) (hO : ∀ g, O g none = 0) :
    iprop(levAts (K (F := F)).L (K (F := F)).lev ∗ emp ∗ goRes m I Val d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__gather_scores L sV (Memref.isWhole_whole _) iV (Memref.isWhole_whole _) oV (Memref.isWhole_whole _)
            sS (Memref.isWhole_whole _) sI (Memref.isWhole_whole _) sO (Memref.isWhole_whole _) cc1_scoped0 cc1_scoped1 cc1_scoped2 cc1_scoped3 cc1_scoped4)
          fun _ => iprop(tdRes Val d (cL L) (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  have htr1 : Scf.trips k1_t1_loop.lb k1_t1_loop.ub k1_t1_loop.st = 800 := by decide
  have htr2 : Scf.trips k1_t2_loop.lb k1_t2_loop.ub k1_t2_loop.st = 800 := by decide
  simp only [cc1__gather_scores_eq_skeleton]; unfold cc1__gather_scores_skel
  rw [(K (F := F)).scopedBufs_V hF d (cV L) (jV L), SparseCore.Cfg.scopedSems0_V (Val := Elt F) d (cV L) (jV L), ownSems0_V, ownBufs_V]
  unfold goRes
  iintro ⟨#Hlv, -, ⟨%Sc, %hSc, Hs, Hi, Ho0, Ho1⟩, ⟨⟨%f0, Hb0⟩, ⟨%f1, Hb1⟩, ⟨%f2, Hb2⟩, Hbufs⟩, ⟨Hsem0, Hsem1, Hsem2, Hsem3, Hsem4, Hsems⟩, HO⟩
  ihave Hmw := ((K (F := F)).mayWaits_none (thr := V d (cV L) (jV L)) hO) $$ Hlv
  ihave Hs' := (Entails.of_eq (pts_sV (F := F) d L _ _).symm) $$ Hs
  ihave Hi' := (Entails.of_eq (pts_iV (F := F) d L _ _).symm) $$ Hi
  ihave Ho0' := (Entails.of_eq (pts_oCk0 (F := F) d L _).symm) $$ Ho0
  ihave Ho1' := (Entails.of_eq (pts_oCk1 (F := F) d L _).symm) $$ Ho1
  ihave Hb0' := (Entails.of_eq (pts_sS (F := F) d L _).symm) $$ Hb0
  ihave Hb1' := (Entails.of_eq (pts_sI (F := F) d L _).symm) $$ Hb1
  ihave Hb2' := (Entails.of_eq (pts_sO (F := F) d L _).symm) $$ Hb2
  -- the scores copied in, then chunk 0's indices
  sl_exec
  ihave Hb0u := (Entails.of_eq ((pts_sS (F := F) d L _).trans (pts_sS_univ (F := F) d L _).symm)) $$ Hb0'
  -- chunk 0's look-up loop
  sl_for (inv d L I Sc 0) $$ [Hb0u Hb1' Hb2']
  case region =>
    intro t ht
    unfold inv
    iintro ⟨%fS', %fI', %g', Hb0, Hb1, Hb2, %hf⟩
    have hchk : k1_chk1 ((sI : Memref sig .scVector .vmem S12800 .i32).view.readAt (Elt F) (Rect.unit (s := S12800) (k1_off2 t) S16.size (k1_off2_inb t)).toLoadRect fI') :=
      chk_of d L I hI 0 hf.2.1 _ _
    sl_exec
    ihave Hb0a := (Entails.of_eq ((pts_sS_univ (F := F) d L _).trans (pts_sS_access (F := F) d L _).symm)) $$ Hb0
    iapply (SparseCore.wp_vectorLoadIdx 𝒱₀ (V d (cV L) (jV L)) none Set.univ (base := (sS : Memref sig .scVector .vmem S100352 .f32)) (S := Finset.univ) (q := fullShare) (Finset.subset_univ _)) $$ Hb0a; iintro Hb0a
    ihave Hb0 := (Entails.of_eq ((pts_sS_access (F := F) d L _).trans (pts_sS_univ (F := F) d L _).symm)) $$ Hb0a
    sl_exec
    sl_step
    iexists _; iexists _; iexists _
    isplitl [Hb0]; · iexact Hb0
    isplitl [Hb1]; · iexact Hb1
    isplitl [Hb2]; · iexact Hb2
    ipureintro
    exact looked_step d L I Sc 0 t.val hf (k1_off2 t) (k1_off3 t) (k1_off2_eq t) (k1_off3_eq t) _ _ _
  · unfold inv
    iexists _; iexists _; iexists _
    isplitl [Hb0u]; · iexact Hb0u
    isplitl [Hb1']; · iexact Hb1'
    isplitl [Hb2']; · iexact Hb2'
    ipureintro
    exact ⟨fun j => (congrFun (View.read_writes_whole _ _ _) j).trans rfl, fun p => (congrFun (View.read_writes_whole _ _ _) p).trans rfl, fun p hp => absurd hp (by omega)⟩
  iintro %acc HI
  unfold inv
  icases HI with ⟨%fS, %fI, %g, Hb0, Hb1, Hb2, %hL1⟩
  rw [htr1] at hL1
  -- chunk 0 copied out, then chunk 1's indices copied in
  sl_exec
  -- chunk 1's look-up loop
  sl_for (inv d L I Sc 1) $$ [Hb0 Hb1 Hb2]
  case region =>
    intro t ht
    unfold inv
    iintro ⟨%fS', %fI', %g', Hb0, Hb1, Hb2, %hf⟩
    have hchk : k1_chk2 ((sI : Memref sig .scVector .vmem S12800 .i32).view.readAt (Elt F) (Rect.unit (s := S12800) (k1_off4 t) S16.size (k1_off4_inb t)).toLoadRect fI') :=
      chk_of d L I hI 1 hf.2.1 _ _
    sl_exec
    ihave Hb0a := (Entails.of_eq ((pts_sS_univ (F := F) d L _).trans (pts_sS_access (F := F) d L _).symm)) $$ Hb0
    iapply (SparseCore.wp_vectorLoadIdx 𝒱₀ (V d (cV L) (jV L)) none Set.univ (base := (sS : Memref sig .scVector .vmem S100352 .f32)) (S := Finset.univ) (q := fullShare) (Finset.subset_univ _)) $$ Hb0a; iintro Hb0a
    ihave Hb0 := (Entails.of_eq ((pts_sS_access (F := F) d L _).trans (pts_sS_univ (F := F) d L _).symm)) $$ Hb0a
    sl_exec
    sl_step
    iexists _; iexists _; iexists _
    isplitl [Hb0]; · iexact Hb0
    isplitl [Hb1]; · iexact Hb1
    isplitl [Hb2]; · iexact Hb2
    ipureintro
    exact looked_step d L I Sc 1 t.val hf (k1_off4 t) (k1_off5 t) (k1_off4_eq t) (k1_off5_eq t) _ _ _
  · unfold inv
    iexists _; iexists _; iexists _
    isplitl [Hb0]; · iexact Hb0
    isplitl [Hb1]; · iexact Hb1
    isplitl [Hb2]; · iexact Hb2
    ipureintro
    exact ⟨hL1.1, fun p => (congrFun (View.read_writes_whole _ _ _) p).trans rfl, fun p hp => absurd hp (by omega)⟩
  iintro %acc2 HI2
  unfold inv
  icases HI2 with ⟨%fS2, %fI2, %g2, Hb0, Hb1, Hb2, %hL2⟩
  rw [htr2] at hL2
  -- chunk 1 copied out
  sl_exec
  sl_step
  iclear Hs' Hi'
  unfold tdRes tdChunk
  isplitl [Ho0' Ho1']
  · isplitl [Ho0']
    · iexists _
      isplitl [Ho0']
      · iapply (Entails.of_eq (pts_oCk0 (F := F) d L _)); iexact Ho0'
      ipureintro
      exact chunk_val d L I Val hSc 0 hL1 _ (fun p => (congrFun (View.read_writes_whole _ _ _) p).trans rfl)
    · iexists _
      isplitl [Ho1']
      · iapply (Entails.of_eq (pts_oCk1 (F := F) d L _)); iexact Ho1'
      ipureintro
      exact chunk_val d L I Val hSc 1 hL2 _ (fun p => (congrFun (View.read_writes_whole _ _ _) p).trans rfl)
  isplitl [Hb0 Hb1 Hb2 Hbufs]
  · isplitl [Hb0]
    · iexists _; iapply (Entails.of_eq (pts_sS_univ (F := F) d L _)); iexact Hb0
    isplitl [Hb1]
    · iexists _; iapply (Entails.of_eq (pts_sI (F := F) d L _)); iexact Hb1
    isplitl [Hb2]
    · iexists _; iapply (Entails.of_eq (pts_sO (F := F) d L _)); iexact Hb2
    iexact Hbufs
  isplitl [Hsem0 Hsem1 Hsem2 Hsem3 Hsem4 Hsems]
  · isplitl [Hsem0]; · iexact Hsem0
    isplitl [Hsem1]; · iexact Hsem1
    isplitl [Hsem2]; · iexact Hsem2
    isplitl [Hsem3]; · iexact Hsem3
    isplitl [Hsem4]; · iexact Hsem4
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

/-! ## The launch theorem's obligation -/

section Obl

variable [FloatOps F]
variable (m : (ℓ : Loc nD τ sig) → Buf (Elt F) ℓ) (I : (d : Dev nD) → Buf (Elt F) (iLoc d)) (Val : (d : Dev nD) → S819200.Idx → Elt F .f32 → Prop)

theorem defs₀_vector (c : Fin τ.nSC) (s : Fin τ.nSub) :
    defs₀ (F := F) (.scVector c s) 1 ()
      = SparseCore.onTile hcore1 hsub1 (fun c s => cc1__gather_scores (coordsV c s)
          sV (Memref.isWhole_whole _) iV (Memref.isWhole_whole _) oV (Memref.isWhole_whole _)
          sS (Memref.isWhole_whole _) sI (Memref.isWhole_whole _) sO (Memref.isWhole_whole _) cc1_scoped0 cc1_scoped1 cc1_scoped2 cc1_scoped3 cc1_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body obligation of the gather kernel: a subcore's task, from the shares and chunks it is handed to its two chunks
    at values as `Val` asks, given every index names a score. -/
theorem tileObl (hI : ∀ d k, (I d k).toNat < 100352) : (K (F := F)).TileObl (D (F := F)) 𝒱 (P m I Val) v₀ 0 := by
  intro d c i O W hO _ _
  simp only [show (P m I Val).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) m I Val facts hI O W hO).trans (wp_mono frame _ _ fun _ => obl_post)

end Obl

end Cert.Proof.KI
end
-- ==== Proof.KI.RegionData.lean ====
/-
  The pipelined region's proof data.

  The region runs the score kernel at 49 grid points. Its three inputs are left in their staging buffers as they
  were found; its result's staging buffer is left holding the kernel's payload of what the three inputs' buffers
  held. The last block of the table runs past the table's end, and what its staging buffer holds on those rows is
  not determined by the launch memory, so the data CONSTRAINS the result's buffer (a relation) instead of naming it:
  it is the payload of SOME contents the three input buffers may hold at that point.
-/
import proofs.«211127_g52536039965321_cont_9to1c4b_697_4_alg».proof.Proof.KI.Common
import Idealize.ShloMosaic.Lib.Pipeline.Regions

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F]

local notation "𝕄" => MT nD τ sig (HIx 1) (Elt F) ℕ UU ℕ

variable (m : (ℓ : Loc nD τ sig) → Buf (Elt F) ℓ)

/-- The one admissible contents of the prefetched tables: there is none. -/
abbrev aP : (p : Fin 1) → (pcfgs (F := F) p).Adm := fun p => (cfgs p).toPCfg_adm

/-- The data with every window left as found: the arrays at their launch contents, no invariant, full shares, the
    TensorCore owing throughout what it owes before its first SparseCore call, its recorded pairs at level 0. -/
def rd₀ (d : Dev nD) : RDat τ (Elt F) (HIx 1) ℕ UU ℕ cfg0 d where
  A w := m ((cfg0.win w).arr.view.loc (d.tc : Thread nD τ))
  after _ _ Y X := X = Y
  Φ _ := iprop(emp)
  q _ := fullShare
  owed _ := (K (F := F)).Otc d 0
  recorded _ := {p | (K (F := F)).lev ((d.tc : Thread nD τ), p.1) p.2 ≤ 0}

/-- The one word of the bias's staging buffer. -/
abbrev i1 : S1.Idx := Shape.Idx.first (numel1_S1.symm ▸ Nat.one_pos)

/-- What the result's staging buffer may hold after the body at point `t`: the payload of some contents the
    three inputs' buffers may hold when the body runs there. -/
def outRel (d : Dev nD) (t : Fin cfg0.N) (X : S1x1x2048.Idx → Elt F .f32) : Prop :=
  ∃ (Y0 : S1x128.Idx → Elt F .f32) (Y1 : S2048x128.Idx → Elt F .f32) (Y2 : S1.Idx → Elt F .f32),
    (rd₀ m d).Finds 0 t Y0 ∧ (rd₀ m d).Finds 1 t Y1 ∧ (rd₀ m d).Finds 2 t Y2 ∧ X = k0_pay1 Y0 Y1 (Y2 i1)

/-- The result's window is constrained by `outRel`; the inputs' stay "left as found". -/
def ovr (d : Dev nD) : (w : Fin cfg0.W) → Option (Fin cfg0.N → (Y X : (cfg0.win w).block.Idx → Elt F (cfg0.win w).elt) → Prop) :=
  fun | 0 => none | 1 => none | 2 => none | 3 => some fun t _ X => outRel m d t X
      | ⟨_ + 4, h⟩ => absurd h (Nat.not_lt.2 (Nat.le_add_left _ _))

/-- The region's proof data on the TensorCore of device `d`. -/
def rdat (d : Dev nD) : RDat τ (Elt F) (HIx 1) ℕ UU ℕ cfg0 d := (rd₀ m d).override (ovr m d)

/-- The same, as the family the library's rules take. -/
abbrev rdats : (p : Fin 1) → (c : Dev nD) → RDat τ (Elt F) (HIx 1) ℕ UU ℕ (Pipeline.pin (pcfgs (F := F)) aP p) c :=
  fun _ c => rdat m c

theorem finds_in (d : Dev nD) {w : Fin cfg0.W} (h : ovr m d w = none) (t : Fin cfg0.N) (X) :
    (rdat m d).Finds w t X ↔ (rd₀ m d).Finds w t X := (rd₀ m d).override_finds h t X

end Cert.Proof.KI

end
-- ==== Proof.KI.RegionBody.lean ====
/-
  The score kernel's body obligation.

  The body loads the weight row, the table block and the bias word whole, computes the payload (the row times the
  block's transpose, plus the bias, as one row of 2048 scores), reads the result's buffer (a dead load) and stores the
  payload over it whole. So the three inputs' buffers are left as found and the result's holds the payload of what
  they held — which is what the proof data's relations ask.
-/
import proofs.«211127_g52536039965321_cont_9to1c4b_697_4_alg».proof.Proof.KI.RegionData

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F]

local notation "𝕄" => MT nD τ sig (HIx 1) (Elt F) ℕ UU ℕ

variable (m : (ℓ : Loc nD τ sig) → Buf (Elt F) ℓ)

/-- The body on staging buffers `s0` … `s3` of its four windows, holding `X0` … `X3`: the inputs' buffers keep what
    they hold, the result's ends at the payload of the three. -/
theorem sound_body (c : Dev nD) (E : Set ℕ) (i : grid0.Coords) (s0 : Fin 1) (s1 : Fin 2) (s2 : Fin 1) (s3 : Fin 2)
    (X0 : S1x128.Idx → Elt F .f32) (X1 : S2048x128.Idx → Elt F .f32) (X2 : S1.Idx → Elt F .f32) (X3 : S1x1x2048.Idx → Elt F .f32)
    (Kk : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (k0_pay1 X0 X1 (X2 i1))) -∗ Kk ⟨⟩))
      ⊢ wp frame (wpE (defs₀ (F := F)) 𝒱₀ c none) E
          (cc0__matvec_body i (stage0_0 s0) (hstage0_0 s0) (stage0_1 s1) (hstage0_1 s1) (stage0_2 s2) (hstage0_2 s2)
            (stage0_3 s3) (hstage0_3 s3)) Kk := by
  have hz1 : (![0] : Fin 1 → Nat) = fun _ => 0 := funext fun a => by fin_cases a; rfl
  have hz2 : (![0, 0] : Fin 2 → Nat) = fun _ => 0 := funext fun a => by fin_cases a <;> rfl
  have hz3 : (![0, 0, 0] : Fin 3 → Nat) = fun _ => 0 := funext fun a => by fin_cases a <;> rfl
  -- every access is at offset zero and the buffer's own size, the whole buffer: a load reads the contents, the unmasked
  -- store writes the payload, at whichever of its window's buffers each memref is
  fin_cases s0 <;> fin_cases s1 <;> fin_cases s2 <;> fin_cases s3
  · -- the table's buffer `cc0_stg1_0`, the result's `cc0_stg3_0`
    have hr0 : (Memref.whole cc0_stg0_0 : Memref sig .tc _ _ _).view.readAt (Elt F) (Rect.unit (s := S1x128) ![0, 0] S1x128.size
        inb_S1x128_S1x128_0_0).toLoadRect = id := funext (Memref.readAt_unit_zero (Elt F) cc0_stg0_0 hz2 _)
    have hr1 : (Memref.whole cc0_stg1_0 : Memref sig .tc _ _ _).view.readAt (Elt F) (Rect.unit (s := S2048x128) ![0, 0] S2048x128.size
        inb_S2048x128_S2048x128_0_0).toLoadRect = id := funext (Memref.readAt_unit_zero (Elt F) cc0_stg1_0 hz2 _)
    have hr2 : (Memref.whole cc0_stg2_0 : Memref sig .tc _ _ _).view.readAt (Elt F) (Rect.unit (s := S1) ![0] S1.size
        inb_S1_S1_0).toLoadRect = id := funext (Memref.readAt_unit_zero (Elt F) cc0_stg2_0 hz1 _)
    have hw3 : ∀ f w, (((Memref.whole cc0_stg3_0).access (Rect.unit (s := S1x1x2048) ![0, 0, 0] S1x1x2048.size inb_S1x1x2048_S1x1x2048_0_0_0)) :
        View sig .tc _ _ _).write (Elt F) f w Finset.univ = w := Memref.write_access_unit_zero_univ (Elt F) cc0_stg3_0 hz3 _
    simp only [owns_whole_eq, cc0__matvec_body_eq_skeleton]; unfold cc0__matvec_body_skel
    simp only [smemLoad, smemLoadElt, Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f0 f1 (f2 i1); isplitr; · ipureintro; rw [hf0, hf1, hf2]
      iexact H3
  · -- the table's buffer `cc0_stg1_0`, the result's `cc0_stg3_1`
    have hr0 : (Memref.whole cc0_stg0_0 : Memref sig .tc _ _ _).view.readAt (Elt F) (Rect.unit (s := S1x128) ![0, 0] S1x128.size
        inb_S1x128_S1x128_0_0).toLoadRect = id := funext (Memref.readAt_unit_zero (Elt F) cc0_stg0_0 hz2 _)
    have hr1 : (Memref.whole cc0_stg1_0 : Memref sig .tc _ _ _).view.readAt (Elt F) (Rect.unit (s := S2048x128) ![0, 0] S2048x128.size
        inb_S2048x128_S2048x128_0_0).toLoadRect = id := funext (Memref.readAt_unit_zero (Elt F) cc0_stg1_0 hz2 _)
    have hr2 : (Memref.whole cc0_stg2_0 : Memref sig .tc _ _ _).view.readAt (Elt F) (Rect.unit (s := S1) ![0] S1.size
        inb_S1_S1_0).toLoadRect = id := funext (Memref.readAt_unit_zero (Elt F) cc0_stg2_0 hz1 _)
    have hw3 : ∀ f w, (((Memref.whole cc0_stg3_1).access (Rect.unit (s := S1x1x2048) ![0, 0, 0] S1x1x2048.size inb_S1x1x2048_S1x1x2048_0_0_0)) :
        View sig .tc _ _ _).write (Elt F) f w Finset.univ = w := Memref.write_access_unit_zero_univ (Elt F) cc0_stg3_1 hz3 _
    simp only [owns_whole_eq, cc0__matvec_body_eq_skeleton]; unfold cc0__matvec_body_skel
    simp only [smemLoad, smemLoadElt, Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f0 f1 (f2 i1); isplitr; · ipureintro; rw [hf0, hf1, hf2]
      iexact H3
  · -- the table's buffer `cc0_stg1_1`, the result's `cc0_stg3_0`
    have hr0 : (Memref.whole cc0_stg0_0 : Memref sig .tc _ _ _).view.readAt (Elt F) (Rect.unit (s := S1x128) ![0, 0] S1x128.size
        inb_S1x128_S1x128_0_0).toLoadRect = id := funext (Memref.readAt_unit_zero (Elt F) cc0_stg0_0 hz2 _)
    have hr1 : (Memref.whole cc0_stg1_1 : Memref sig .tc _ _ _).view.readAt (Elt F) (Rect.unit (s := S2048x128) ![0, 0] S2048x128.size
        inb_S2048x128_S2048x128_0_0).toLoadRect = id := funext (Memref.readAt_unit_zero (Elt F) cc0_stg1_1 hz2 _)
    have hr2 : (Memref.whole cc0_stg2_0 : Memref sig .tc _ _ _).view.readAt (Elt F) (Rect.unit (s := S1) ![0] S1.size
        inb_S1_S1_0).toLoadRect = id := funext (Memref.readAt_unit_zero (Elt F) cc0_stg2_0 hz1 _)
    have hw3 : ∀ f w, (((Memref.whole cc0_stg3_0).access (Rect.unit (s := S1x1x2048) ![0, 0, 0] S1x1x2048.size inb_S1x1x2048_S1x1x2048_0_0_0)) :
        View sig .tc _ _ _).write (Elt F) f w Finset.univ = w := Memref.write_access_unit_zero_univ (Elt F) cc0_stg3_0 hz3 _
    simp only [owns_whole_eq, cc0__matvec_body_eq_skeleton]; unfold cc0__matvec_body_skel
    simp only [smemLoad, smemLoadElt, Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f0 f1 (f2 i1); isplitr; · ipureintro; rw [hf0, hf1, hf2]
      iexact H3
  · -- the table's buffer `cc0_stg1_1`, the result's `cc0_stg3_1`
    have hr0 : (Memref.whole cc0_stg0_0 : Memref sig .tc _ _ _).view.readAt (Elt F) (Rect.unit (s := S1x128) ![0, 0] S1x128.size
        inb_S1x128_S1x128_0_0).toLoadRect = id := funext (Memref.readAt_unit_zero (Elt F) cc0_stg0_0 hz2 _)
    have hr1 : (Memref.whole cc0_stg1_1 : Memref sig .tc _ _ _).view.readAt (Elt F) (Rect.unit (s := S2048x128) ![0, 0] S2048x128.size
        inb_S2048x128_S2048x128_0_0).toLoadRect = id := funext (Memref.readAt_unit_zero (Elt F) cc0_stg1_1 hz2 _)
    have hr2 : (Memref.whole cc0_stg2_0 : Memref sig .tc _ _ _).view.readAt (Elt F) (Rect.unit (s := S1) ![0] S1.size
        inb_S1_S1_0).toLoadRect = id := funext (Memref.readAt_unit_zero (Elt F) cc0_stg2_0 hz1 _)
    have hw3 : ∀ f w, (((Memref.whole cc0_stg3_1).access (Rect.unit (s := S1x1x2048) ![0, 0, 0] S1x1x2048.size inb_S1x1x2048_S1x1x2048_0_0_0)) :
        View sig .tc _ _ _).write (Elt F) f w Finset.univ = w := Memref.write_access_unit_zero_univ (Elt F) cc0_stg3_1 hz3 _
    simp only [owns_whole_eq, cc0__matvec_body_eq_skeleton]; unfold cc0__matvec_body_skel
    simp only [smemLoad, smemLoadElt, Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f0 f1 (f2 i1); isplitr; · ipureintro; rw [hf0, hf1, hf2]
      iexact H3

/-- The library's body obligation, from `sound_body` at the point's staging buffers: each input's buffer is handed back
    holding what it held ("left as found"), the result's holding the payload of what the three inputs' held — contents
    each of them may hold at this point, as the result's relation asks. -/
theorem body_obligation (d : Dev nD) : (rdat m d).BodyObligation (defs₀ (F := F)) 𝒱₀ none Set.univ := fun t Y hY => by
  rw [bigSep_W0, bigSep_W0]
  rw [show (rdat m d).Φ t.succ = (rdat m d).Φ t.castSucc from rfl,
    show (rdat m d).owesAt none t.succ = (rdat m d).owesAt none t.castSucc from rfl]
  iintro ⟨HΦ, Ho, H0, H1, H2, H3⟩
  iapply (sound_body (F := F) d Set.univ (grid0.coords t) (cfg0.slots t 0) (cfg0.slots t 1) (cfg0.slots t 2) (cfg0.slots t 3)
    (Y 0) (Y 1) (Y 2) (Y 3) _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]
  · iexists Y 0; isplitr; · ipureintro; exact rfl
    iexact H0
  isplitl [H1]
  · iexists Y 1; isplitr; · ipureintro; exact rfl
    iexact H1
  isplitl [H2]
  · iexists Y 2; isplitr; · ipureintro; exact rfl
    iexact H2
  · iexists k0_pay1 (Y 0) (Y 1) (Y 2 i1); isplitr
    · ipureintro
      exact ⟨Y 0, Y 1, Y 2, (finds_in m d rfl t _).1 (hY 0), (finds_in m d rfl t _).1 (hY 1), (finds_in m d rfl t _).1 (hY 2), rfl⟩
    iexact H3

end Cert.Proof.KI

end
-- ==== Proof.KI.Region.lean ====
/-
  The pipelined region inside the launch: its ghost state, what it leaves, and its step.

  The TensorCore enters the region holding its region-boundary resources, its arrays, what it owes the SparseCores
  (the start signals of the call that follows) with its recorded pairs at level 0, and the pipeline's staging cells'
  ghost state; it leaves holding the same, the score array at SOME contents the write-backs may have produced
  (`RegionPost`). The region's own waits are at the index that sits at level 0, below everything owed.
-/
import proofs.«211127_g52536039965321_cont_9to1c4b_697_4_alg».proof.Proof.KI.RegionBody

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F]

local notation "𝕄" => MT nD τ sig (HIx 1) (Elt F) ℕ UU ℕ

variable (m : (ℓ : Loc nD τ sig) → Buf (Elt F) ℓ)

/-! ## The ghost state -/

/-- The pipeline's rounds land in the user component of the machine's algebra. -/
instance EP_landsIn : (EP (F := F)).LandsIn (upEmb : UEmb _ 𝕄) := by unfold EP embR; infer_instance

/-- The pipeline's component of the launch element: every staging cell's owner at round 0 and a duty token for every
    transfer the pipeline issues. -/
def uP₀ : UP := initOf (Pipeline.cells cfgs launch0.cellOf_inj) (Pipeline.launchToks cfgs launch0.cellOf_inj)

/-- What the launch deals the TensorCore of `d` for the region: its staging cells' ghost state and duty tokens. -/
def regionGhost (d : Dev nD) : sProp 𝕄 :=
  iprop(Pipeline.cellsGhost cfgs (EP (F := F)) (0 : Fin 1) d ∗ Pipeline.toksInit cfgs (EP (F := F)) (0 : Fin 1) d)

theorem regionGhost_fund :
    (BI.own ((EP (F := F)) uP₀) : sProp 𝕄) ⊢ iprop(|==> bigSep Finset.univ fun d : Dev nD => regionGhost (F := F) d) := by
  have h := Pipeline.fund_ghost (Val := Elt F) (Ix := HIx 1) (Name := ℕ) (U := UU) (Lvl := ℕ) cfgs (EP (F := F)) launch0.cellOf_inj
  refine h.trans (bupd_mono ?_)
  unfold regionGhost
  rw [bigSep_sep']
  -- one pipeline: the conjunction over pipelines is its one summand
  have h1 : ∀ (Φ : Fin 1 → sProp 𝕄), bigSep Finset.univ Φ = Φ 0 := fun Φ => by
    rw [show (Finset.univ : Finset (Fin 1)) = {0} from by decide, bigSep_singleton]
  simp only [h1]
  exact BI.Entails.refl _

/-! ## What the TensorCore owes across the region -/

/-- Nothing the TensorCore owes is at the index of a kernel's own waits. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- What the TensorCore of `d` owes before its first call, its recorded pairs at level 0. -/
def tcOwes (d : Dev nD) : sProp 𝕄 :=
  iprop(∃ W, ⌜(K (F := F)).WBelow (T d) W (8 * 0)⌝ ∗ owes (T d) ((K (F := F)).Otc d 0) W)

/-- The TensorCore's arrays at the launch contents. -/
abbrev V₀ (d : Dev nD) : (b : Ref sig .tc) → Buf (Elt F) ((d.tc : Thread nD τ).loc b) := fun b => m ((d.tc : Thread nD τ).loc b)

/-- What is known of the score array after the region: contents it may hold after the 49 write-backs, each the
    payload of some contents the three inputs' staging buffers may have held at that point. -/
def RegionPost (d : Dev nD) (f0 : Buf (Elt F) ((T d : Thread nD τ).loc main_v0)) : Prop := (rdat m d).ArrAt 3 49 f0

theorem hshare (d : Dev nD) : ∀ w, (rdats m 0 d).share w = fullShare := Pipeline.RDat.share_full _ fun _ => rfl

/-- The arrays no window stages do not see the score array's contents. -/
theorem unscopedRest_update (c : Dev nD) (f0 : Buf (Elt F) ((c.tc : Thread nD τ).loc main_v0)) :
    (Pipeline.unscopedRest spec0 c (Function.update (V₀ m c) main_v0 f0) : sProp 𝕄) = Pipeline.unscopedRest spec0 c (V₀ m c) := by
  rw [unscopedRest0_eq, unscopedRest0_eq]
  rw [Function.update_of_ne (show main_arg0 ≠ main_v0 by decide), Function.update_of_ne (show main_v1 ≠ main_v0 by decide),
    Function.update_of_ne (show main_v2 ≠ main_v0 by decide), Function.update_of_ne (show main_v3 ≠ main_v0 by decide),
    Function.update_of_ne (show main_v4 ≠ main_v0 by decide)]

/-- No semaphore of the kernel's own: nothing to hold at zero. -/
theorem ownSems0_empty (c : Dev nD) : (emp : sProp 𝕄) ⊢ Pipeline.ownSems0 (Empty.elim : Empty → SemLoc sig) c := by
  unfold Pipeline.ownSems0
  rw [Finset.univ_eq_empty, bigSep_empty]
  exact BI.Entails.refl _

/-- The core's owed state as the pipeline's loop holds it, and back: the loop's own waits are at level 0. -/
theorem tcOwes_owesAt (c : Dev nD) (t) : tcOwes (F := F) c ⊢ (rdats m 0 c).owesAt none t := by
  unfold tcOwes
  iintro ⟨%W, %hW, Ho⟩
  iexists W; isplitr
  · ipureintro; intro p hp; exact Or.inl (hW p (Finset.mem_coe.1 hp))
  iexact Ho

theorem owesAt_tcOwes (c : Dev nD) (t) : (rdats m 0 c).owesAt none t ⊢ tcOwes (F := F) c := by
  unfold tcOwes
  iintro ⟨%W, %hW, Ho⟩
  iexists W; isplitr
  · ipureintro; intro p hp
    rcases hW (Finset.mem_coe.2 hp) with h | ⟨w, s, rfl⟩
    · exact h
    · exact le_of_eq rfl
  iexact Ho

/-- The region as the library's record: no semaphore of the kernel's own, no invariant; the thread state is what the
    core owes and its arrays; the arrays no window stages bypass the region. -/
def regionSeg : Pipeline.RDat.RegionSeg (pcfgs (F := F)) aP (rdats m) (none : HIx 1) (defs₀ (F := F)) 𝒱₀
    ((K (F := F)).L (nD := nD)) ((K (F := F)).lev (nD := nD)) (0 : Fin 1) where
  win := launch0.win.to₀
  block_pos := launch0.block_pos
  stage_whole := launch0.stage_whole
  K := Empty
  osem := Empty.elim
  ho := ⟨fun k => k.elim, fun k => k.elim, fun k => k.elim⟩
  hbody := fun c => body_obligation m c
  hwaits := fun c => Pipeline.RDat.cellsWaits_intro (Pipeline.pin (pcfgs (F := F)) aP) (rdats m) none 0 c fun w s t =>
    SparseCore.Cfg.mayWait_none (K := K (F := F)) _ (fun g => Otc_none c 0 g)
  pre := fun c => iprop(tcOwes c ∗ unscopedBufs c (V₀ m c))
  post := fun c => iprop(∃ f0, ⌜RegionPost m c f0⌝ ∗ tcOwes c ∗ unscopedBufs c (Function.update (V₀ m c) main_v0 f0))
  X := fun _ => iprop(emp)
  Y := fun _ => iprop(emp)
  Z := fun c => Pipeline.unscopedRest spec0 c (V₀ m c)
  hentry := fun c => by
    iintro ⟨⟨Ho, Hb⟩, -, -⟩
    imodintro
    ihave H := (Entails.of_eq (Pipeline.unscopedBufs_split cfgs (0 : Fin 1) launch0.win.arr_unscoped launch0.win.arr_inj c (V₀ m c))) $$ Hb
    icases H with ⟨Harr, Hrest⟩
    isplitl [Harr]
    · iapply (Entails.of_eq (Pipeline.RDat.arrays_eq (pcfgs (F := F)) aP (rdats m) 0 c launch0.arr_whole (hshare m c) _).symm)
      iexact Harr
    isplitr
    · iapply (show (emp : sProp 𝕄) ⊢ Pipeline.prefHeld (pcfgs (F := F) 0).pre c (fun _ => fullShare) (aP 0).1 from Entails.of_eq rfl)
      iempintro
    isplitl [Ho]
    · iapply (tcOwes_owesAt m c 0); iexact Ho
    isplitr; · iempintro
    iexact Hrest
  hin := fun c => by iintro -; iempintro
  hout := fun c => by
    iintro -
    isplitr; · iempintro
    isplitr
    · iapply (ownSems0_empty c); iempintro
    · iapply (Entails.of_eq (scopedRest0_eq (Ix := HIx 1) (Val := Elt F) (Name := ℕ) (U := UU) (Lvl := ℕ) c).symm); iempintro
  hexit := fun c => by
    classical
    unfold RDat.arraysAt
    iintro ⟨Harrs, Ho, Hemp, Hrest⟩
    imodintro
    -- one family of contents for the four arrays, each as its window's write-backs may have left it
    ihave Ha' := (BI.bigSep_exists_pi Finset.univ (fun w G => iprop(⌜(rdats m 0 c).ArrAt w (Pipeline.pin (pcfgs (F := F)) aP 0).N G⌝
        ∗ ((Pipeline.pin (pcfgs (F := F)) aP 0).win w).arr.view.loc (c.tc : Thread nD τ)
            ↦[((Pipeline.pin (pcfgs (F := F)) aP 0).win w).arr.view.set]{(rdats m 0 c).share w} G))) $$ Harrs
    icases Ha' with ⟨%Fs, Harrs⟩
    ihave Ha2 := (BI.bigSep_pure_sep Finset.univ (fun w => (rdats m 0 c).ArrAt w (Pipeline.pin (pcfgs (F := F)) aP 0).N (Fs w))
        (fun w => ((Pipeline.pin (pcfgs (F := F)) aP 0).win w).arr.view.loc (c.tc : Thread nD τ)
            ↦[((Pipeline.pin (pcfgs (F := F)) aP 0).win w).arr.view.set]{(rdats m 0 c).share w} Fs w)) $$ Harrs
    icases Ha2 with ⟨%hFs, Harrs⟩
    -- the inputs' arrays are never written; the score array is the family's fourth member
    have hV : ∀ w, Fs w = Function.update (V₀ m c) main_v0 (Fs 3) (Pipeline.arrRef (cfgs 0).spec w) := by
      intro w
      fin_cases w
      · have h := hFs 0 (Finset.mem_univ _); rw [RDat.ArrAt_in _ _ rfl] at h
        show Fs 0 = Function.update (V₀ m c) main_v0 (Fs 3) main_arg2
        exact h.trans (Function.update_of_ne (show main_arg2 ≠ main_v0 by decide) (Fs 3) (V₀ m c)).symm
      · have h := hFs 1 (Finset.mem_univ _); rw [RDat.ArrAt_in _ _ rfl] at h
        show Fs 1 = Function.update (V₀ m c) main_v0 (Fs 3) main_arg1
        exact h.trans (Function.update_of_ne (show main_arg1 ≠ main_v0 by decide) (Fs 3) (V₀ m c)).symm
      · have h := hFs 2 (Finset.mem_univ _); rw [RDat.ArrAt_in _ _ rfl] at h
        show Fs 2 = Function.update (V₀ m c) main_v0 (Fs 3) main_arg3
        exact h.trans (Function.update_of_ne (show main_arg3 ≠ main_v0 by decide) (Fs 3) (V₀ m c)).symm
      · show Fs 3 = Function.update (V₀ m c) main_v0 (Fs 3) main_v0
        exact (Function.update_self main_v0 (Fs 3) (V₀ m c)).symm
    iexists (Fs 3)
    isplitr; · ipureintro; exact hFs 3 (Finset.mem_univ _)
    isplitl [Ho]; · iapply (owesAt_tcOwes m c _); iexact Ho
    iapply (Entails.of_eq (Pipeline.unscopedBufs_split cfgs (0 : Fin 1) launch0.win.arr_unscoped launch0.win.arr_inj c
      (Function.update (V₀ m c) main_v0 (Fs 3))).symm)
    isplitl [Harrs]
    · iapply (Entails.of_eq (bigSep_congr (fun w _ => by rw [(launch0.arr_whole w).set_eq_univ, hshare m c w, ← hV w]) :
        (bigSep Finset.univ fun w => (((Pipeline.pin (pcfgs (F := F)) aP 0).win w).arr.view.loc (c.tc : Thread nD τ)
            ↦[((Pipeline.pin (pcfgs (F := F)) aP 0).win w).arr.view.set]{(rdats m 0 c).share w} Fs w : sProp 𝕄))
          = bigSep Finset.univ fun w => (((c.tc : Thread nD τ).loc (Pipeline.arrRef (cfgs 0).spec w))
              ↦{fullShare} Function.update (V₀ m c) main_v0 (Fs 3) (Pipeline.arrRef (cfgs 0).spec w) : sProp 𝕄)))
      iexact Harrs
    · iapply (Entails.of_eq (unscopedRest_update m c (Fs 3)).symm); iexact Hrest

/-! ## The region's step -/

variable [∀ e, Nonempty (Elt F e)]

/-- The region, from what the TensorCore owes, its boundary resources, its arrays at the launch contents and the
    pipeline's ghost state: it runs, and what it holds comes back with the score array at contents of which
    `RegionPost` holds, the other arrays untouched. -/
theorem hregion_owes (P : (K (F := F)).Pay (nD := nD) (Val := Elt F) (Name := ℕ) (U := UU)) (κ : GSem nD τ sig → ℕ)
    (d : Dev nD) (Φ : PUnit → sProp 𝕄) :
    iprop((K (F := F)).ctx EH P κ ∗ tcOwes d ∗ boundary (T d : Thread nD τ) ∗ unscopedBufs d (V₀ m d) ∗ regionGhost d
        ∗ (∀ f0, ⌜RegionPost m d f0⌝ -∗ (tcOwes d ∗ boundary (T d : Thread nD τ)
              ∗ unscopedBufs d (Function.update (V₀ m d) main_v0 f0)) -∗ Φ ⟨⟩))
      ⊢ wp frame (wpE ((K (F := F)).defs (D (F := F))) 𝒱 (T d) none) Set.univ
          (Prog.lift (.customCall (SparseCore.inner (Pipeline.entry 0)) ())) Φ := by
  -- the call is the pipeline's entry, lifted to the launch's signature
  refine .trans ?_ ((K (F := F)).wp_liftProg (D (F := F)) 𝒱 (T d) Set.univ none
      (Prog.lift (.customCall (Pipeline.entry (0 : Fin 1)) ())) Φ)
  unfold regionGhost
  iintro ⟨#Hctx, Ho, Hbd, Hb, ⟨Hg, Ht⟩, Hk⟩
  ihave Hla := (SparseCore.Cfg.ctx_levAts (K := K (F := F)) (EH := EH) (P := P) κ) $$ Hctx
  have hwp := Pipeline.RDat.RegionSeg.wp (pcfgs (F := F)) aP (rdats m) (none : HIx 1) launch0.cellOf_inj (EP (F := F)) (defs₀ (F := F)) 𝒱₀
      _ _ (regionSeg m) d none (fun _ h => nomatch h) (fun x => .ret x) Φ
  dsimp only [regionSeg] at hwp
  iapply hwp
  isplitl [Hk]
  · iintro ⟨Hbd, Hpost⟩
    rw [wp_ret]
    icases Hpost with ⟨%f0, %hf0, Ho, Hb⟩
    imodintro
    iapply Hk $$ %f0 %hf0
    isplitl [Ho]; · iexact Ho
    isplitl [Hbd]; · iexact Hbd
    iexact Hb
  isplitl [Hbd]; · iexact Hbd
  isplitl [Ho Hb]
  · isplitl [Ho]; · iexact Ho
    iexact Hb
  isplitl []; · iexact Hla
  isplitl [Hg]; · iexact Hg
  iexact Ht

/-- The same with the TensorCore's whole handshake state before its first call: only what it owes enters the region; its
    position on its cells, the rounds reached and the later calls' tokens pass by. -/
theorem hregion (P : (K (F := F)).Pay (nD := nD) (Val := Elt F) (Name := ℕ) (U := UU)) (κ : GSem nD τ sig → ℕ)
    (d : Dev nD) (Φ : PUnit → sProp 𝕄) :
    iprop((K (F := F)).ctx EH P κ ∗ (K (F := F)).tcSt EH d 0 ∗ boundary (T d : Thread nD τ) ∗ unscopedBufs d (V₀ m d) ∗ regionGhost d
        ∗ (∀ f0, ⌜RegionPost m d f0⌝ -∗ ((K (F := F)).tcSt EH d 0 ∗ boundary (T d : Thread nD τ)
              ∗ unscopedBufs d (Function.update (V₀ m d) main_v0 f0)) -∗ Φ ⟨⟩))
      ⊢ wp frame (wpE ((K (F := F)).defs (D (F := F))) 𝒱 (T d) none) Set.univ
          (Prog.lift (.customCall (SparseCore.inner (Pipeline.entry 0)) ())) Φ := by
  have hin : ∀ (R : sProp 𝕄), iprop((∃ W, ⌜(K (F := F)).WBelow (T d) W (8 * 0)⌝ ∗ owes (T d) ((K (F := F)).Otc d 0) W) ∗ R)
      ⊢ iprop(tcOwes (F := F) d ∗ R) := fun R => by unfold tcOwes; exact BI.Entails.refl _
  have hout : ∀ (R : sProp 𝕄), iprop(tcOwes (F := F) d ∗ R)
      ⊢ iprop((∃ W, ⌜(K (F := F)).WBelow (T d) W (8 * 0)⌝ ∗ owes (T d) ((K (F := F)).Otc d 0) W) ∗ R) := fun R => by
    unfold tcOwes; exact BI.Entails.refl _
  unfold SparseCore.Cfg.tcSt
  iintro ⟨#Hctx, Hst, Hbd, Hb, Hg, Hk⟩
  ihave Hst' := (hin _) $$ Hst
  icases Hst' with ⟨Ho, Hst⟩
  iapply (hregion_owes m P κ d Φ)
  isplitl []; · iexact Hctx
  isplitl [Ho]; · iexact Ho
  isplitl [Hbd]; · iexact Hbd
  isplitl [Hb]; · iexact Hb
  isplitl [Hg]; · iexact Hg
  iintro %f0 %hf0 ⟨Ho, Hbd, Hb⟩
  iapply Hk $$ %f0 %hf0
  isplitl [Ho Hst]
  · iapply (hout _)
    isplitl [Ho]; · iexact Ho
    iexact Hst
  isplitl [Hbd]; · iexact Hbd
  iexact Hb

end Cert.Proof.KI

end
-- ==== Proof.KI.Run.lean ====
/-
  The gather-of-scores program's run, assembled: from a launch memory whose index array holds table rows (every entry at
  most 99999), every weakly fair execution of the device's threads ends with the four argument arrays as launched and the
  result array a re-laid flat array every value of which is as `Val` says — provided what the pipelined region leaves of
  the scores makes the flat scores satisfy `Val` at the position each flat index names. The pieces: the launch (how
  @main's arrays are dealt and collected), a subcore's task, and the pipelined region.
-/
import proofs.«211127_g52536039965321_cont_9to1c4b_697_4_alg».proof.Proof.KI.Flat
import proofs.«211127_g52536039965321_cont_9to1c4b_697_4_alg».proof.Proof.KI.Tile
import proofs.«211127_g52536039965321_cont_9to1c4b_697_4_alg».proof.Proof.KI.Region

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]
variable (Val : (d : Dev nD) → S819200.Idx → Elt F .f32 → Prop)

theorem run [∀ e, Nonempty (Elt F e)]
    (hSok : ∀ d f0, RegionPost m d f0 → Sok (flatI m) Val d (flatS d f0))
    (h0 : ∀ (d : Dev nD) (j : S4096x200.Idx), ((m (a0Loc d) : S4096x200.Idx → BitVec 32) j).toNat ≤ 99999) :
    θ_run (Cert.KernelIdeal.defs (F := F)) (Cert.KernelIdeal.threads (F := F)) ⟨m, fun _ => 0, ρ⟩ (QC m Val) :=
  run_main m ρ Val (RegionPost m) regionGhost uP₀ regionGhost_fund
    (fun κ d Φ => hregion m (P m (flatI m) Val) κ d Φ) hSok
    (tileObl m (flatI m) Val fun d k => Nat.lt_of_le_of_lt (flatI_le m 99999 d (h0 d) k) (by decide))

end Cert.Proof.KI

end
-- ==== Proof.KB.Common.lean ====
/-
  The gather-of-scores kernel as the SparseCore launch theorem sees it, and what its handshakes carry.

  The program: on each device's TensorCore, one pipelined region computes a score per table row (49 blocks of 2048
  rows, the last block running past the table's 100000 rows), the scores and the indices are laid out flat, and one
  vector-subcore kernel on 2 SparseCores × 16 subcores gathers: every subcore copies ALL the scores into its own memory and,
  for each of its two chunks of 12800 indices, copies the chunk in, looks each index up in its copy of the scores, and
  copies the 12800 looked-up scores out to the same positions of the flat result.

  What travels to a subcore and back: a read share of the flat scores and of the flat indices (each whole), and full
  ownership of the two chunks of the flat result it writes. The flat result is 64 chunks of 12800: chunk number
  `4 s + 2 c + r` is chunk `r` of subcore `s` of SparseCore `c`. What is known of the scores when the kernel starts, and of
  the result when it ends, is a predicate `Val d k` on the value at flat position `k`: the scores satisfy it at the
  position each index names, so the result satisfies it everywhere.
-/
import proofs.«211127_g52536039965321_cont_9to1c4b_697_4_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.ValueIdx
import Idealize.ShloMosaic.Lib.Tactic
import proofs.«211127_g52536039965321_cont_9to1c4b_697_4_alg».proof.Proof.Gen.Kernel
import proofs.«211127_g52536039965321_cont_9to1c4b_697_4_alg».proof.Proof.Gen.Kernel.Skeleton
import proofs.«211127_g52536039965321_cont_9to1c4b_697_4_alg».proof.Proof.Gen.Kernel.Launch
import proofs.«211127_g52536039965321_cont_9to1c4b_697_4_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelined region's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds, the left component. -/
abbrev EH : Emb UH (MT nD τ sig (HIx 1) (Elt F) ℕ UU ℕ) := embL
/-- The pipelined region's rounds, the middle component. -/
def EP : Emb UP (MT nD τ sig (HIx 1) (Elt F) ℕ UU ℕ) := (Emb.inl : Emb UP (UP × Counters)).trans embR

/-! ## The flat arrays and their pieces -/

variable (m : (ℓ : Loc nD τ sig) → Buf (Elt F) ℓ) (ρ : Dev nD → PrngReg)

/-- The flat scores (100352 of them), the flat indices and the flat result (819200 each), as the TensorCore names them. -/
abbrev sLoc (d : Dev nD) : Loc nD τ sig := (SparseCore.T d).loc main_v1
abbrev iLoc (d : Dev nD) : Loc nD τ sig := (SparseCore.T d).loc main_v2
abbrev oLoc (d : Dev nD) : Loc nD τ sig := (SparseCore.T d).loc main_v3

/-- The same three arrays as a vector subcore's kernel addresses them. -/
abbrev sV : Memref sig .scVector .hbm S100352 .f32 := Memref.whole main_v1_scv
abbrev iV : Memref sig .scVector .hbm S819200 .i32 := Memref.whole main_v2_scv
abbrev oV : Memref sig .scVector .hbm S819200 .f32 := Memref.whole main_v3_scv

/-- Position `n` of the flat scores, kept inside the array. -/
def sAt (n : ℕ) : S100352.Idx := ValueIdx.ix1 (⟨min n 100351, by omega⟩ : Fin 100352)

theorem hdiv64 : 64 ∣ S819200.size 0 := ⟨12800, rfl⟩
/-- Chunk `n` of 64 of a flat array of 819200: positions `12800 n` to `12800 n + 12799`. -/
abbrev chunk (n : Fin 64) : Rect S819200 := Rect.part (s := S819200) (a₀ := 0) hdiv64 n
abbrev chunkSet (n : Fin 64) : Finset S819200.Idx := ((oV : Memref sig .scVector .hbm S819200 .f32).view.slice (chunk n)).set
/-- The number of chunk `r` of subcore `i` of SparseCore `c`. -/
def chunkNo (c : Fin 2) (i : Fin 16) (r : Fin 2) : Fin 64 := ⟨4 * i.val + 2 * c.val + r.val, by omega⟩

/-- The read share of SparseCore `c`, and of its subcore `i`. -/
abbrev qC (c : Fin 2) : PosShare TreeShare := Transfers.shareTok fullShare 2 c
abbrev qT (c : Fin 2) (i : Fin 16) : PosShare TreeShare := Transfers.shareTok (qC c) 16 i

/-! ## What the handshakes carry -/

section Pay

variable [FloatOps F]
variable (I : (d : Dev nD) → Buf (Elt F) (iLoc d))
variable (Val : (d : Dev nD) → S819200.Idx → Elt F .f32 → Prop)

/-- What is known of flat scores `Sc` when the kernel starts: at the position each index names, the value the result
    is to have there. -/
def Sok (d : Dev nD) (Sc : Buf (Elt F) (sLoc d)) : Prop := ∀ k : S819200.Idx, Val d k (Sc (sAt (I d k).toNat))

/-- A subcore's task takes: a read share of the flat scores (some contents of which `Sok` holds) and of the flat
    indices, and its two chunks of the flat result; -/
def goRes (d : Dev nD) (c : Fin 2) (i : Fin 16) : sProp 𝕄 :=
  iprop(∃ Sc : Buf (Elt F) (sLoc d), ⌜Sok I Val d Sc⌝ ∗ (sLoc d ↦{qT c i} Sc) ∗ (iLoc d ↦{qT c i} I d)
    ∗ (oLoc d ↦[chunkSet (chunkNo c i 0)]{fullShare} m (oLoc d)) ∗ (oLoc d ↦[chunkSet (chunkNo c i 1)]{fullShare} m (oLoc d)))

/-- and brings back its two chunks, each at contents every value of which is as `Val` says. -/
def tdChunk (d : Dev nD) (n : Fin 64) : sProp 𝕄 :=
  iprop(∃ f : Buf (Elt F) (oLoc d), (oLoc d ↦[chunkSet n]{fullShare} f) ∗ ⌜∀ k ∈ chunkSet n, Val d k (f k)⌝)
def tdRes (d : Dev nD) (c : Fin 2) (i : Fin 16) : sProp 𝕄 :=
  iprop(tdChunk Val d (chunkNo c i 0) ∗ tdChunk Val d (chunkNo c i 1))

/-- The one call: each SparseCore is handed its sixteen subcores' tasks' resources and hands back theirs; the kernel owes
    nothing of its own and consumes nothing of the launch's. -/
def P : (K (F := F)).Pay (nD := nD) (Val := Elt F) (Name := ℕ) (U := UU) where
  st := fun q d c => match q with | 0 => bigSep Finset.univ fun i : Fin 16 => goRes m I Val d (Fin.cast nCore_zero c) i
  dn := fun q d c => match q with | 0 => bigSep Finset.univ fun i : Fin 16 => tdRes Val d (Fin.cast nCore_zero c) i
  go := fun q d c i => match q with | 0 => goRes m I Val d (Fin.cast nCore_zero c) (Fin.cast nSub_zero i)
  td := fun q d c i => match q with | 0 => tdRes Val d (Fin.cast nCore_zero c) (Fin.cast nSub_zero i)
  x := fun _ _ => iprop(emp)

end Pay

end Cert.Proof.KB

end
-- ==== Proof.KB.LaunchA.lean ====
/-
  The launch of the gather-of-scores program, first half: the payloads can be stored in the handshakes' cells; a
  SparseCore's share of the call IS its sixteen subcores' tasks' resources, so handing them out and collecting them is
  the identity; the launch element of the ghost state is the handshakes' rounds, the pipelined region's rounds and
  empty counters; and from what @main leaves — the four argument arrays as launched, the result array a re-laid flat
  array every value of which is as `Val` says — the final memory reads the same.
-/
import proofs.«211127_g52536039965321_cont_9to1c4b_697_4_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]
variable (I : (d : Dev nD) → Buf (Elt F) (iLoc d)) (Val : (d : Dev nD) → S819200.Idx → Elt F .f32 → Prop)

/-! ## The payloads are storable -/

instance goRes_storable (d : Dev nD) (c : Fin 2) (i : Fin 16) : BI.Storable (upEmb : UEmb _ 𝕄) (goRes m I Val d c i) := by
  unfold goRes; infer_instance
instance tdChunk_storable (d : Dev nD) (n : Fin 64) : BI.Storable (upEmb : UEmb _ 𝕄) (tdChunk (F := F) Val d n) := by
  unfold tdChunk; infer_instance
instance tdRes_storable (d : Dev nD) (c : Fin 2) (i : Fin 16) : BI.Storable (upEmb : UEmb _ 𝕄) (tdRes (F := F) Val d c i) := by
  unfold tdRes; infer_instance

instance P_storable : (P (F := F) m I Val).IsStorable where
  st q d c := match q with
    | 0 => (inferInstance : BI.Storable (upEmb : UEmb _ 𝕄) (bigSep Finset.univ fun i : Fin 16 => goRes m I Val d (Fin.cast nCore_zero c) i))
  dn q d c := match q with
    | 0 => (inferInstance : BI.Storable (upEmb : UEmb _ 𝕄) (bigSep Finset.univ fun i : Fin 16 => tdRes (F := F) Val d (Fin.cast nCore_zero c) i))
  go q d c i := match q with
    | 0 => (inferInstance : BI.Storable (upEmb : UEmb _ 𝕄) (goRes m I Val d (Fin.cast nCore_zero c) (Fin.cast nSub_zero i)))
  td q d c i := match q with
    | 0 => (inferInstance : BI.Storable (upEmb : UEmb _ 𝕄) (tdRes (F := F) Val d (Fin.cast nCore_zero c) (Fin.cast nSub_zero i)))

/-! ## A SparseCore's share is its subcores' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m I Val) 0 := by
  intro d c
  show (bigSep Finset.univ fun i : Fin 16 => goRes m I Val d (Fin.cast nCore_zero c) i) ⊢ |={Set.univ}=> iprop(
      (bigSep Finset.univ fun i : Fin ((K (F := F)).nSub 0) => goRes m I Val d (Fin.cast nCore_zero c) (Fin.cast nSub_zero i))
      ∗ ((bigSep Finset.univ fun i : Fin ((K (F := F)).nSub 0) => tdRes (F := F) Val d (Fin.cast nCore_zero c) (Fin.cast nSub_zero i))
          -∗ bigSep Finset.univ fun i : Fin 16 => tdRes (F := F) Val d (Fin.cast nCore_zero c) i))
  rw [bigSep_tasks (F := F) (fun i => goRes m I Val d (Fin.cast nCore_zero c) i),
    bigSep_tasks (F := F) (fun i => tdRes (F := F) Val d (Fin.cast nCore_zero c) i)]
  iintro H; imodintro
  isplitl [H]; · iexact H
  iintro H; iexact H

/-! ## The launch element -/

section Element

variable (uP₀ : UP)

def u₀ : UU := (initOf (K (F := F)).hsCells (K (F := F)).hsToks, (uP₀, 1))

omit [FloatOps F] in
theorem bigSep_emp' {J : Type} (s : Finset J) : (bigSep s fun _ => iprop(emp)) = (iprop(emp) : sProp 𝕄) := bigSep_emp_const s

theorem hu₀ (regionGhost : Dev nD → sProp 𝕄) (hfund : (BI.own (EP (F := F) uP₀) : sProp 𝕄) ⊢ iprop(|==> bigSep Finset.univ regionGhost)) :
    (ownU (u₀ (F := F) uP₀) : sProp 𝕄)
      ⊢ |={Set.univ}=> iprop(BI.own (EH (initOf (K (F := F)).hsCells (K (F := F)).hsToks)) ∗ (bigSep Finset.univ regionGhost)
        ∗ bigSep Finset.univ fun thr : Thread nD τ => bigSep Finset.univ fun q : Fin 1 => (P m I Val).x q thr) := by
  unfold u₀
  iintro Hu
  ihave H := (ownU_pair _ _) $$ Hu
  icases H with ⟨HH, HR⟩
  ihave HR' := (own_pair_emb (embR (A := UH) (B := UP × Counters)) uP₀ (1 : Counters)) $$ HR
  icases HR' with ⟨HP, -⟩
  have hfund' : (BI.own (((Emb.inl : Emb UP (UP × Counters)).trans (embR (A := UH) (B := UP × Counters))) uP₀) : sProp 𝕄)
      ⊢ iprop(|==> bigSep Finset.univ regionGhost) := hfund
  imod hfund' $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Element

/-! ## What @main leaves, and the claim read off the final memory -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev rLoc (d : Dev nD) : Loc nD τ sig := (SparseCore.T d).loc main_v4

/-- The result array from the flat result: the same values in the result's layout. -/
def relay (d : Dev nD) (g : Buf (Elt F) (oLoc d)) : Buf (Elt F) (rLoc d) :=
  fun i => shapeCast S4096x200x1 g shapeCasts_S819200_S4096x200x1 i

/-- The result array is the re-laid flat array `g`, every value of which is as `Val` says. -/
def ResOk (d : Dev nD) (r : Buf (Elt F) (rLoc d)) : Prop := ∃ g : Buf (Elt F) (oLoc d), (∀ k : S819200.Idx, Val d k (g k)) ∧ r = relay d g

def FIN (d : Dev nD) : sProp 𝕄 :=
  iprop((a0Loc d ↦{fullShare} m (a0Loc d)) ∗ (a1Loc d ↦{fullShare} m (a1Loc d)) ∗ (a2Loc d ↦{fullShare} m (a2Loc d)) ∗ (a3Loc d ↦{fullShare} m (a3Loc d))
    ∗ ∃ r : Buf (Elt F) (rLoc d), ⌜ResOk Val d r⌝ ∗ rLoc d ↦{fullShare} r)

def fq (d : Dev nD) (s' : Phys nD τ sig (Elt F)) : Prop :=
  ResOk Val d (s'.mem.mem (rLoc d)) ∧ s'.mem.mem (a0Loc d) = m (a0Loc d) ∧ s'.mem.mem (a1Loc d) = m (a1Loc d)
    ∧ s'.mem.mem (a2Loc d) = m (a2Loc d) ∧ s'.mem.mem (a3Loc d) = m (a3Loc d)

theorem agree_full (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h1, HSI, -⟩
  isplitr
  · ipureintro; exact funext fun i => h1 i (Finset.mem_univ i)
  · iexact HSI

theorem hfin (d : Dev nD) (s' : Phys nD τ sig (Elt F)) : iprop(FIN m Val d ∗ SI s') ⊢ (⌜fq m Val d s'⌝ : sProp 𝕄) := by
  unfold FIN
  iintro ⟨⟨H0, H1, H2, H3, %r, %hr, Hr⟩, HSI⟩
  ihave H := (agree_full s' (a0Loc d) _) $$ [H0 HSI]
  · isplitl [H0] <;> iassumption
  icases H with ⟨%h0, HSI⟩
  ihave H := (agree_full s' (a1Loc d) _) $$ [H1 HSI]
  · isplitl [H1] <;> iassumption
  icases H with ⟨%h1, HSI⟩
  ihave H := (agree_full s' (a2Loc d) _) $$ [H2 HSI]
  · isplitl [H2] <;> iassumption
  icases H with ⟨%h2, HSI⟩
  ihave H := (agree_full s' (a3Loc d) _) $$ [H3 HSI]
  · isplitl [H3] <;> iassumption
  icases H with ⟨%h3, HSI⟩
  ihave H := (agree_full s' (rLoc d) r) $$ [Hr HSI]
  · isplitl [Hr] <;> iassumption
  icases H with ⟨%h4, -⟩
  ipureintro
  exact ⟨h4 ▸ hr, h0, h1, h2, h3⟩

def QC : PUnit × MemSt nD τ sig (Elt F) → Prop := fun r => ∀ c : Dev nD,
  ResOk Val c (r.2.mem (rLoc c)) ∧ r.2.mem (a0Loc c) = m (a0Loc c) ∧ r.2.mem (a1Loc c) = m (a1Loc c)
    ∧ r.2.mem (a2Loc c) = m (a2Loc c) ∧ r.2.mem (a3Loc c) = m (a3Loc c)

end Cert.Proof.KB

end
-- ==== Proof.KB.LaunchB.lean ====
/-
  The launch of the gather-of-scores program, second half: how @main's arrays are dealt to the 32 subcores and
  collected again. The flat scores and the flat indices are read by every subcore: each goes out as 2 × 16 read shares
  of the whole array. The flat result is written in 64 disjoint chunks of 12800 that cover it; chunk `4 i + 2 c + r` goes to
  subcore `i` of SparseCore `c`, so the 64 chunks regroup as 2 × 16 pairs. Coming back, each chunk is at contents whose every
  value is as `Val` says; the chunks being disjoint and covering, they are one array of which the same holds everywhere.
-/
import proofs.«211127_g52536039965321_cont_9to1c4b_697_4_alg».proof.Proof.KB.LaunchA

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]
variable (I : (d : Dev nD) → Buf (Elt F) (iLoc d)) (Val : (d : Dev nD) → S819200.Idx → Elt F .f32 → Prop)

/-! ## Read shares for 2 × 16 subcores -/

omit [FloatOps F] in
theorem share_split (ℓ : Loc nD τ sig) (f : Buf (Elt F) ℓ) :
    (ℓ ↦{fullShare} f : sProp 𝕄) ⊢ bigSep Finset.univ fun c : Fin 2 => bigSep Finset.univ fun i : Fin 16 => ℓ ↦{qT c i} f := by
  refine (Transfers.pointsTo_toks_split fullShare 2).trans (sep_elim_right.trans ?_)
  exact bigSep_mono fun c _ => (Transfers.pointsTo_toks_split (qC c) 16).trans sep_elim_right

/-! ## The flat result in 64 chunks -/

omit [FloatOps F] in
theorem chunkSet_part (n : Fin 64) : chunkSet n = (chunk n).set := by
  show ((View.whole (main_v3_scv : Ref sig .scVector)).slice (chunk n)).set = _
  rw [View.set_slice]; exact Finset.map_refl
omit [FloatOps F] in
theorem chunks_disjoint : ∀ i ∈ (Finset.univ : Finset (Fin 64)), ∀ j ∈ (Finset.univ : Finset (Fin 64)), i ≠ j → Disjoint (chunkSet i) (chunkSet j) :=
  fun i _ j _ h => by rw [chunkSet_part, chunkSet_part]; exact Rect.part_disjoint hdiv64 h
omit [FloatOps F] in
theorem chunks_cover : (Finset.univ : Finset (Fin 64)).biUnion chunkSet = Finset.univ :=
  (Finset.biUnion_congr rfl fun i _ => chunkSet_part i).trans (Rect.biUnion_part hdiv64)

omit [FloatOps F] in
theorem oPts_chunks (d : Dev nD) (f : Buf (Elt F) (oLoc d)) :
    (oLoc d ↦{fullShare} f : sProp 𝕄) = bigSep Finset.univ fun n : Fin 64 => oLoc d ↦[chunkSet n]{fullShare} f := by
  rw [← pointsTo_biUnion Finset.univ (ℓ := oLoc d) chunkSet chunks_disjoint, chunks_cover]; try rfl

/-- The 64 chunk numbers are the triples (SparseCore, subcore, chunk of the subcore). -/
def chunkEquiv : Fin 2 × Fin 16 × Fin 2 ≃ Fin 64 where
  toFun x := chunkNo x.1 x.2.1 x.2.2
  invFun n := (⟨(n.val / 2) % 2, Nat.mod_lt _ (by decide)⟩, ⟨n.val / 4, by omega⟩, ⟨n.val % 2, Nat.mod_lt _ (by decide)⟩)
  left_inv := by
    rintro ⟨c, i, r⟩
    simp only [chunkNo, Prod.mk.injEq]
    refine ⟨Fin.ext ?_, Fin.ext ?_, Fin.ext ?_⟩ <;> simp only <;> omega
  right_inv := by
    intro n
    simp only [chunkNo]
    exact Fin.ext (by simp only; omega)

omit [FloatOps F] in
theorem bigSep_chunks (Φ : Fin 64 → sProp 𝕄) :
    bigSep Finset.univ Φ = bigSep Finset.univ fun c : Fin 2 => bigSep Finset.univ fun i : Fin 16 => iprop(Φ (chunkNo c i 0) ∗ Φ (chunkNo c i 1)) := by
  rw [← Finset.map_univ_equiv chunkEquiv, BI.bigSep_map, bigSep_univ_prod]
  refine bigSep_congr fun c _ => ?_
  rw [bigSep_univ_prod]
  refine bigSep_congr fun i _ => ?_
  exact bigSep_univ_two _

/-! ## Dealing the arrays to the tasks, and collecting the result -/

theorem go_intro (d : Dev nD) (Sc : Buf (Elt F) (sLoc d)) (hS : Sok I Val d Sc) :
    iprop((sLoc d ↦{fullShare} Sc) ∗ (iLoc d ↦{fullShare} I d) ∗ (oLoc d ↦{fullShare} m (oLoc d)))
      ⊢ (bigSep Finset.univ fun c : Fin 2 => bigSep Finset.univ fun i : Fin 16 => goRes m I Val d c i : sProp 𝕄) := by
  have hitem : ∀ (c : Fin 2) (i : Fin 16), iprop((sLoc d ↦{qT c i} Sc) ∗ (iLoc d ↦{qT c i} I d)
      ∗ (oLoc d ↦[chunkSet (chunkNo c i 0)]{fullShare} m (oLoc d)) ∗ (oLoc d ↦[chunkSet (chunkNo c i 1)]{fullShare} m (oLoc d)))
        ⊢ (goRes m I Val d c i : sProp 𝕄) := by
    intro c i
    unfold goRes
    iintro ⟨Hs, Hi, Ho0, Ho1⟩
    iexists Sc
    isplitr; · ipureintro; exact hS
    isplitl [Hs]; · iexact Hs
    isplitl [Hi]; · iexact Hi
    isplitl [Ho0]; · iexact Ho0
    iexact Ho1
  rw [oPts_chunks, bigSep_chunks]
  refine (BIClass.sep_mono (share_split _ _) (BIClass.sep_mono (share_split _ _) .rfl)).trans ?_
  rw [← bigSep_sep', ← bigSep_sep']
  refine bigSep_mono fun c _ => ?_
  rw [← bigSep_sep', ← bigSep_sep']
  exact bigSep_mono fun i _ => hitem c i

omit [FloatOps F] in
theorem sep_pure_comm {A : sProp 𝕄} {φ : Prop} : iprop(A ∗ ⌜φ⌝) ⊢ (iprop(⌜φ⌝ ∗ A) : sProp 𝕄) := by
  iintro ⟨H, %h⟩
  isplitr; · ipureintro; exact h
  iexact H

theorem td_join [∀ e, Nonempty (Elt F e)] (d : Dev nD) :
    (bigSep Finset.univ fun c : Fin 2 => bigSep Finset.univ fun i : Fin 16 => tdRes (F := F) Val d c i)
      ⊢ (iprop(∃ g : Buf (Elt F) (oLoc d), ⌜∀ k : S819200.Idx, Val d k (g k)⌝ ∗ oLoc d ↦{fullShare} g) : sProp 𝕄) := by
  unfold tdRes
  rw [← bigSep_chunks (fun n => tdChunk (F := F) Val d n)]
  unfold tdChunk
  refine (bigSep_exists_pi Finset.univ (fun n (f : Buf (Elt F) (oLoc d)) =>
    iprop((oLoc d ↦[chunkSet n]{fullShare} f) ∗ ⌜∀ k ∈ chunkSet n, Val d k (f k)⌝))).trans ?_
  iintro ⟨%fs, H⟩
  have hcomm : (bigSep Finset.univ fun n : Fin 64 => iprop((oLoc d ↦[chunkSet n]{fullShare} fs n) ∗ ⌜∀ k ∈ chunkSet n, Val d k (fs n k)⌝) : sProp 𝕄)
      ⊢ bigSep Finset.univ fun n : Fin 64 => iprop(⌜∀ k ∈ chunkSet n, Val d k (fs n k)⌝ ∗ (oLoc d ↦[chunkSet n]{fullShare} fs n)) :=
    bigSep_mono fun n _ => sep_pure_comm
  ihave H1 := (hcomm) $$ H
  ihave H2 := (bigSep_pure_sep Finset.univ (fun n : Fin 64 => ∀ k ∈ chunkSet n, Val d k (fs n k)) (fun n => (oLoc d ↦[chunkSet n]{fullShare} fs n))) $$ H1
  icases H2 with ⟨%hv, Hp⟩
  ihave H3 := (pointsTo_biUnion_join Finset.univ chunkSet fs (fs 0) chunks_disjoint) $$ Hp
  icases H3 with ⟨%g, %hg, Hg⟩
  rw [chunks_cover]
  iexists g
  isplitr
  · ipureintro
    intro k
    have hk' : k ∈ (Finset.univ : Finset (Fin 64)).biUnion chunkSet := by rw [chunks_cover]; exact Finset.mem_univ k
    obtain ⟨n, -, hk⟩ := Finset.mem_biUnion.mp hk'
    rw [hg n (Finset.mem_univ n) k hk]
    exact hv n (Finset.mem_univ n) k hk
  · iexact Hg

end Cert.Proof.KB

end
-- ==== Proof.KB.LaunchC.lean ====
/-
  @main of the gather-of-scores program on a device's TensorCore, and the program's run.

  @main runs the pipelined region that leaves the scores in a [49, 1, 2048] array, re-lays that array flat, re-lays
  the index array flat, starts the gather kernel on the two SparseCores and waits for it, and re-lays the flat result as
  the result array. What is known of the scores after the region is a predicate `RegionPost`; it is asked to imply that
  the flat scores satisfy `Val` at the position each index names (`Sok`). The arrays are followed as one valuation of the
  TensorCore's nine arrays, each host operation taking it to the operation's result; the call takes the three flat
  arrays out and puts the flat result back at contents every value of which is as `Val` says.
-/
import proofs.«211127_g52536039965321_cont_9to1c4b_697_4_alg».proof.Proof.KB.LaunchB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]
variable (Val : (d : Dev nD) → S819200.Idx → Elt F .f32 → Prop)

/-! ## The TensorCore's nine arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev S9 : Finset (DevRef τ sig) := {a0', a1', a2', a3', v0', v1', v2', v3', v4'}
abbrev v0Loc (d : Dev nD) : Loc nD τ sig := (SparseCore.T d).loc main_v0

omit [FloatOps F] in
theorem held_S9 (d : Dev nD) (W : Valuation τ sig (Elt F)) :
    (held (T d) S9 W : sProp 𝕄) = iprop((a0Loc d ↦{fullShare} W a0') ∗ (a1Loc d ↦{fullShare} W a1') ∗ (a2Loc d ↦{fullShare} W a2') ∗ (a3Loc d ↦{fullShare} W a3')
      ∗ (v0Loc d ↦{fullShare} W v0') ∗ (sLoc d ↦{fullShare} W v1') ∗ (iLoc d ↦{fullShare} W v2') ∗ (oLoc d ↦{fullShare} W v3') ∗ (rLoc d ↦{fullShare} W v4')) := by
  unfold held S9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- The seven arrays @main still holds whole after the call (the flat scores and indices went out as read shares). -/
abbrev S7 : Finset (DevRef τ sig) := {a0', a1', a2', a3', v0', v3', v4'}

omit [FloatOps F] in
theorem held_S7 (d : Dev nD) (W : Valuation τ sig (Elt F)) :
    (held (T d) S7 W : sProp 𝕄) = iprop((a0Loc d ↦{fullShare} W a0') ∗ (a1Loc d ↦{fullShare} W a1') ∗ (a2Loc d ↦{fullShare} W a2') ∗ (a3Loc d ↦{fullShare} W a3')
      ∗ (v0Loc d ↦{fullShare} W v0') ∗ (oLoc d ↦{fullShare} W v3') ∗ (rLoc d ↦{fullShare} W v4')) := by
  unfold held S7
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2) ∗ (a3Loc d ↦{fullShare} W main_arg3)
      ∗ (v0Loc d ↦{fullShare} W main_v0) ∗ (sLoc d ↦{fullShare} W main_v1) ∗ (iLoc d ↦{fullShare} W main_v2) ∗ (oLoc d ↦{fullShare} W main_v3) ∗ (rLoc d ↦{fullShare} W main_v4)) := by
  unfold unscopedBufs
  rw [show (Finset.univ.filter fun b : Ref sig .tc => ¬ b.isScoped) = {main_arg0, main_arg1, main_arg2, main_arg3, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-! ## The three re-layings, and the arrays' contents along @main -/

abbrev op1 : HloOp τ sig (Elt F) := StableHlo.reshape main_v0 main_v1 rfl shapeCasts_S49x1x2048_S100352
abbrev op2 : HloOp τ sig (Elt F) := StableHlo.reshape main_arg0 main_v2 rfl shapeCasts_S4096x200_S819200
abbrev op3 : HloOp τ sig (Elt F) := StableHlo.reshape main_v3 main_v4 rfl shapeCasts_S819200_S4096x200x1

/-- The flat scores from the region's [49, 1, 2048] result, and the flat indices from the index array. -/
def flatS (d : Dev nD) (f0 : Buf (Elt F) (v0Loc d)) : Buf (Elt F) (sLoc d) := fun i => shapeCast S100352 f0 shapeCasts_S49x1x2048_S100352 i
def flatI (d : Dev nD) : Buf (Elt F) (iLoc d) := fun i => shapeCast S819200 (m (a0Loc d)) shapeCasts_S4096x200_S819200 i

def V0 (d : Dev nD) : Valuation τ sig (Elt F) := fun b => m (d, b)
def V1 (d : Dev nD) (f0 : Buf (Elt F) (v0Loc d)) : Valuation τ sig (Elt F) := Function.update (V0 m d) v0' f0
def V3 (d : Dev nD) (f0 : Buf (Elt F) (v0Loc d)) : Valuation τ sig (Elt F) := (op2 (F := F)).result ((op1 (F := F)).result (V1 m d f0))
def V4 (d : Dev nD) (f0 : Buf (Elt F) (v0Loc d)) (g : Buf (Elt F) (oLoc d)) : Valuation τ sig (Elt F) := Function.update (V3 m d f0) v3' g
def V5 (d : Dev nD) (f0 : Buf (Elt F) (v0Loc d)) (g : Buf (Elt F) (oLoc d)) : Valuation τ sig (Elt F) := (op3 (F := F)).result (V4 m d f0 g)

theorem hop1 : (op1 (F := F)).bufs ⊆ S9 := show ({v0', v1'} : Finset (DevRef τ sig)) ⊆ S9 by decide
theorem hop2 : (op2 (F := F)).bufs ⊆ S9 := show ({a0', v2'} : Finset (DevRef τ sig)) ⊆ S9 by decide
theorem hop3 : (op3 (F := F)).bufs ⊆ S7 := show ({v3', v4'} : Finset (DevRef τ sig)) ⊆ S7 by decide

section Contents
variable (d : Dev nD) (f0 : Buf (Elt F) (v0Loc d)) (g : Buf (Elt F) (oLoc d))

theorem V1_ne {r : Ref sig .tc} (h : r ≠ main_v0) : V1 m d f0 (Proc.devRef .tc r) = m (d, Proc.devRef .tc r) :=
  Function.update_of_ne (fun e => h (Proc.devRef_injective _ e)) _ _
theorem V3_ne {r : Ref sig .tc} (h0 : r ≠ main_v0) (h1 : r ≠ main_v1) (h2 : r ≠ main_v2) : V3 m d f0 (Proc.devRef .tc r) = m (d, Proc.devRef .tc r) := by
  unfold V3
  rw [StableHlo.reshape_result_ne (h := h2), StableHlo.reshape_result_ne (h := h1), V1_ne m d f0 h0]
theorem V3_v1 : V3 m d f0 v1' = flatS d f0 := by
  unfold V3
  rw [StableHlo.reshape_result_ne (h := show main_v1 ≠ main_v2 by decide), StableHlo.reshape_result]
  unfold V1 flatS
  rw [Function.update_self]
  rfl
theorem V3_v2 : V3 m d f0 v2' = flatI m d := by
  unfold V3
  rw [StableHlo.reshape_result, StableHlo.reshape_result_ne (h := show main_arg0 ≠ main_v1 by decide), V1_ne m d f0 (show main_arg0 ≠ main_v0 by decide)]
  rfl
theorem V4_ne {r : Ref sig .tc} (h : r ≠ main_v3) : V4 m d f0 g (Proc.devRef .tc r) = V3 m d f0 (Proc.devRef .tc r) :=
  Function.update_of_ne (fun e => h (Proc.devRef_injective _ e)) _ _
theorem V4_v3 : V4 m d f0 g v3' = g := Function.update_self _ _ _
theorem V5_arg {r : Ref sig .tc} (h0 : r ≠ main_v0) (h1 : r ≠ main_v1) (h2 : r ≠ main_v2) (h3 : r ≠ main_v3) (h4 : r ≠ main_v4) :
    V5 m d f0 g (Proc.devRef .tc r) = m (d, Proc.devRef .tc r) := by
  unfold V5
  rw [StableHlo.reshape_result_ne (h := h4), V4_ne m d f0 g h3, V3_ne m d f0 h0 h1 h2]
theorem V5_v4 : V5 m d f0 g v4' = relay d g := by
  unfold V5
  rw [StableHlo.reshape_result]
  unfold V4 relay
  rw [Function.update_self]
  rfl

end Contents

/-! ## @main -/

section Main

variable (RegionPost : (d : Dev nD) → Buf (Elt F) (v0Loc d) → Prop)

/-- The region's step, as @main meets it: everything the TensorCore holds goes in; it comes back with the region's result
    array at contents of which `RegionPost` holds, the other arrays untouched. -/
def HRegion (regionGhost : Dev nD → sProp 𝕄) (Pp : (K (F := F)).Pay (nD := nD) (Val := Elt F) (Name := ℕ) (U := UU)) : Prop :=
  ∀ (κ : GSem nD τ sig → ℕ) (d : Dev nD) (Φ : PUnit → sProp 𝕄),
    iprop((K (F := F)).ctx EH Pp κ ∗ (K (F := F)).tcSt EH d 0 ∗ boundary (SparseCore.T d) ∗ unscopedBufs d (fun b => m ((SparseCore.T d).loc b)) ∗ regionGhost d
        ∗ (∀ f0 : Buf (Elt F) (v0Loc d), ⌜RegionPost d f0⌝ -∗ ((K (F := F)).tcSt EH d 0 ∗ boundary (SparseCore.T d)
            ∗ unscopedBufs d (Function.update (fun b => m ((SparseCore.T d).loc b)) main_v0 f0)) -∗ Φ ⟨⟩))
      ⊢ wp frame (wpE ((K (F := F)).defs (D (F := F))) 𝒱 (SparseCore.T d) none) Set.univ
          (Prog.lift (.customCall (SparseCore.inner (Pipeline.entry 0)) ())) Φ

theorem st0_eq (d : Dev nD) : (bigSep Finset.univ fun c : Fin ((K (F := F)).nCore 0) => (P m (flatI m) Val).st 0 d c)
    = bigSep Finset.univ fun c : Fin 2 => bigSep Finset.univ fun i : Fin 16 => goRes m (flatI m) Val d c i := by
  show (bigSep (Finset.univ : Finset (Fin 2)) fun c => bigSep Finset.univ fun i : Fin 16 => goRes m (flatI m) Val d (Fin.cast nCore_zero c) i) = _
  exact bigSep_congr fun c _ => bigSep_congr fun i _ => congrArg (fun c' => goRes m (flatI m) Val d c' i) (Fin.ext rfl)
theorem dn0_eq (d : Dev nD) : (bigSep Finset.univ fun c : Fin ((K (F := F)).nCore 0) => (P m (flatI m) Val).dn 0 d c)
    = bigSep Finset.univ fun c : Fin 2 => bigSep Finset.univ fun i : Fin 16 => tdRes (F := F) Val d c i := by
  show (bigSep (Finset.univ : Finset (Fin 2)) fun c => bigSep Finset.univ fun i : Fin 16 => tdRes (F := F) Val d (Fin.cast nCore_zero c) i) = _
  exact bigSep_congr fun c _ => bigSep_congr fun i _ => congrArg (fun c' => tdRes (F := F) Val d c' i) (Fin.ext rfl)

theorem hmain [∀ e, Nonempty (Elt F e)] (regionGhost : Dev nD → sProp 𝕄) (hreg : HRegion m RegionPost regionGhost (P m (flatI m) Val))
    (hSok : ∀ d f0, RegionPost d f0 → Sok (flatI m) Val d (flatS d f0)) (κ : GSem nD τ sig → ℕ) (d : Dev nD) :
    iprop((K (F := F)).ctx EH (P m (flatI m) Val) κ ∗ (K (F := F)).tcSt EH d 0 ∗ (K (F := F)).tcRes m ρ d ∗ regionGhost d)
      ⊢ wp frame (wpE ((K (F := F)).defs (D (F := F))) 𝒱 (SparseCore.T d) none) Set.univ (main d)
          fun _ => iprop((K (F := F)).tcSt EH d 1 ∗ FIN m Val d) := by
  unfold SparseCore.Cfg.tcRes
  simp only [main, wp_bind, wp_pure]
  iintro ⟨#Hctx, Hst, ⟨Hb, Hbufs, -, -⟩, HG⟩
  iapply (hreg κ d _)
  isplitr; · iexact Hctx
  isplitl [Hst]; · iexact Hst
  isplitl [Hb]; · iexact Hb
  isplitl [Hbufs]; · iexact Hbufs
  isplitl [HG]; · iexact HG
  iintro %f0 %hf0 ⟨Hst, Hb, Hbufs⟩
  -- the arrays as one valuation
  ihave Hheld := (show (unscopedBufs d (Function.update (fun b => m ((SparseCore.T d).loc b)) main_v0 f0) : sProp 𝕄) ⊢ held (SparseCore.T d) S9 (V1 m d f0) from by
    rw [unscopedBufs_eq, held_S9]
    rw [Function.update_self, Function.update_of_ne (show main_arg0 ≠ main_v0 by decide), Function.update_of_ne (show main_arg1 ≠ main_v0 by decide),
      Function.update_of_ne (show main_arg2 ≠ main_v0 by decide), Function.update_of_ne (show main_arg3 ≠ main_v0 by decide),
      Function.update_of_ne (show main_v1 ≠ main_v0 by decide), Function.update_of_ne (show main_v2 ≠ main_v0 by decide),
      Function.update_of_ne (show main_v3 ≠ main_v0 by decide), Function.update_of_ne (show main_v4 ≠ main_v0 by decide)]
    rw [V1_ne m d f0 (show main_arg0 ≠ main_v0 by decide), V1_ne m d f0 (show main_arg1 ≠ main_v0 by decide), V1_ne m d f0 (show main_arg2 ≠ main_v0 by decide),
      V1_ne m d f0 (show main_arg3 ≠ main_v0 by decide), V1_ne m d f0 (show main_v1 ≠ main_v0 by decide), V1_ne m d f0 (show main_v2 ≠ main_v0 by decide),
      V1_ne m d f0 (show main_v3 ≠ main_v0 by decide), V1_ne m d f0 (show main_v4 ≠ main_v0 by decide)]
    try (unfold V1; rw [Function.update_self])
    try exact .rfl) $$ Hbufs
  -- the scores re-laid flat
  iapply (wp_hlo_within 𝒱 (SparseCore.T d) none Set.univ (op := op1) (S := S9) hop1 (V := V1 m d f0)) $$ [Hb Hheld]
  · isplitl [Hb] <;> iassumption
  iintro ⟨Hb, Hheld⟩
  rw [wp_ret]; imodintro
  -- the indices re-laid flat
  iapply (wp_hlo_within 𝒱 (SparseCore.T d) none Set.univ (op := op2) (S := S9) hop2 (V := (op1 (F := F)).result (V1 m d f0))) $$ [Hb Hheld]
  · isplitl [Hb] <;> iassumption
  iintro ⟨Hb, Hheld⟩
  rw [wp_ret]; imodintro
  ihave Hheld := (show (held (SparseCore.T d) S9 ((op2 (F := F)).result ((op1 (F := F)).result (V1 m d f0))) : sProp 𝕄) ⊢ held (SparseCore.T d) S9 (V3 m d f0) from .rfl) $$ Hheld
  ihave Hh := (Entails.of_eq (held_S9 (F := F) d (V3 m d f0))) $$ Hheld
  icases Hh with ⟨H0, H1, H2, H3, Hv0, Hs, Hi, Ho, Hr⟩
  -- the call
  iapply ((K (F := F)).wp_run (D (F := F)) 𝒱 (EH := EH) (P := P m (flatI m) Val) κ d 0) $$ [Hst Hs Hi Ho Hb H0 H1 H2 H3 Hv0 Hr]
  isplitr; · iexact Hctx
  isplitl [Hst]; · iexact Hst
  isplitl [Hs Hi Ho]
  · rw [st0_eq]
    iapply (go_intro m (flatI m) Val d (flatS d f0) (hSok d f0 hf0))
    rw [V3_v1, V3_v2, V3_ne m d f0 (show main_v3 ≠ main_v0 by decide) (show main_v3 ≠ main_v1 by decide) (show main_v3 ≠ main_v2 by decide)]
    isplitl [Hs]; · iexact Hs
    isplitl [Hi]; · iexact Hi
    iexact Ho
  iintro ⟨Hst, Hdn⟩
  ihave Hdn' := (Entails.of_eq (dn0_eq m Val d)) $$ Hdn
  ihave Hj := (td_join Val d) $$ Hdn'
  icases Hj with ⟨%g, %hg, Ho⟩
  -- the result re-laid
  iapply (wp_hlo_within 𝒱 (SparseCore.T d) none Set.univ (op := op3) (S := S7) hop3 (V := V4 m d f0 g)) $$ [Hb H0 H1 H2 H3 Hv0 Ho Hr]
  · isplitl [Hb]; · iexact Hb
    rw [held_S7, V4_ne m d f0 g (show main_arg0 ≠ main_v3 by decide), V4_ne m d f0 g (show main_arg1 ≠ main_v3 by decide),
      V4_ne m d f0 g (show main_arg2 ≠ main_v3 by decide), V4_ne m d f0 g (show main_arg3 ≠ main_v3 by decide),
      V4_ne m d f0 g (show main_v0 ≠ main_v3 by decide), V4_ne m d f0 g (show main_v4 ≠ main_v3 by decide), V4_v3]
    isplitl [H0]; · iexact H0
    isplitl [H1]; · iexact H1
    isplitl [H2]; · iexact H2
    isplitl [H3]; · iexact H3
    isplitl [Hv0]; · iexact Hv0
    isplitl [Ho]; · iexact Ho
    iexact Hr
  iintro ⟨Hb, Hheld⟩
  ihave Hheld := (show (held (SparseCore.T d) S7 ((op3 (F := F)).result (V4 m d f0 g)) : sProp 𝕄) ⊢ held (SparseCore.T d) S7 (V5 m d f0 g) from .rfl) $$ Hheld
  ihave Hh := (Entails.of_eq (held_S7 (F := F) d (V5 m d f0 g))) $$ Hheld
  icases Hh with ⟨H0, H1, H2, H3, -, -, Hr⟩
  rw [wp_ret]; imodintro; imodintro
  isplitl [Hst]; · iexact Hst
  unfold FIN
  isplitl [H0]
  · rw [V5_arg m d f0 g (r := main_arg0) (by decide) (by decide) (by decide) (by decide) (by decide)]; iexact H0
  isplitl [H1]
  · rw [V5_arg m d f0 g (r := main_arg1) (by decide) (by decide) (by decide) (by decide) (by decide)]; iexact H1
  isplitl [H2]
  · rw [V5_arg m d f0 g (r := main_arg2) (by decide) (by decide) (by decide) (by decide) (by decide)]; iexact H2
  isplitl [H3]
  · rw [V5_arg m d f0 g (r := main_arg3) (by decide) (by decide) (by decide) (by decide) (by decide)]; iexact H3
  iexists (relay d g)
  isplitr; · ipureintro; exact ⟨g, hg, rfl⟩
  rw [V5_v4]; iexact Hr

/-! ## The program's run -/

theorem run_main [∀ e, Nonempty (Elt F e)] (regionGhost : Dev nD → sProp 𝕄) (uP₀ : UP)
    (hfund : (BI.own (EP (F := F) uP₀) : sProp 𝕄) ⊢ iprop(|==> bigSep Finset.univ regionGhost))
    (hreg : HRegion m RegionPost regionGhost (P m (flatI m) Val))
    (hSok : ∀ d f0, RegionPost d f0 → Sok (flatI m) Val d (flatS d f0))
    (htile : (K (F := F)).TileObl (D (F := F)) 𝒱 (P m (flatI m) Val) v₀ 0) :
    θ_run (Cert.Kernel.defs (F := F)) (Cert.Kernel.threads (F := F)) ⟨m, fun _ => 0, ρ⟩ (QC m Val) :=
  SparseCore.Cfg.θ_run_sc (K := K (F := F)) (D := D (F := F)) (𝒱 := 𝒱) (EH := EH) (P := P m (flatI m) Val) facts v₀
    (fun q hq => match q with | 0 => nomatch hq)
    (fun q _ => match q with | 0 => htile)
    (fun q _ => match q with | 0 => SparseCore.Cfg.VecSplit.of_plain (vecSplit m (flatI m) Val))
    m ρ main regionGhost (FIN m Val) (u₀ (F := F) uP₀) (sep_elim_left.trans (hu₀ m (flatI m) Val uP₀ regionGhost hfund))
    (hmain m ρ Val RegionPost regionGhost hreg hSok) (fq m Val) (hfin m Val) (QC m Val) (fun _ h => h)

end Main

end Cert.Proof.KB

end
-- ==== Proof.KB.Flat.lean ====
/-
  The flat index at a position is the index array's entry at the position's row and column (the flat array is the index
  array read row by row, 200 to a row); so a bound on every entry of the index array bounds every flat index.
-/
import proofs.«211127_g52536039965321_cont_9to1c4b_697_4_alg».proof.Proof.KB.LaunchC
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ)
variable [FloatOps F]

open Idealize.ShloMosaic.ValueIdx

omit [FloatOps F] in
/-- A rank-1 index's coordinate is below the extent, written as the number itself. -/
theorem idx1_lt {n : Nat} (j : (⟨1, ![n]⟩ : Shape).Idx) : (j 0).val < n := (j 0).isLt

theorem flatI_apply (d : Dev nD) (k : S819200.Idx) :
    flatI m d k = (m (a0Loc d) : S4096x200.Idx → BitVec 32) (ix2 ⟨(k 0).val / 200, by have h := idx1_lt k; omega⟩ ⟨(k 0).val % 200, Nat.mod_lt _ (by decide)⟩) := by
  unfold flatI
  refine shapeCast_apply _ _ _ _ ?_
  show (S4096x200.rowMajor _).val = (S819200.rowMajor k).val
  rw [Shape.rowMajor_val_two, Shape.rowMajor_val_one]
  show (k 0).val / 200 * 200 + (k 0).val % 200 = (k 0).val
  omega

theorem flatI_le (B : ℕ) (d : Dev nD) (h0 : ∀ j : S4096x200.Idx, ((m (a0Loc d) : S4096x200.Idx → BitVec 32) j).toNat ≤ B) (k : S819200.Idx) :
    (flatI m d k).toNat ≤ B := by
  rw [flatI_apply]
  exact h0 _

end Cert.Proof.KB

end
-- ==== Proof.KB.Tile.lean ====
/-
  One subcore's task of the gather-of-scores kernel, generic in the float instance.

  The subcore at place (SparseCore `c`, subcore `s`) is handed a read share of the flat scores (contents `Sc`, of which
  `Sok` is known) and of the flat indices, and its two chunks of the flat result: chunks number `4 s + 2 c + r`, `r = 0, 1`,
  flat positions `12800 (4 s + 2 c + r)` onwards. It copies all the scores into its first scratch; then for each chunk it
  copies the chunk's 12800 indices into its second scratch, runs 800 trips each of which reads 16 indices at `16 t`, looks
  each up in the first scratch and stores the 16 scores at `16 t` of its third scratch, and copies the third scratch out to
  the chunk of the flat result.

  The mathematics carried along: after the first copy the first scratch reads as `Sc`; after a chunk's index copy position
  `p` of the second scratch is the index at flat position `12800 n + p`; before trip `t` the positions below `16 t` of the
  third scratch hold `Sc` at the position their index names (every index is below 100352, so the look-up's side condition
  holds and the clamp in `sAt` does nothing); after the copy out, flat position `k` of the chunk holds `Sc` at the position
  index `k` names, which is what `Val d k` asks by `Sok`.
-/
import proofs.«211127_g52536039965321_cont_9to1c4b_697_4_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Pure

variable {sig' : RefSig} {κ' : Kind} {sp' : Space} {s' : Shape} {e' : EltTy} {Val' : EltTy → Type}

/-- Read through the whole rectangle of a view, the view's own read. -/
theorem read_slice_whole' (v : View sig' κ' sp' s' e') (f : v.ty.Contents Val') (y : s'.Idx) :
    (v.slice (Rect.whole s')).read Val' f y = v.read Val' f y := by
  have h : (v.slice (Rect.whole s')).read Val' f y = v.read Val' f ((Rect.whole s').emb y) := rfl
  rw [h, Rect.emb_whole_apply]

/-- The position of the flat scores a looked-up word below 100352 names is the position `sAt` gives it. -/
theorem idxAt_sAt (v : IVec S16 32) (h : ∀ a x, ((![v] : Fin 1 → IVec S16 32) a x).toNat < S100352.size a) (x : S16.Idx) :
    idxAt (s := S100352) (![v] : Fin 1 → IVec S16 32) h x = sAt (v x).toNat := by
  funext a
  obtain rfl : a = 0 := Subsingleton.elim _ _
  apply Fin.ext
  have hx : (v x).toNat < 100352 := h 0 x
  show (v x).toNat = min (v x).toNat 100351
  omega

end Pure

/-! ## A subcore's place, its scratch and its two chunks -/

/-- The scratch of a subcore: its copy of the scores, the chunk of indices in hand, the chunk of looked-up scores. -/
abbrev sS : Memref sig .scVector .vmem S100352 .f32 := Memref.whole cc1_scratch0
abbrev sI : Memref sig .scVector .vmem S12800 .i32 := Memref.whole cc1_scratch1
abbrev sO : Memref sig .scVector .vmem S12800 .f32 := Memref.whole cc1_scratch2

def coordsV (c : Fin (grid1.bound 0)) (s : Fin (grid1.bound 1)) : grid1.Coords :=
  fun | 0 => c | 1 => s | ⟨_ + 2, h⟩ => absurd h (Nat.not_lt.2 (Nat.le_add_left _ _))

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev jL (L : grid1.Coords) : Fin 16 := Fin.cast bound_one (L 1)

/-- Chunk `r` of the subcore at `L`, as the kernel slices it out of a flat array of 819200. -/
abbrev ckR (L : grid1.Coords) (r : Fin 2) : Rect S819200 :=
  Rect.unit (s := S819200) (k1_off1 L (BitVec.ofNat 32 (12800 * r.val))) S12800.size (k1_off1_inb L r)

/-- It is chunk number `4 s + 2 c + r` of the 64. -/
theorem ckR_eq (L : grid1.Coords) (r : Fin 2) : ckR L r = chunk (chunkNo (cL L) (jL L) r) := by
  unfold ckR chunk Rect.part Rect.block
  congr 1 <;> funext a
  · rw [k1_off1_eq]
    obtain rfl : a = 0 := Subsingleton.elim _ _
    simp [Shape.partIx, Shape.partSize, chunkNo]
    omega
  · obtain rfl : a = 0 := Subsingleton.elim _ _
    simp [Shape.partSize]

section Tile

variable (d : Dev nD) (L : grid1.Coords)

/-- The subcore's thread. -/
abbrev thrV : Thread nD τ := V d (cV L) (jV L)

/-- The cell of one of the subcore's own DMA semaphores. -/
abbrev cellOf (sm : DmaSems sig S_) : GSem nD τ sig := (V d (cV L) (jV L), .dma sm.sem)

theorem cellOf_ne {a b : DmaSems sig S_} (h : (a.sem : DmaSem sig) ≠ b.sem) : cellOf d L a ≠ cellOf d L b :=
  fun e => h (SemLoc.dma.inj (Prod.mk.inj e).2)

theorem cellOf_mem (sm : DmaSems sig S_) (h : (SemLoc.dma sm.sem : SemLoc sig).isScoped .scVector = true) :
    cellOf d L sm ∈ ownCells (V d (cV L) (jV L)) := (mem_ownCells (g := cellOf d L sm)).mpr ⟨rfl, h⟩

/-- The five semaphores of the kernel's five copies are among the subcore's own: they are them, at zero, and the rest. -/
theorem ownSems0_V :
    (ownSems0 (V d (cV L) (jV L)) : sProp 𝕄)
      = iprop(semVal (cellOf d L cc1_scoped0) 0 ∗ semVal (cellOf d L cc1_scoped1) 0 ∗ semVal (cellOf d L cc1_scoped2) 0
          ∗ semVal (cellOf d L cc1_scoped3) 0 ∗ semVal (cellOf d L cc1_scoped4) 0
          ∗ bigSep ((((((ownCells (V d (cV L) (jV L))).erase (cellOf d L cc1_scoped0)).erase (cellOf d L cc1_scoped1)).erase (cellOf d L cc1_scoped2)).erase
              (cellOf d L cc1_scoped3)).erase (cellOf d L cc1_scoped4)) fun g => semVal g 0) := by
  unfold SparseCore.Cfg.ownSems0
  rw [SparseCore.bigSep_erase' (cellOf_mem d L cc1_scoped0 (by decide)),
    SparseCore.bigSep_erase' (Finset.mem_erase.mpr ⟨cellOf_ne d L (by decide), cellOf_mem d L cc1_scoped1 (by decide)⟩),
    SparseCore.bigSep_erase' (Finset.mem_erase.mpr ⟨cellOf_ne d L (by decide), Finset.mem_erase.mpr ⟨cellOf_ne d L (by decide), cellOf_mem d L cc1_scoped2 (by decide)⟩⟩),
    SparseCore.bigSep_erase' (Finset.mem_erase.mpr ⟨cellOf_ne d L (by decide), Finset.mem_erase.mpr ⟨cellOf_ne d L (by decide),
      Finset.mem_erase.mpr ⟨cellOf_ne d L (by decide), cellOf_mem d L cc1_scoped3 (by decide)⟩⟩⟩),
    SparseCore.bigSep_erase' (Finset.mem_erase.mpr ⟨cellOf_ne d L (by decide), Finset.mem_erase.mpr ⟨cellOf_ne d L (by decide),
      Finset.mem_erase.mpr ⟨cellOf_ne d L (by decide), Finset.mem_erase.mpr ⟨cellOf_ne d L (by decide), cellOf_mem d L cc1_scoped4 (by decide)⟩⟩⟩⟩)]

theorem scratch_ne {a b : Ref sig .scVector} (h : a ≠ b) : (Proc.scVector (cV L) (jV L)).devRef a ≠ (Proc.scVector (cV L) (jV L)).devRef b :=
  fun e => absurd (Proc.devRef_injective _ e) h

/-- The three scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨scratch_ne L (by decide),
      SparseCore.Cfg.mem_ownRefs_of_owner (p := Proc.scVector (cV L) (jV L)) (b := (Proc.scVector (cV L) (jV L)).devRef cc1_scratch1) rfl⟩),
    SparseCore.bigSep_erase' (Finset.mem_erase.mpr ⟨scratch_ne L (by decide), Finset.mem_erase.mpr ⟨scratch_ne L (by decide),
      SparseCore.Cfg.mem_ownRefs_of_owner (p := Proc.scVector (cV L) (jV L)) (b := (Proc.scVector (cV L) (jV L)).devRef cc1_scratch2) rfl⟩⟩)]

/-- The kernel's two slices of a flat array of 819200, as the program spells them. -/
abbrev ck0 : Rect S819200 := Rect.unit (s := S819200) (k1_off1 L 0#32) S12800.size (k1_off1_inb L 0)
abbrev ck1 : Rect S819200 := Rect.unit (s := S819200) (k1_off1 L 12800#32) S12800.size (k1_off1_inb L 1)
theorem ck0_eq : ck0 L = chunk (chunkNo (cL L) (jL L) 0) := ckR_eq L 0
theorem ck1_eq : ck1 L = chunk (chunkNo (cL L) (jL L) 1) := ckR_eq L 1

abbrev oCk0 : Memref sig .scVector .hbm S12800 .f32 := (oV : Memref sig .scVector .hbm S819200 .f32).slice (ck0 L) (fun _ => rfl)
abbrev oCk1 : Memref sig .scVector .hbm S12800 .f32 := (oV : Memref sig .scVector .hbm S819200 .f32).slice (ck1 L) (fun _ => rfl)

theorem set_slice_congr {r r' : Rect S819200} (h : r = r') :
    (((oV : Memref sig .scVector .hbm S819200 .f32).view.slice r).set : Finset S819200.Idx) = ((oV : Memref sig .scVector .hbm S819200 .f32).view.slice r').set := by
  subst h; rfl
theorem set_oCk0 : (oCk0 L).view.set = chunkSet (chunkNo (cL L) (jL L) 0) := set_slice_congr (ck0_eq L)
theorem set_oCk1 : (oCk1 L).view.set = chunkSet (chunkNo (cL L) (jL L) 1) := set_slice_congr (ck1_eq L)

theorem pts_oCk0 (f : Buf (Elt F) (oLoc d)) :
    ((oCk0 L).view.loc (V d (cV L) (jV L)) ↦[(oCk0 L).view.set]{fullShare} f : sProp 𝕄) = oLoc d ↦[chunkSet (chunkNo (cL L) (jL L) 0)]{fullShare} f := by
  rw [set_oCk0]
theorem pts_oCk1 (f : Buf (Elt F) (oLoc d)) :
    ((oCk1 L).view.loc (V d (cV L) (jV L)) ↦[(oCk1 L).view.set]{fullShare} f : sProp 𝕄) = oLoc d ↦[chunkSet (chunkNo (cL L) (jL L) 1)]{fullShare} f := by
  rw [set_oCk1]

/-- The flat scores and indices, as the subcore addresses them, are the TensorCore's arrays. -/
theorem pts_sV (q : PosShare TreeShare) (f : Buf (Elt F) (sLoc d)) :
    ((sV : Memref sig .scVector .hbm S100352 .f32).view.loc (V d (cV L) (jV L)) ↦[(sV : Memref sig .scVector .hbm S100352 .f32).view.set]{q} f : sProp 𝕄) = sLoc d ↦{q} f := by
  simp only [Memref.view_whole, View.set_whole]
theorem pts_iV (q : PosShare TreeShare) (f : Buf (Elt F) (iLoc d)) :
    ((iV : Memref sig .scVector .hbm S819200 .i32).view.loc (V d (cV L) (jV L)) ↦[(iV : Memref sig .scVector .hbm S819200 .i32).view.set]{q} f : sProp 𝕄) = iLoc d ↦{q} f := by
  simp only [Memref.view_whole, View.set_whole]
theorem pts_sS (f : Buf (Elt F) ((V d (cV L) (jV L)).loc cc1_scratch0)) :
    ((sS : Memref sig .scVector .vmem S100352 .f32).view.loc (V d (cV L) (jV L)) ↦[(sS : Memref sig .scVector .vmem S100352 .f32).view.set]{fullShare} f : sProp 𝕄)
      = (V d (cV L) (jV L)).loc cc1_scratch0 ↦{fullShare} f := by
  simp only [Memref.view_whole, View.set_whole]
theorem pts_sI (f : Buf (Elt F) ((V d (cV L) (jV L)).loc cc1_scratch1)) :
    ((sI : Memref sig .scVector .vmem S12800 .i32).view.loc (V d (cV L) (jV L)) ↦[(sI : Memref sig .scVector .vmem S12800 .i32).view.set]{fullShare} f : sProp 𝕄)
      = (V d (cV L) (jV L)).loc cc1_scratch1 ↦{fullShare} f := by
  simp only [Memref.view_whole, View.set_whole]
theorem pts_sO (f : Buf (Elt F) ((V d (cV L) (jV L)).loc cc1_scratch2)) :
    ((sO : Memref sig .scVector .vmem S12800 .f32).view.loc (V d (cV L) (jV L)) ↦[(sO : Memref sig .scVector .vmem S12800 .f32).view.set]{fullShare} f : sProp 𝕄)
      = (V d (cV L) (jV L)).loc cc1_scratch2 ↦{fullShare} f := by
  simp only [Memref.view_whole, View.set_whole]

theorem pts_sS_univ (f : Buf (Elt F) ((V d (cV L) (jV L)).loc cc1_scratch0)) :
    ((sS : Memref sig .scVector .vmem S100352 .f32).view.loc (V d (cV L) (jV L)) ↦{fullShare} f : sProp 𝕄) = (V d (cV L) (jV L)).loc cc1_scratch0 ↦{fullShare} f := rfl
theorem pts_sS_access (f : Buf (Elt F) ((V d (cV L) (jV L)).loc cc1_scratch0)) :
    (((sS : Memref sig .scVector .vmem S100352 .f32).access (.whole S100352)).loc (V d (cV L) (jV L)) ↦{fullShare} f : sProp 𝕄) = (V d (cV L) (jV L)).loc cc1_scratch0 ↦{fullShare} f := rfl

variable [FloatOps F]
variable (m : (ℓ : Loc nD τ sig) → Buf (Elt F) ℓ) (I : (d : Dev nD) → Buf (Elt F) (iLoc d)) (Val : (d : Dev nD) → S819200.Idx → Elt F .f32 → Prop)

/-- What is known of the three scratch buffers before trip `t` of the look-up loop over chunk `r`: the first reads as the
    scores `Sc`, the second as the chunk of indices (position `p` of it is flat position `12800 n + p` of the indices), and
    the positions below `16 t` of the third read as the score each index names. -/
def Looked (Sc : Buf (Elt F) (sLoc d)) (r : Fin 2) (t : Nat) (fS : Buf (Elt F) ((V d (cV L) (jV L)).loc cc1_scratch0))
    (fI : Buf (Elt F) ((V d (cV L) (jV L)).loc cc1_scratch1)) (g : Buf (Elt F) ((V d (cV L) (jV L)).loc cc1_scratch2)) : Prop :=
  (∀ j : S100352.Idx, (sS : Memref sig .scVector .vmem S100352 .f32).view.read (Elt F) fS j = Sc j)
    ∧ (∀ p : S12800.Idx, (sI : Memref sig .scVector .vmem S12800 .i32).view.read (Elt F) fI p = I d ((ckR L r).emb p))
    ∧ ∀ p : S12800.Idx, (p 0).val < 16 * t →
        (sO : Memref sig .scVector .vmem S12800 .f32).view.read (Elt F) g p = Sc (sAt (I d ((ckR L r).emb p)).toNat)

/-- The look-up loop's invariant: the three scratch buffers held whole, at contents as `Looked` says. -/
def inv (Sc : Buf (Elt F) (sLoc d)) (r : Fin 2) (t : Nat) (_ : BitVec 32) : sProp 𝕄 :=
  iprop(∃ fS : Buf (Elt F) ((V d (cV L) (jV L)).loc cc1_scratch0), ∃ fI : Buf (Elt F) ((V d (cV L) (jV L)).loc cc1_scratch1),
      ∃ g : Buf (Elt F) ((V d (cV L) (jV L)).loc cc1_scratch2),
    ((sS : Memref sig .scVector .vmem S100352 .f32).view.loc (V d (cV L) (jV L)) ↦{fullShare} fS)
    ∗ ((sI : Memref sig .scVector .vmem S12800 .i32).view.loc (V d (cV L) (jV L)) ↦[(sI : Memref sig .scVector .vmem S12800 .i32).view.set]{fullShare} fI)
    ∗ ((sO : Memref sig .scVector .vmem S12800 .f32).view.loc (V d (cV L) (jV L)) ↦[(sO : Memref sig .scVector .vmem S12800 .f32).view.set]{fullShare} g)
    ∗ ⌜Looked d L I Sc r t fS fI g⌝)

/-- The check on the indices a trip loads passes: they are words of the flat indices, each below 100352. -/
theorem chk_of (hI : ∀ d k, (I d k).toNat < 100352) (r : Fin 2) {fI : Buf (Elt F) ((V d (cV L) (jV L)).loc cc1_scratch1)}
    (hfI : ∀ p : S12800.Idx, (sI : Memref sig .scVector .vmem S12800 .i32).view.read (Elt F) fI p = I d ((ckR L r).emb p))
    (off : Fin 1 → Nat) (inb : ∀ a, off a + S16.size a ≤ S12800.size a) :
    ∀ a x, ((![(sI : Memref sig .scVector .vmem S12800 .i32).view.readAt (Elt F) (Rect.unit (s := S12800) off S16.size inb).toLoadRect fI] : Fin 1 → IVec S16 32) a x).toNat
      < S100352.size a := by
  intro a x
  obtain rfl : a = 0 := Subsingleton.elim _ _
  show ((sI : Memref sig .scVector .vmem S12800 .i32).view.readAt (Elt F) (Rect.unit (s := S12800) off S16.size inb).toLoadRect fI x).toNat < 100352
  rw [View.readAt_apply, hfI]
  exact hI d _

/-- One trip of the look-up: once the sixteen scores looked up for positions `16 t` to `16 t + 15` are stored there, the
    positions below `16 (t + 1)` are done. -/
theorem looked_step (Sc : Buf (Elt F) (sLoc d)) (r : Fin 2) (t : Nat) {fS : Buf (Elt F) ((V d (cV L) (jV L)).loc cc1_scratch0)}
    {fI : Buf (Elt F) ((V d (cV L) (jV L)).loc cc1_scratch1)} {g : Buf (Elt F) ((V d (cV L) (jV L)).loc cc1_scratch2)}
    (h : Looked d L I Sc r t fS fI g) (offA offB : Fin 1 → Nat) (hA : offA = ![16 * t]) (hB : offB = ![16 * t])
    (inbA : ∀ a, offA a + S16.size a ≤ S12800.size a) (inbB : ∀ a, offB a + S16.size a ≤ S12800.size a)
    (hidx : ∀ a x, ((![(sI : Memref sig .scVector .vmem S12800 .i32).view.readAt (Elt F) (Rect.unit (s := S12800) offA S16.size inbA).toLoadRect fI] : Fin 1 → IVec S16 32) a x).toNat
      < S100352.size a) :
    Looked d L I Sc r (t + 1) fS fI
      ((sO : Memref sig .scVector .vmem S12800 .f32).view.writes (Elt F) g [⟨Rect.unit (s := S12800) offB S16.size inbB,
        loadIdx (((sS : Memref sig .scVector .vmem S100352 .f32).access (.whole S100352)).read (Elt F) fS)
          ![(sI : Memref sig .scVector .vmem S12800 .i32).view.readAt (Elt F) (Rect.unit (s := S12800) offA S16.size inbA).toLoadRect fI] hidx⟩]) := by
  obtain ⟨hfS, hfI, hg⟩ := h
  refine ⟨hfS, hfI, fun p hp => ?_⟩
  subst hA hB
  by_cases hm : p ∈ (Rect.unit (s := S12800) ![16 * t] S16.size inbB).set
  · obtain ⟨x, rfl⟩ := (Rect.unit (s := S12800) ![16 * t] S16.size inbB).toLoadRect.exists_idx_of_mem hm
    rw [show (Rect.unit (s := S12800) ![16 * t] S16.size inbB).toLoadRect.idx x = (Rect.unit (s := S12800) ![16 * t] S16.size inbB).emb x from rfl,
      View.read_writes_cons_emb]
    show ((sS : Memref sig .scVector .vmem S100352 .f32).view.slice (Rect.whole S100352)).read (Elt F) fS (idxAt _ hidx x) = _
    rw [read_slice_whole', hfS, idxAt_sAt, View.readAt_apply, hfI]
    rfl
  · have hp' : (p 0).val < 16 * t := by
      by_contra hlt
      apply hm
      rw [Rect.mem_set_unit]
      intro a
      obtain rfl : a = 0 := Subsingleton.elim _ _
      simp
      omega
    rw [View.read_writes_apply_of_forall_not_mem _ _ p _ (by simpa using hm)]
    exact hg p hp'

/-- Chunk `r` of the flat result, as the kernel slices it (at either chunk's literal offset the program's own slice). -/
abbrev oCkR (r : Fin 2) : Memref sig .scVector .hbm S12800 .f32 := (oV : Memref sig .scVector .hbm S819200 .f32).slice (ckR L r) (fun _ => rfl)

omit [FloatOps F] in
theorem chunkSet_eq (n : Fin 64) : chunkSet n = (chunk n).set := by
  show ((View.whole (main_v3_scv : Ref sig .scVector)).slice (chunk n)).set = _
  rw [View.set_slice]; exact Finset.map_refl

/-- What a chunk of the flat result holds once the finished value scratch is copied out to it: at flat position `k` the score
    index `k` names, which is as `Val` asks by what is known of the scores. -/
theorem chunk_val {Sc : Buf (Elt F) (sLoc d)} (hSc : Sok I Val d Sc) (r : Fin 2) {fS : Buf (Elt F) ((V d (cV L) (jV L)).loc cc1_scratch0)}
    {fI : Buf (Elt F) ((V d (cV L) (jV L)).loc cc1_scratch1)} {g : Buf (Elt F) ((V d (cV L) (jV L)).loc cc1_scratch2)}
    (hL : Looked d L I Sc r 800 fS fI g) (Y : Buf (Elt F) (oLoc d))
    (hY : ∀ p : S12800.Idx, (oCkR L r).view.read (Elt F) Y p = (sO : Memref sig .scVector .vmem S12800 .f32).view.read (Elt F) g p) :
    ∀ k ∈ chunkSet (chunkNo (cL L) (jL L) r), Val d k (Y k) := by
  intro k hk
  rw [chunkSet_eq, ← ckR_eq L r] at hk
  obtain ⟨p, rfl⟩ := (ckR L r).toLoadRect.exists_idx_of_mem hk
  have hp : (p 0).val < 16 * 800 := (p 0).isLt
  have h1 : Y ((ckR L r).toLoadRect.idx p) = (sO : Memref sig .scVector .vmem S12800 .f32).view.read (Elt F) g p := hY p
  rw [h1, hL.2.2 p hp]
  exact hSc _

/-- The task of the subcore at `L` of device `d`: the scores copied in; then per chunk the indices copied in, the look-up loop,
    and the looked-up scores copied out to the chunk of the flat result. -/
theorem tile_body (hF : (K (F := F)).Facts) (hI : ∀ d k, (I d k).toNat < 100352) (O : CellTallies nD τ sig (HIx 1)) (W : Waits sig (HIx 1)) (hO : ∀ g, O g none = 0) :
    iprop(levAts (K (F := F)).L (K (F := F)).lev ∗ emp ∗ goRes m I Val d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__gather_scores L sV (Memref.isWhole_whole _) iV (Memref.isWhole_whole _) oV (Memref.isWhole_whole _)
            sS (Memref.isWhole_whole _) sI (Memref.isWhole_whole _) sO (Memref.isWhole_whole _) cc1_scoped0 cc1_scoped1 cc1_scoped2 cc1_scoped3 cc1_scoped4)
          fun _ => iprop(tdRes Val d (cL L) (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  have htr1 : Scf.trips k1_t1_loop.lb k1_t1_loop.ub k1_t1_loop.st = 800 := by decide
  have htr2 : Scf.trips k1_t2_loop.lb k1_t2_loop.ub k1_t2_loop.st = 800 := by decide
  simp only [cc1__gather_scores_eq_skeleton]; unfold cc1__gather_scores_skel
  rw [(K (F := F)).scopedBufs_V hF d (cV L) (jV L), SparseCore.Cfg.scopedSems0_V (Val := Elt F) d (cV L) (jV L), ownSems0_V, ownBufs_V]
  unfold goRes
  iintro ⟨#Hlv, -, ⟨%Sc, %hSc, Hs, Hi, Ho0, Ho1⟩, ⟨⟨%f0, Hb0⟩, ⟨%f1, Hb1⟩, ⟨%f2, Hb2⟩, Hbufs⟩, ⟨Hsem0, Hsem1, Hsem2, Hsem3, Hsem4, Hsems⟩, HO⟩
  ihave Hmw := ((K (F := F)).mayWaits_none (thr := V d (cV L) (jV L)) hO) $$ Hlv
  ihave Hs' := (Entails.of_eq (pts_sV (F := F) d L _ _).symm) $$ Hs
  ihave Hi' := (Entails.of_eq (pts_iV (F := F) d L _ _).symm) $$ Hi
  ihave Ho0' := (Entails.of_eq (pts_oCk0 (F := F) d L _).symm) $$ Ho0
  ihave Ho1' := (Entails.of_eq (pts_oCk1 (F := F) d L _).symm) $$ Ho1
  ihave Hb0' := (Entails.of_eq (pts_sS (F := F) d L _).symm) $$ Hb0
  ihave Hb1' := (Entails.of_eq (pts_sI (F := F) d L _).symm) $$ Hb1
  ihave Hb2' := (Entails.of_eq (pts_sO (F := F) d L _).symm) $$ Hb2
  -- the scores copied in, then chunk 0's indices
  sl_exec
  ihave Hb0u := (Entails.of_eq ((pts_sS (F := F) d L _).trans (pts_sS_univ (F := F) d L _).symm)) $$ Hb0'
  -- chunk 0's look-up loop
  sl_for (inv d L I Sc 0) $$ [Hb0u Hb1' Hb2']
  case region =>
    intro t ht
    unfold inv
    iintro ⟨%fS', %fI', %g', Hb0, Hb1, Hb2, %hf⟩
    have hchk : k1_chk1 ((sI : Memref sig .scVector .vmem S12800 .i32).view.readAt (Elt F) (Rect.unit (s := S12800) (k1_off2 t) S16.size (k1_off2_inb t)).toLoadRect fI') :=
      chk_of d L I hI 0 hf.2.1 _ _
    sl_exec
    ihave Hb0a := (Entails.of_eq ((pts_sS_univ (F := F) d L _).trans (pts_sS_access (F := F) d L _).symm)) $$ Hb0
    iapply (SparseCore.wp_vectorLoadIdx 𝒱₀ (V d (cV L) (jV L)) none Set.univ (base := (sS : Memref sig .scVector .vmem S100352 .f32)) (S := Finset.univ) (q := fullShare) (Finset.subset_univ _)) $$ Hb0a; iintro Hb0a
    ihave Hb0 := (Entails.of_eq ((pts_sS_access (F := F) d L _).trans (pts_sS_univ (F := F) d L _).symm)) $$ Hb0a
    sl_exec
    sl_step
    iexists _; iexists _; iexists _
    isplitl [Hb0]; · iexact Hb0
    isplitl [Hb1]; · iexact Hb1
    isplitl [Hb2]; · iexact Hb2
    ipureintro
    exact looked_step d L I Sc 0 t.val hf (k1_off2 t) (k1_off3 t) (k1_off2_eq t) (k1_off3_eq t) _ _ _
  · unfold inv
    iexists _; iexists _; iexists _
    isplitl [Hb0u]; · iexact Hb0u
    isplitl [Hb1']; · iexact Hb1'
    isplitl [Hb2']; · iexact Hb2'
    ipureintro
    exact ⟨fun j => (congrFun (View.read_writes_whole _ _ _) j).trans rfl, fun p => (congrFun (View.read_writes_whole _ _ _) p).trans rfl, fun p hp => absurd hp (by omega)⟩
  iintro %acc HI
  unfold inv
  icases HI with ⟨%fS, %fI, %g, Hb0, Hb1, Hb2, %hL1⟩
  rw [htr1] at hL1
  -- chunk 0 copied out, then chunk 1's indices copied in
  sl_exec
  -- chunk 1's look-up loop
  sl_for (inv d L I Sc 1) $$ [Hb0 Hb1 Hb2]
  case region =>
    intro t ht
    unfold inv
    iintro ⟨%fS', %fI', %g', Hb0, Hb1, Hb2, %hf⟩
    have hchk : k1_chk2 ((sI : Memref sig .scVector .vmem S12800 .i32).view.readAt (Elt F) (Rect.unit (s := S12800) (k1_off4 t) S16.size (k1_off4_inb t)).toLoadRect fI') :=
      chk_of d L I hI 1 hf.2.1 _ _
    sl_exec
    ihave Hb0a := (Entails.of_eq ((pts_sS_univ (F := F) d L _).trans (pts_sS_access (F := F) d L _).symm)) $$ Hb0
    iapply (SparseCore.wp_vectorLoadIdx 𝒱₀ (V d (cV L) (jV L)) none Set.univ (base := (sS : Memref sig .scVector .vmem S100352 .f32)) (S := Finset.univ) (q := fullShare) (Finset.subset_univ _)) $$ Hb0a; iintro Hb0a
    ihave Hb0 := (Entails.of_eq ((pts_sS_access (F := F) d L _).trans (pts_sS_univ (F := F) d L _).symm)) $$ Hb0a
    sl_exec
    sl_step
    iexists _; iexists _; iexists _
    isplitl [Hb0]; · iexact Hb0
    isplitl [Hb1]; · iexact Hb1
    isplitl [Hb2]; · iexact Hb2
    ipureintro
    exact looked_step d L I Sc 1 t.val hf (k1_off4 t) (k1_off5 t) (k1_off4_eq t) (k1_off5_eq t) _ _ _
  · unfold inv
    iexists _; iexists _; iexists _
    isplitl [Hb0]; · iexact Hb0
    isplitl [Hb1]; · iexact Hb1
    isplitl [Hb2]; · iexact Hb2
    ipureintro
    exact ⟨hL1.1, fun p => (congrFun (View.read_writes_whole _ _ _) p).trans rfl, fun p hp => absurd hp (by omega)⟩
  iintro %acc2 HI2
  unfold inv
  icases HI2 with ⟨%fS2, %fI2, %g2, Hb0, Hb1, Hb2, %hL2⟩
  rw [htr2] at hL2
  -- chunk 1 copied out
  sl_exec
  sl_step
  iclear Hs' Hi'
  unfold tdRes tdChunk
  isplitl [Ho0' Ho1']
  · isplitl [Ho0']
    · iexists _
      isplitl [Ho0']
      · iapply (Entails.of_eq (pts_oCk0 (F := F) d L _)); iexact Ho0'
      ipureintro
      exact chunk_val d L I Val hSc 0 hL1 _ (fun p => (congrFun (View.read_writes_whole _ _ _) p).trans rfl)
    · iexists _
      isplitl [Ho1']
      · iapply (Entails.of_eq (pts_oCk1 (F := F) d L _)); iexact Ho1'
      ipureintro
      exact chunk_val d L I Val hSc 1 hL2 _ (fun p => (congrFun (View.read_writes_whole _ _ _) p).trans rfl)
  isplitl [Hb0 Hb1 Hb2 Hbufs]
  · isplitl [Hb0]
    · iexists _; iapply (Entails.of_eq (pts_sS_univ (F := F) d L _)); iexact Hb0
    isplitl [Hb1]
    · iexists _; iapply (Entails.of_eq (pts_sI (F := F) d L _)); iexact Hb1
    isplitl [Hb2]
    · iexists _; iapply (Entails.of_eq (pts_sO (F := F) d L _)); iexact Hb2
    iexact Hbufs
  isplitl [Hsem0 Hsem1 Hsem2 Hsem3 Hsem4 Hsems]
  · isplitl [Hsem0]; · iexact Hsem0
    isplitl [Hsem1]; · iexact Hsem1
    isplitl [Hsem2]; · iexact Hsem2
    isplitl [Hsem3]; · iexact Hsem3
    isplitl [Hsem4]; · iexact Hsem4
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

/-! ## The launch theorem's obligation -/

section Obl

variable [FloatOps F]
variable (m : (ℓ : Loc nD τ sig) → Buf (Elt F) ℓ) (I : (d : Dev nD) → Buf (Elt F) (iLoc d)) (Val : (d : Dev nD) → S819200.Idx → Elt F .f32 → Prop)

theorem defs₀_vector (c : Fin τ.nSC) (s : Fin τ.nSub) :
    defs₀ (F := F) (.scVector c s) 1 ()
      = SparseCore.onTile hcore1 hsub1 (fun c s => cc1__gather_scores (coordsV c s)
          sV (Memref.isWhole_whole _) iV (Memref.isWhole_whole _) oV (Memref.isWhole_whole _)
          sS (Memref.isWhole_whole _) sI (Memref.isWhole_whole _) sO (Memref.isWhole_whole _) cc1_scoped0 cc1_scoped1 cc1_scoped2 cc1_scoped3 cc1_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body obligation of the gather kernel: a subcore's task, from the shares and chunks it is handed to its two chunks
    at values as `Val` asks, given every index names a score. -/
theorem tileObl (hI : ∀ d k, (I d k).toNat < 100352) : (K (F := F)).TileObl (D (F := F)) 𝒱 (P m I Val) v₀ 0 := by
  intro d c i O W hO _ _
  simp only [show (P m I Val).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) m I Val facts hI O W hO).trans (wp_mono frame _ _ fun _ => obl_post)

end Obl

end Cert.Proof.KB
end
-- ==== Proof.KB.RegionData.lean ====
/-
  The pipelined region's proof data.

  The region runs the score kernel at 49 grid points. Its three inputs are left in their staging buffers as they
  were found; its result's staging buffer is left holding the kernel's payload of what the three inputs' buffers
  held. The last block of the table runs past the table's end, and what its staging buffer holds on those rows is
  not determined by the launch memory, so the data CONSTRAINS the result's buffer (a relation) instead of naming it:
  it is the payload of SOME contents the three input buffers may hold at that point.
-/
import proofs.«211127_g52536039965321_cont_9to1c4b_697_4_alg».proof.Proof.KB.Common
import Idealize.ShloMosaic.Lib.Pipeline.Regions

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F]

local notation "𝕄" => MT nD τ sig (HIx 1) (Elt F) ℕ UU ℕ

variable (m : (ℓ : Loc nD τ sig) → Buf (Elt F) ℓ)

/-- The one admissible contents of the prefetched tables: there is none. -/
abbrev aP : (p : Fin 1) → (pcfgs (F := F) p).Adm := fun p => (cfgs p).toPCfg_adm

/-- The data with every window left as found: the arrays at their launch contents, no invariant, full shares, the
    TensorCore owing throughout what it owes before its first SparseCore call, its recorded pairs at level 0. -/
def rd₀ (d : Dev nD) : RDat τ (Elt F) (HIx 1) ℕ UU ℕ cfg0 d where
  A w := m ((cfg0.win w).arr.view.loc (d.tc : Thread nD τ))
  after _ _ Y X := X = Y
  Φ _ := iprop(emp)
  q _ := fullShare
  owed _ := (K (F := F)).Otc d 0
  recorded _ := {p | (K (F := F)).lev ((d.tc : Thread nD τ), p.1) p.2 ≤ 0}

/-- The one word of the bias's staging buffer. -/
abbrev i1 : S1.Idx := Shape.Idx.first (numel1_S1.symm ▸ Nat.one_pos)

/-- What the result's staging buffer may hold after the body at point `t`: the payload of some contents the
    three inputs' buffers may hold when the body runs there. -/
def outRel (d : Dev nD) (t : Fin cfg0.N) (X : S1x1x2048.Idx → Elt F .f32) : Prop :=
  ∃ (Y0 : S1x128.Idx → Elt F .f32) (Y1 : S2048x128.Idx → Elt F .f32) (Y2 : S1.Idx → Elt F .f32),
    (rd₀ m d).Finds 0 t Y0 ∧ (rd₀ m d).Finds 1 t Y1 ∧ (rd₀ m d).Finds 2 t Y2 ∧ X = k0_pay1 Y0 Y1 (Y2 i1)

/-- The result's window is constrained by `outRel`; the inputs' stay "left as found". -/
def ovr (d : Dev nD) : (w : Fin cfg0.W) → Option (Fin cfg0.N → (Y X : (cfg0.win w).block.Idx → Elt F (cfg0.win w).elt) → Prop) :=
  fun | 0 => none | 1 => none | 2 => none | 3 => some fun t _ X => outRel m d t X
      | ⟨_ + 4, h⟩ => absurd h (Nat.not_lt.2 (Nat.le_add_left _ _))

/-- The region's proof data on the TensorCore of device `d`. -/
def rdat (d : Dev nD) : RDat τ (Elt F) (HIx 1) ℕ UU ℕ cfg0 d := (rd₀ m d).override (ovr m d)

/-- The same, as the family the library's rules take. -/
abbrev rdats : (p : Fin 1) → (c : Dev nD) → RDat τ (Elt F) (HIx 1) ℕ UU ℕ (Pipeline.pin (pcfgs (F := F)) aP p) c :=
  fun _ c => rdat m c

theorem finds_in (d : Dev nD) {w : Fin cfg0.W} (h : ovr m d w = none) (t : Fin cfg0.N) (X) :
    (rdat m d).Finds w t X ↔ (rd₀ m d).Finds w t X := (rd₀ m d).override_finds h t X

end Cert.Proof.KB

end
-- ==== Proof.KB.RegionBody.lean ====
/-
  The score kernel's body obligation.

  The body loads the weight row, the table block and the bias word whole, computes the payload (the row times the
  block's transpose, plus the bias, as one row of 2048 scores), reads the result's buffer (a dead load) and stores the
  payload over it whole. So the three inputs' buffers are left as found and the result's holds the payload of what
  they held — which is what the proof data's relations ask.
-/
import proofs.«211127_g52536039965321_cont_9to1c4b_697_4_alg».proof.Proof.KB.RegionData

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F]

local notation "𝕄" => MT nD τ sig (HIx 1) (Elt F) ℕ UU ℕ

variable (m : (ℓ : Loc nD τ sig) → Buf (Elt F) ℓ)

/-- The body on staging buffers `s0` … `s3` of its four windows, holding `X0` … `X3`: the inputs' buffers keep what
    they hold, the result's ends at the payload of the three. -/
theorem sound_body (c : Dev nD) (E : Set ℕ) (i : grid0.Coords) (s0 : Fin 1) (s1 : Fin 2) (s2 : Fin 1) (s3 : Fin 2)
    (X0 : S1x128.Idx → Elt F .f32) (X1 : S2048x128.Idx → Elt F .f32) (X2 : S1.Idx → Elt F .f32) (X3 : S1x1x2048.Idx → Elt F .f32)
    (Kk : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (k0_pay1 X0 X1 (X2 i1))) -∗ Kk ⟨⟩))
      ⊢ wp frame (wpE (defs₀ (F := F)) 𝒱₀ c none) E
          (cc0__matvec_body i (stage0_0 s0) (hstage0_0 s0) (stage0_1 s1) (hstage0_1 s1) (stage0_2 s2) (hstage0_2 s2)
            (stage0_3 s3) (hstage0_3 s3)) Kk := by
  have hz1 : (![0] : Fin 1 → Nat) = fun _ => 0 := funext fun a => by fin_cases a; rfl
  have hz2 : (![0, 0] : Fin 2 → Nat) = fun _ => 0 := funext fun a => by fin_cases a <;> rfl
  have hz3 : (![0, 0, 0] : Fin 3 → Nat) = fun _ => 0 := funext fun a => by fin_cases a <;> rfl
  -- every access is at offset zero and the buffer's own size, the whole buffer: a load reads the contents, the unmasked
  -- store writes the payload, at whichever of its window's buffers each memref is
  fin_cases s0 <;> fin_cases s1 <;> fin_cases s2 <;> fin_cases s3
  · -- the table's buffer `cc0_stg1_0`, the result's `cc0_stg3_0`
    have hr0 : (Memref.whole cc0_stg0_0 : Memref sig .tc _ _ _).view.readAt (Elt F) (Rect.unit (s := S1x128) ![0, 0] S1x128.size
        inb_S1x128_S1x128_0_0).toLoadRect = id := funext (Memref.readAt_unit_zero (Elt F) cc0_stg0_0 hz2 _)
    have hr1 : (Memref.whole cc0_stg1_0 : Memref sig .tc _ _ _).view.readAt (Elt F) (Rect.unit (s := S2048x128) ![0, 0] S2048x128.size
        inb_S2048x128_S2048x128_0_0).toLoadRect = id := funext (Memref.readAt_unit_zero (Elt F) cc0_stg1_0 hz2 _)
    have hr2 : (Memref.whole cc0_stg2_0 : Memref sig .tc _ _ _).view.readAt (Elt F) (Rect.unit (s := S1) ![0] S1.size
        inb_S1_S1_0).toLoadRect = id := funext (Memref.readAt_unit_zero (Elt F) cc0_stg2_0 hz1 _)
    have hw3 : ∀ f w, (((Memref.whole cc0_stg3_0).access (Rect.unit (s := S1x1x2048) ![0, 0, 0] S1x1x2048.size inb_S1x1x2048_S1x1x2048_0_0_0)) :
        View sig .tc _ _ _).write (Elt F) f w Finset.univ = w := Memref.write_access_unit_zero_univ (Elt F) cc0_stg3_0 hz3 _
    simp only [owns_whole_eq, cc0__matvec_body_eq_skeleton]; unfold cc0__matvec_body_skel
    simp only [smemLoad, smemLoadElt, Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f0 f1 (f2 i1); isplitr; · ipureintro; rw [hf0, hf1, hf2]
      iexact H3
  · -- the table's buffer `cc0_stg1_0`, the result's `cc0_stg3_1`
    have hr0 : (Memref.whole cc0_stg0_0 : Memref sig .tc _ _ _).view.readAt (Elt F) (Rect.unit (s := S1x128) ![0, 0] S1x128.size
        inb_S1x128_S1x128_0_0).toLoadRect = id := funext (Memref.readAt_unit_zero (Elt F) cc0_stg0_0 hz2 _)
    have hr1 : (Memref.whole cc0_stg1_0 : Memref sig .tc _ _ _).view.readAt (Elt F) (Rect.unit (s := S2048x128) ![0, 0] S2048x128.size
        inb_S2048x128_S2048x128_0_0).toLoadRect = id := funext (Memref.readAt_unit_zero (Elt F) cc0_stg1_0 hz2 _)
    have hr2 : (Memref.whole cc0_stg2_0 : Memref sig .tc _ _ _).view.readAt (Elt F) (Rect.unit (s := S1) ![0] S1.size
        inb_S1_S1_0).toLoadRect = id := funext (Memref.readAt_unit_zero (Elt F) cc0_stg2_0 hz1 _)
    have hw3 : ∀ f w, (((Memref.whole cc0_stg3_1).access (Rect.unit (s := S1x1x2048) ![0, 0, 0] S1x1x2048.size inb_S1x1x2048_S1x1x2048_0_0_0)) :
        View sig .tc _ _ _).write (Elt F) f w Finset.univ = w := Memref.write_access_unit_zero_univ (Elt F) cc0_stg3_1 hz3 _
    simp only [owns_whole_eq, cc0__matvec_body_eq_skeleton]; unfold cc0__matvec_body_skel
    simp only [smemLoad, smemLoadElt, Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f0 f1 (f2 i1); isplitr; · ipureintro; rw [hf0, hf1, hf2]
      iexact H3
  · -- the table's buffer `cc0_stg1_1`, the result's `cc0_stg3_0`
    have hr0 : (Memref.whole cc0_stg0_0 : Memref sig .tc _ _ _).view.readAt (Elt F) (Rect.unit (s := S1x128) ![0, 0] S1x128.size
        inb_S1x128_S1x128_0_0).toLoadRect = id := funext (Memref.readAt_unit_zero (Elt F) cc0_stg0_0 hz2 _)
    have hr1 : (Memref.whole cc0_stg1_1 : Memref sig .tc _ _ _).view.readAt (Elt F) (Rect.unit (s := S2048x128) ![0, 0] S2048x128.size
        inb_S2048x128_S2048x128_0_0).toLoadRect = id := funext (Memref.readAt_unit_zero (Elt F) cc0_stg1_1 hz2 _)
    have hr2 : (Memref.whole cc0_stg2_0 : Memref sig .tc _ _ _).view.readAt (Elt F) (Rect.unit (s := S1) ![0] S1.size
        inb_S1_S1_0).toLoadRect = id := funext (Memref.readAt_unit_zero (Elt F) cc0_stg2_0 hz1 _)
    have hw3 : ∀ f w, (((Memref.whole cc0_stg3_0).access (Rect.unit (s := S1x1x2048) ![0, 0, 0] S1x1x2048.size inb_S1x1x2048_S1x1x2048_0_0_0)) :
        View sig .tc _ _ _).write (Elt F) f w Finset.univ = w := Memref.write_access_unit_zero_univ (Elt F) cc0_stg3_0 hz3 _
    simp only [owns_whole_eq, cc0__matvec_body_eq_skeleton]; unfold cc0__matvec_body_skel
    simp only [smemLoad, smemLoadElt, Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f0 f1 (f2 i1); isplitr; · ipureintro; rw [hf0, hf1, hf2]
      iexact H3
  · -- the table's buffer `cc0_stg1_1`, the result's `cc0_stg3_1`
    have hr0 : (Memref.whole cc0_stg0_0 : Memref sig .tc _ _ _).view.readAt (Elt F) (Rect.unit (s := S1x128) ![0, 0] S1x128.size
        inb_S1x128_S1x128_0_0).toLoadRect = id := funext (Memref.readAt_unit_zero (Elt F) cc0_stg0_0 hz2 _)
    have hr1 : (Memref.whole cc0_stg1_1 : Memref sig .tc _ _ _).view.readAt (Elt F) (Rect.unit (s := S2048x128) ![0, 0] S2048x128.size
        inb_S2048x128_S2048x128_0_0).toLoadRect = id := funext (Memref.readAt_unit_zero (Elt F) cc0_stg1_1 hz2 _)
    have hr2 : (Memref.whole cc0_stg2_0 : Memref sig .tc _ _ _).view.readAt (Elt F) (Rect.unit (s := S1) ![0] S1.size
        inb_S1_S1_0).toLoadRect = id := funext (Memref.readAt_unit_zero (Elt F) cc0_stg2_0 hz1 _)
    have hw3 : ∀ f w, (((Memref.whole cc0_stg3_1).access (Rect.unit (s := S1x1x2048) ![0, 0, 0] S1x1x2048.size inb_S1x1x2048_S1x1x2048_0_0_0)) :
        View sig .tc _ _ _).write (Elt F) f w Finset.univ = w := Memref.write_access_unit_zero_univ (Elt F) cc0_stg3_1 hz3 _
    simp only [owns_whole_eq, cc0__matvec_body_eq_skeleton]; unfold cc0__matvec_body_skel
    simp only [smemLoad, smemLoadElt, Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f0 f1 (f2 i1); isplitr; · ipureintro; rw [hf0, hf1, hf2]
      iexact H3

/-- The library's body obligation, from `sound_body` at the point's staging buffers: each input's buffer is handed back
    holding what it held ("left as found"), the result's holding the payload of what the three inputs' held — contents
    each of them may hold at this point, as the result's relation asks. -/
theorem body_obligation (d : Dev nD) : (rdat m d).BodyObligation (defs₀ (F := F)) 𝒱₀ none Set.univ := fun t Y hY => by
  rw [bigSep_W0, bigSep_W0]
  rw [show (rdat m d).Φ t.succ = (rdat m d).Φ t.castSucc from rfl,
    show (rdat m d).owesAt none t.succ = (rdat m d).owesAt none t.castSucc from rfl]
  iintro ⟨HΦ, Ho, H0, H1, H2, H3⟩
  iapply (sound_body (F := F) d Set.univ (grid0.coords t) (cfg0.slots t 0) (cfg0.slots t 1) (cfg0.slots t 2) (cfg0.slots t 3)
    (Y 0) (Y 1) (Y 2) (Y 3) _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]
  · iexists Y 0; isplitr; · ipureintro; exact rfl
    iexact H0
  isplitl [H1]
  · iexists Y 1; isplitr; · ipureintro; exact rfl
    iexact H1
  isplitl [H2]
  · iexists Y 2; isplitr; · ipureintro; exact rfl
    iexact H2
  · iexists k0_pay1 (Y 0) (Y 1) (Y 2 i1); isplitr
    · ipureintro
      exact ⟨Y 0, Y 1, Y 2, (finds_in m d rfl t _).1 (hY 0), (finds_in m d rfl t _).1 (hY 1), (finds_in m d rfl t _).1 (hY 2), rfl⟩
    iexact H3

end Cert.Proof.KB

end
-- ==== Proof.KB.Region.lean ====
/-
  The pipelined region inside the launch: its ghost state, what it leaves, and its step.

  The TensorCore enters the region holding its region-boundary resources, its arrays, what it owes the SparseCores
  (the start signals of the call that follows) with its recorded pairs at level 0, and the pipeline's staging cells'
  ghost state; it leaves holding the same, the score array at SOME contents the write-backs may have produced
  (`RegionPost`). The region's own waits are at the index that sits at level 0, below everything owed.
-/
import proofs.«211127_g52536039965321_cont_9to1c4b_697_4_alg».proof.Proof.KB.RegionBody

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F]

local notation "𝕄" => MT nD τ sig (HIx 1) (Elt F) ℕ UU ℕ

variable (m : (ℓ : Loc nD τ sig) → Buf (Elt F) ℓ)

/-! ## The ghost state -/

/-- The pipeline's rounds land in the user component of the machine's algebra. -/
instance EP_landsIn : (EP (F := F)).LandsIn (upEmb : UEmb _ 𝕄) := by unfold EP embR; infer_instance

/-- The pipeline's component of the launch element: every staging cell's owner at round 0 and a duty token for every
    transfer the pipeline issues. -/
def uP₀ : UP := initOf (Pipeline.cells cfgs launch0.cellOf_inj) (Pipeline.launchToks cfgs launch0.cellOf_inj)

/-- What the launch deals the TensorCore of `d` for the region: its staging cells' ghost state and duty tokens. -/
def regionGhost (d : Dev nD) : sProp 𝕄 :=
  iprop(Pipeline.cellsGhost cfgs (EP (F := F)) (0 : Fin 1) d ∗ Pipeline.toksInit cfgs (EP (F := F)) (0 : Fin 1) d)

theorem regionGhost_fund :
    (BI.own ((EP (F := F)) uP₀) : sProp 𝕄) ⊢ iprop(|==> bigSep Finset.univ fun d : Dev nD => regionGhost (F := F) d) := by
  have h := Pipeline.fund_ghost (Val := Elt F) (Ix := HIx 1) (Name := ℕ) (U := UU) (Lvl := ℕ) cfgs (EP (F := F)) launch0.cellOf_inj
  refine h.trans (bupd_mono ?_)
  unfold regionGhost
  rw [bigSep_sep']
  -- one pipeline: the conjunction over pipelines is its one summand
  have h1 : ∀ (Φ : Fin 1 → sProp 𝕄), bigSep Finset.univ Φ = Φ 0 := fun Φ => by
    rw [show (Finset.univ : Finset (Fin 1)) = {0} from by decide, bigSep_singleton]
  simp only [h1]
  exact BI.Entails.refl _

/-! ## What the TensorCore owes across the region -/

/-- Nothing the TensorCore owes is at the index of a kernel's own waits. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- What the TensorCore of `d` owes before its first call, its recorded pairs at level 0. -/
def tcOwes (d : Dev nD) : sProp 𝕄 :=
  iprop(∃ W, ⌜(K (F := F)).WBelow (T d) W (8 * 0)⌝ ∗ owes (T d) ((K (F := F)).Otc d 0) W)

/-- The TensorCore's arrays at the launch contents. -/
abbrev V₀ (d : Dev nD) : (b : Ref sig .tc) → Buf (Elt F) ((d.tc : Thread nD τ).loc b) := fun b => m ((d.tc : Thread nD τ).loc b)

/-- What is known of the score array after the region: contents it may hold after the 49 write-backs, each the
    payload of some contents the three inputs' staging buffers may have held at that point. -/
def RegionPost (d : Dev nD) (f0 : Buf (Elt F) ((T d : Thread nD τ).loc main_v0)) : Prop := (rdat m d).ArrAt 3 49 f0

theorem hshare (d : Dev nD) : ∀ w, (rdats m 0 d).share w = fullShare := Pipeline.RDat.share_full _ fun _ => rfl

/-- The arrays no window stages do not see the score array's contents. -/
theorem unscopedRest_update (c : Dev nD) (f0 : Buf (Elt F) ((c.tc : Thread nD τ).loc main_v0)) :
    (Pipeline.unscopedRest spec0 c (Function.update (V₀ m c) main_v0 f0) : sProp 𝕄) = Pipeline.unscopedRest spec0 c (V₀ m c) := by
  rw [unscopedRest0_eq, unscopedRest0_eq]
  rw [Function.update_of_ne (show main_arg0 ≠ main_v0 by decide), Function.update_of_ne (show main_v1 ≠ main_v0 by decide),
    Function.update_of_ne (show main_v2 ≠ main_v0 by decide), Function.update_of_ne (show main_v3 ≠ main_v0 by decide),
    Function.update_of_ne (show main_v4 ≠ main_v0 by decide)]

/-- No semaphore of the kernel's own: nothing to hold at zero. -/
theorem ownSems0_empty (c : Dev nD) : (emp : sProp 𝕄) ⊢ Pipeline.ownSems0 (Empty.elim : Empty → SemLoc sig) c := by
  unfold Pipeline.ownSems0
  rw [Finset.univ_eq_empty, bigSep_empty]
  exact BI.Entails.refl _

/-- The core's owed state as the pipeline's loop holds it, and back: the loop's own waits are at level 0. -/
theorem tcOwes_owesAt (c : Dev nD) (t) : tcOwes (F := F) c ⊢ (rdats m 0 c).owesAt none t := by
  unfold tcOwes
  iintro ⟨%W, %hW, Ho⟩
  iexists W; isplitr
  · ipureintro; intro p hp; exact Or.inl (hW p (Finset.mem_coe.1 hp))
  iexact Ho

theorem owesAt_tcOwes (c : Dev nD) (t) : (rdats m 0 c).owesAt none t ⊢ tcOwes (F := F) c := by
  unfold tcOwes
  iintro ⟨%W, %hW, Ho⟩
  iexists W; isplitr
  · ipureintro; intro p hp
    rcases hW (Finset.mem_coe.2 hp) with h | ⟨w, s, rfl⟩
    · exact h
    · exact le_of_eq rfl
  iexact Ho

/-- The region as the library's record: no semaphore of the kernel's own, no invariant; the thread state is what the
    core owes and its arrays; the arrays no window stages bypass the region. -/
def regionSeg : Pipeline.RDat.RegionSeg (pcfgs (F := F)) aP (rdats m) (none : HIx 1) (defs₀ (F := F)) 𝒱₀
    ((K (F := F)).L (nD := nD)) ((K (F := F)).lev (nD := nD)) (0 : Fin 1) where
  win := launch0.win.to₀
  block_pos := launch0.block_pos
  stage_whole := launch0.stage_whole
  K := Empty
  osem := Empty.elim
  ho := ⟨fun k => k.elim, fun k => k.elim, fun k => k.elim⟩
  hbody := fun c => body_obligation m c
  hwaits := fun c => Pipeline.RDat.cellsWaits_intro (Pipeline.pin (pcfgs (F := F)) aP) (rdats m) none 0 c fun w s t =>
    SparseCore.Cfg.mayWait_none (K := K (F := F)) _ (fun g => Otc_none c 0 g)
  pre := fun c => iprop(tcOwes c ∗ unscopedBufs c (V₀ m c))
  post := fun c => iprop(∃ f0, ⌜RegionPost m c f0⌝ ∗ tcOwes c ∗ unscopedBufs c (Function.update (V₀ m c) main_v0 f0))
  X := fun _ => iprop(emp)
  Y := fun _ => iprop(emp)
  Z := fun c => Pipeline.unscopedRest spec0 c (V₀ m c)
  hentry := fun c => by
    iintro ⟨⟨Ho, Hb⟩, -, -⟩
    imodintro
    ihave H := (Entails.of_eq (Pipeline.unscopedBufs_split cfgs (0 : Fin 1) launch0.win.arr_unscoped launch0.win.arr_inj c (V₀ m c))) $$ Hb
    icases H with ⟨Harr, Hrest⟩
    isplitl [Harr]
    · iapply (Entails.of_eq (Pipeline.RDat.arrays_eq (pcfgs (F := F)) aP (rdats m) 0 c launch0.arr_whole (hshare m c) _).symm)
      iexact Harr
    isplitr
    · iapply (show (emp : sProp 𝕄) ⊢ Pipeline.prefHeld (pcfgs (F := F) 0).pre c (fun _ => fullShare) (aP 0).1 from Entails.of_eq rfl)
      iempintro
    isplitl [Ho]
    · iapply (tcOwes_owesAt m c 0); iexact Ho
    isplitr; · iempintro
    iexact Hrest
  hin := fun c => by iintro -; iempintro
  hout := fun c => by
    iintro -
    isplitr; · iempintro
    isplitr
    · iapply (ownSems0_empty c); iempintro
    · iapply (Entails.of_eq (scopedRest0_eq (Ix := HIx 1) (Val := Elt F) (Name := ℕ) (U := UU) (Lvl := ℕ) c).symm); iempintro
  hexit := fun c => by
    classical
    unfold RDat.arraysAt
    iintro ⟨Harrs, Ho, Hemp, Hrest⟩
    imodintro
    -- one family of contents for the four arrays, each as its window's write-backs may have left it
    ihave Ha' := (BI.bigSep_exists_pi Finset.univ (fun w G => iprop(⌜(rdats m 0 c).ArrAt w (Pipeline.pin (pcfgs (F := F)) aP 0).N G⌝
        ∗ ((Pipeline.pin (pcfgs (F := F)) aP 0).win w).arr.view.loc (c.tc : Thread nD τ)
            ↦[((Pipeline.pin (pcfgs (F := F)) aP 0).win w).arr.view.set]{(rdats m 0 c).share w} G))) $$ Harrs
    icases Ha' with ⟨%Fs, Harrs⟩
    ihave Ha2 := (BI.bigSep_pure_sep Finset.univ (fun w => (rdats m 0 c).ArrAt w (Pipeline.pin (pcfgs (F := F)) aP 0).N (Fs w))
        (fun w => ((Pipeline.pin (pcfgs (F := F)) aP 0).win w).arr.view.loc (c.tc : Thread nD τ)
            ↦[((Pipeline.pin (pcfgs (F := F)) aP 0).win w).arr.view.set]{(rdats m 0 c).share w} Fs w)) $$ Harrs
    icases Ha2 with ⟨%hFs, Harrs⟩
    -- the inputs' arrays are never written; the score array is the family's fourth member
    have hV : ∀ w, Fs w = Function.update (V₀ m c) main_v0 (Fs 3) (Pipeline.arrRef (cfgs 0).spec w) := by
      intro w
      fin_cases w
      · have h := hFs 0 (Finset.mem_univ _); rw [RDat.ArrAt_in _ _ rfl] at h
        show Fs 0 = Function.update (V₀ m c) main_v0 (Fs 3) main_arg2
        exact h.trans (Function.update_of_ne (show main_arg2 ≠ main_v0 by decide) (Fs 3) (V₀ m c)).symm
      · have h := hFs 1 (Finset.mem_univ _); rw [RDat.ArrAt_in _ _ rfl] at h
        show Fs 1 = Function.update (V₀ m c) main_v0 (Fs 3) main_arg1
        exact h.trans (Function.update_of_ne (show main_arg1 ≠ main_v0 by decide) (Fs 3) (V₀ m c)).symm
      · have h := hFs 2 (Finset.mem_univ _); rw [RDat.ArrAt_in _ _ rfl] at h
        show Fs 2 = Function.update (V₀ m c) main_v0 (Fs 3) main_arg3
        exact h.trans (Function.update_of_ne (show main_arg3 ≠ main_v0 by decide) (Fs 3) (V₀ m c)).symm
      · show Fs 3 = Function.update (V₀ m c) main_v0 (Fs 3) main_v0
        exact (Function.update_self main_v0 (Fs 3) (V₀ m c)).symm
    iexists (Fs 3)
    isplitr; · ipureintro; exact hFs 3 (Finset.mem_univ _)
    isplitl [Ho]; · iapply (owesAt_tcOwes m c _); iexact Ho
    iapply (Entails.of_eq (Pipeline.unscopedBufs_split cfgs (0 : Fin 1) launch0.win.arr_unscoped launch0.win.arr_inj c
      (Function.update (V₀ m c) main_v0 (Fs 3))).symm)
    isplitl [Harrs]
    · iapply (Entails.of_eq (bigSep_congr (fun w _ => by rw [(launch0.arr_whole w).set_eq_univ, hshare m c w, ← hV w]) :
        (bigSep Finset.univ fun w => (((Pipeline.pin (pcfgs (F := F)) aP 0).win w).arr.view.loc (c.tc : Thread nD τ)
            ↦[((Pipeline.pin (pcfgs (F := F)) aP 0).win w).arr.view.set]{(rdats m 0 c).share w} Fs w : sProp 𝕄))
          = bigSep Finset.univ fun w => (((c.tc : Thread nD τ).loc (Pipeline.arrRef (cfgs 0).spec w))
              ↦{fullShare} Function.update (V₀ m c) main_v0 (Fs 3) (Pipeline.arrRef (cfgs 0).spec w) : sProp 𝕄)))
      iexact Harrs
    · iapply (Entails.of_eq (unscopedRest_update m c (Fs 3)).symm); iexact Hrest

/-! ## The region's step -/

variable [∀ e, Nonempty (Elt F e)]

/-- The region, from what the TensorCore owes, its boundary resources, its arrays at the launch contents and the
    pipeline's ghost state: it runs, and what it holds comes back with the score array at contents of which
    `RegionPost` holds, the other arrays untouched. -/
theorem hregion_owes (P : (K (F := F)).Pay (nD := nD) (Val := Elt F) (Name := ℕ) (U := UU)) (κ : GSem nD τ sig → ℕ)
    (d : Dev nD) (Φ : PUnit → sProp 𝕄) :
    iprop((K (F := F)).ctx EH P κ ∗ tcOwes d ∗ boundary (T d : Thread nD τ) ∗ unscopedBufs d (V₀ m d) ∗ regionGhost d
        ∗ (∀ f0, ⌜RegionPost m d f0⌝ -∗ (tcOwes d ∗ boundary (T d : Thread nD τ)
              ∗ unscopedBufs d (Function.update (V₀ m d) main_v0 f0)) -∗ Φ ⟨⟩))
      ⊢ wp frame (wpE ((K (F := F)).defs (D (F := F))) 𝒱 (T d) none) Set.univ
          (Prog.lift (.customCall (SparseCore.inner (Pipeline.entry 0)) ())) Φ := by
  -- the call is the pipeline's entry, lifted to the launch's signature
  refine .trans ?_ ((K (F := F)).wp_liftProg (D (F := F)) 𝒱 (T d) Set.univ none
      (Prog.lift (.customCall (Pipeline.entry (0 : Fin 1)) ())) Φ)
  unfold regionGhost
  iintro ⟨#Hctx, Ho, Hbd, Hb, ⟨Hg, Ht⟩, Hk⟩
  ihave Hla := (SparseCore.Cfg.ctx_levAts (K := K (F := F)) (EH := EH) (P := P) κ) $$ Hctx
  have hwp := Pipeline.RDat.RegionSeg.wp (pcfgs (F := F)) aP (rdats m) (none : HIx 1) launch0.cellOf_inj (EP (F := F)) (defs₀ (F := F)) 𝒱₀
      _ _ (regionSeg m) d none (fun _ h => nomatch h) (fun x => .ret x) Φ
  dsimp only [regionSeg] at hwp
  iapply hwp
  isplitl [Hk]
  · iintro ⟨Hbd, Hpost⟩
    rw [wp_ret]
    icases Hpost with ⟨%f0, %hf0, Ho, Hb⟩
    imodintro
    iapply Hk $$ %f0 %hf0
    isplitl [Ho]; · iexact Ho
    isplitl [Hbd]; · iexact Hbd
    iexact Hb
  isplitl [Hbd]; · iexact Hbd
  isplitl [Ho Hb]
  · isplitl [Ho]; · iexact Ho
    iexact Hb
  isplitl []; · iexact Hla
  isplitl [Hg]; · iexact Hg
  iexact Ht

/-- The same with the TensorCore's whole handshake state before its first call: only what it owes enters the region; its
    position on its cells, the rounds reached and the later calls' tokens pass by. -/
theorem hregion (P : (K (F := F)).Pay (nD := nD) (Val := Elt F) (Name := ℕ) (U := UU)) (κ : GSem nD τ sig → ℕ)
    (d : Dev nD) (Φ : PUnit → sProp 𝕄) :
    iprop((K (F := F)).ctx EH P κ ∗ (K (F := F)).tcSt EH d 0 ∗ boundary (T d : Thread nD τ) ∗ unscopedBufs d (V₀ m d) ∗ regionGhost d
        ∗ (∀ f0, ⌜RegionPost m d f0⌝ -∗ ((K (F := F)).tcSt EH d 0 ∗ boundary (T d : Thread nD τ)
              ∗ unscopedBufs d (Function.update (V₀ m d) main_v0 f0)) -∗ Φ ⟨⟩))
      ⊢ wp frame (wpE ((K (F := F)).defs (D (F := F))) 𝒱 (T d) none) Set.univ
          (Prog.lift (.customCall (SparseCore.inner (Pipeline.entry 0)) ())) Φ := by
  have hin : ∀ (R : sProp 𝕄), iprop((∃ W, ⌜(K (F := F)).WBelow (T d) W (8 * 0)⌝ ∗ owes (T d) ((K (F := F)).Otc d 0) W) ∗ R)
      ⊢ iprop(tcOwes (F := F) d ∗ R) := fun R => by unfold tcOwes; exact BI.Entails.refl _
  have hout : ∀ (R : sProp 𝕄), iprop(tcOwes (F := F) d ∗ R)
      ⊢ iprop((∃ W, ⌜(K (F := F)).WBelow (T d) W (8 * 0)⌝ ∗ owes (T d) ((K (F := F)).Otc d 0) W) ∗ R) := fun R => by
    unfold tcOwes; exact BI.Entails.refl _
  unfold SparseCore.Cfg.tcSt
  iintro ⟨#Hctx, Hst, Hbd, Hb, Hg, Hk⟩
  ihave Hst' := (hin _) $$ Hst
  icases Hst' with ⟨Ho, Hst⟩
  iapply (hregion_owes m P κ d Φ)
  isplitl []; · iexact Hctx
  isplitl [Ho]; · iexact Ho
  isplitl [Hbd]; · iexact Hbd
  isplitl [Hb]; · iexact Hb
  isplitl [Hg]; · iexact Hg
  iintro %f0 %hf0 ⟨Ho, Hbd, Hb⟩
  iapply Hk $$ %f0 %hf0
  isplitl [Ho Hst]
  · iapply (hout _)
    isplitl [Ho]; · iexact Ho
    iexact Hst
  isplitl [Hbd]; · iexact Hbd
  iexact Hb

end Cert.Proof.KB

end
-- ==== Proof.KB.Run.lean ====
/-
  The gather-of-scores program's run, assembled: from a launch memory whose index array holds table rows (every entry at
  most 99999), every weakly fair execution of the device's threads ends with the four argument arrays as launched and the
  result array a re-laid flat array every value of which is as `Val` says — provided what the pipelined region leaves of
  the scores makes the flat scores satisfy `Val` at the position each flat index names. The pieces: the launch (how
  @main's arrays are dealt and collected), a subcore's task, and the pipelined region.
-/
import proofs.«211127_g52536039965321_cont_9to1c4b_697_4_alg».proof.Proof.KB.Flat
import proofs.«211127_g52536039965321_cont_9to1c4b_697_4_alg».proof.Proof.KB.Tile
import proofs.«211127_g52536039965321_cont_9to1c4b_697_4_alg».proof.Proof.KB.Region

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]
variable (Val : (d : Dev nD) → S819200.Idx → Elt F .f32 → Prop)

theorem run [∀ e, Nonempty (Elt F e)]
    (hSok : ∀ d f0, RegionPost m d f0 → Sok (flatI m) Val d (flatS d f0))
    (h0 : ∀ (d : Dev nD) (j : S4096x200.Idx), ((m (a0Loc d) : S4096x200.Idx → BitVec 32) j).toNat ≤ 99999) :
    θ_run (Cert.Kernel.defs (F := F)) (Cert.Kernel.threads (F := F)) ⟨m, fun _ => 0, ρ⟩ (QC m Val) :=
  run_main m ρ Val (RegionPost m) regionGhost uP₀ regionGhost_fund
    (fun κ d Φ => hregion m (P m (flatI m) Val) κ d Φ) hSok
    (tileObl m (flatI m) Val fun d k => Nat.lt_of_le_of_lt (flatI_le m 99999 d (h0 d) k) (by decide))

end Cert.Proof.KB

end
-- ==== Proof.KI.RegionRead.lean ====
/-
  What the region leaves in the score array, read index by index.

  Point `t` of the grid writes block `t` of the score array (one row of 2048 scores) and no later point writes it
  again, so after the 49 write-backs row `t` is the moved part of what the body left in the result's staging buffer at
  point `t`: the payload of the weight row (fetched once, then left as found), of the table block's staging buffer
  (just fetched: the table's rows where the block lies inside the table, anything on the rows past its end) and of
  the bias word (fetched once, then left as found).
-/
import proofs.«211127_g52536039965321_cont_9to1c4b_697_4_alg».proof.Proof.KI.Region

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F]

local notation "𝕄" => MT nD τ sig (HIx 1) (Elt F) ℕ UU ℕ

open Idealize.ShloMosaic.ValueIdx

variable (m : (ℓ : Loc nD τ sig) → Buf (Elt F) ℓ)

/-! ## The schedule and the index maps, decided over the grid -/

theorem flush_in0 : ∀ t : Fin cfg0.N, (cfg0.win 0).flush t = false :=
  (by decide +kernel : ∀ t : Fin grid0.N, win0_0.flush t = false)
theorem flush_in2 : ∀ t : Fin cfg0.N, (cfg0.win 2).flush t = false :=
  (by decide +kernel : ∀ t : Fin grid0.N, win0_2.flush t = false)
theorem idx_w0 : ∀ t : Fin cfg0.N, win0_0.index t (0 : Fin 2) = 0 ∧ win0_0.index t (1 : Fin 2) = 0 :=
  (by decide +kernel : ∀ t : Fin grid0.N, _)
theorem idx_w1 : ∀ t : Fin cfg0.N, win0_1.index t (0 : Fin 2) = t.val ∧ win0_1.index t (1 : Fin 2) = 0
    ∧ win0_1.xsize (grid0.coords t) (0 : Fin 2) = min 2048 (100000 - 2048 * t.val) ∧ win0_1.xsize (grid0.coords t) (1 : Fin 2) = 128 :=
  (by decide +kernel : ∀ t : Fin grid0.N, _)
theorem idx_w2 : ∀ t : Fin cfg0.N, win0_2.index t (0 : Fin 1) = 0 :=
  (by decide +kernel : ∀ t : Fin grid0.N, _)
theorem idx_w3 : ∀ t : Fin cfg0.N, win0_3.index t (0 : Fin 3) = t.val ∧ win0_3.index t (1 : Fin 3) = 0 ∧ win0_3.index t (2 : Fin 3) = 0 :=
  (by decide +kernel : ∀ t : Fin grid0.N, _)

variable (d : Dev nD)

/-! ## What the inputs' staging buffers hold when the body runs -/

/-- The weight row's buffer holds the weight row at every point: fetched whole at the first, left as found after. -/
theorem finds_w0 : ∀ (n : ℕ) (h : n < cfg0.N) (Y : S1x128.Idx → Elt F .f32), (rd₀ m d).Finds 0 ⟨n, h⟩ Y →
    ∀ k : Fin 128, Y (ix2 0 k) = m ((T d : Thread nD τ).loc main_arg2) (ix2 0 k)
  | 0, h, Y, hY => by
    obtain ⟨d', rfl⟩ := ((rd₀ m d).finds_of_fetch ((fetch0_0 ⟨0, h⟩).2 rfl) Y).1 hY
    intro k
    refine (win0_0.fill_xinj (grid0.coords ⟨0, h⟩) d' ((rd₀ m d).blockOf 0 ⟨0, h⟩) (ix2 0 k)).trans ?_
    show m ((T d : Thread nD τ).loc main_arg2) ((win0_0.blk ⟨0, h⟩).view.emb (ix2 0 k)) = _
    congr 1
    funext a; apply Fin.ext
    obtain ⟨e0, e1⟩ := idx_w0 ⟨0, h⟩
    match a with
    | ⟨0, _⟩ => show win0_0.index ⟨0, h⟩ (0 : Fin 2) * 1 + 1 * 0 = 0; omega
    | ⟨1, _⟩ => show win0_0.index ⟨0, h⟩ (1 : Fin 2) * 128 + 1 * k.val = k.val; omega
  | n + 1, h, Y, hY => by
    have h' : n + 1 < 49 := h
    have hf : (cfg0.win 0).fetch ⟨n + 1, h⟩ = false := by
      cases hb : (cfg0.win 0).fetch ⟨n + 1, h⟩ with
      | false => rfl
      | true => have hm : (n + 1) % 49 = 0 := (fetch0_0 ⟨n + 1, h⟩).1 hb; omega
    rcases ((rd₀ m d).finds_of_pos hf (Nat.succ_ne_zero n) Y).1 hY with hfl | ⟨Y', hY', hafter⟩
    · rw [flush_in0] at hfl; exact absurd hfl Bool.false_ne_true
    · have e : Y = Y' := hafter
      subst e
      exact finds_w0 n (Nat.lt_of_succ_lt h) Y hY'

/-- The bias's buffer holds the bias word at every point, likewise. -/
theorem finds_w2 : ∀ (n : ℕ) (h : n < cfg0.N) (Y : S1.Idx → Elt F .f32), (rd₀ m d).Finds 2 ⟨n, h⟩ Y →
    Y i1 = m ((T d : Thread nD τ).loc main_arg3) (ix1 0)
  | 0, h, Y, hY => by
    obtain ⟨d', rfl⟩ := ((rd₀ m d).finds_of_fetch ((fetch0_2 ⟨0, h⟩).2 rfl) Y).1 hY
    refine (win0_2.fill_xinj (grid0.coords ⟨0, h⟩) d' ((rd₀ m d).blockOf 2 ⟨0, h⟩) i1).trans ?_
    show m ((T d : Thread nD τ).loc main_arg3) ((win0_2.blk ⟨0, h⟩).view.emb i1) = _
    congr 1
    funext a; apply Fin.ext
    have e0 := idx_w2 ⟨0, h⟩
    match a with
    | ⟨0, _⟩ => show win0_2.index ⟨0, h⟩ (0 : Fin 1) * 1 + 1 * 0 = 0; omega
  | n + 1, h, Y, hY => by
    have h' : n + 1 < 49 := h
    have hf : (cfg0.win 2).fetch ⟨n + 1, h⟩ = false := by
      cases hb : (cfg0.win 2).fetch ⟨n + 1, h⟩ with
      | false => rfl
      | true => have hm : (n + 1) % 49 = 0 := (fetch0_2 ⟨n + 1, h⟩).1 hb; omega
    rcases ((rd₀ m d).finds_of_pos hf (Nat.succ_ne_zero n) Y).1 hY with hfl | ⟨Y', hY', hafter⟩
    · rw [flush_in2] at hfl; exact absurd hfl Bool.false_ne_true
    · have e : Y = Y' := hafter
      subst e
      exact finds_w2 n (Nat.lt_of_succ_lt h) Y hY'

/-- The table's buffer, just fetched at point `t`, holds the table's rows of block `t` on the rows inside the table. -/
theorem finds_w1 (t : Fin cfg0.N) (Y : S2048x128.Idx → Elt F .f32) (hY : (rd₀ m d).Finds 1 t Y) (j : Fin 2048) (k : Fin 128)
    (hr : 2048 * t.val + j.val < 100000) :
    Y (ix2 j k) = m ((T d : Thread nD τ).loc main_arg1) (ix2 (⟨2048 * t.val + j.val, hr⟩ : Fin 100000) k) := by
  obtain ⟨d', rfl⟩ := ((rd₀ m d).finds_of_fetch (fetch0_1 t) Y).1 hY
  obtain ⟨e0, e1, e2, e3⟩ := idx_w1 t
  have hm : win0_1.moved (grid0.coords t) (ix2 j k) = true := (win0_1.moved_iff _ _).2 fun a => by
    match a with
    | ⟨0, _⟩ => show j.val < win0_1.xsize (grid0.coords t) (0 : Fin 2); omega
    | ⟨1, _⟩ => show k.val < win0_1.xsize (grid0.coords t) (1 : Fin 2); have := k.isLt; omega
  show win0_1.fill (grid0.coords t) d' ((rd₀ m d).blockOf 1 t) (ix2 j k) = _
  unfold Window.fill
  rw [dif_pos hm]
  show m ((T d : Thread nD τ).loc main_arg1) ((win0_1.blk t).view.emb _) = _
  congr 1
  funext a; apply Fin.ext
  match a with
  | ⟨0, _⟩ => show win0_1.index t (0 : Fin 2) * 2048 + 1 * j.val = 2048 * t.val + j.val; omega
  | ⟨1, _⟩ => show win0_1.index t (1 : Fin 2) * 128 + 1 * k.val = k.val; omega

/-! ## From the blocks to the array -/

/-- After the write-backs below `n`, row `t < n` of the score array is what the body left in the result's staging
    buffer at point `t`: point `t` wrote it and no later point's block meets it. -/
theorem arrAt_row : ∀ (n : ℕ) (G : Buf (Elt F) ((T d : Thread nD τ).loc main_v0)), (rdat m d).ArrAt 3 n G →
    ∀ t : Fin cfg0.N, t.val < n → ∃ X : S1x1x2048.Idx → Elt F .f32, (rdat m d).Leaves 3 t X
      ∧ ∀ j : Fin 2048, G (ix3 t 0 j) = X (ix3 0 0 j)
  | 0, _, _, t, ht => absurd ht (Nat.not_lt_zero _)
  | n + 1, G, hG, t, ht => by
    by_cases h : n < cfg0.N
    · rw [(rdat m d).ArrAt_succ 3 ⟨n, h⟩, if_pos (flush0_3 ⟨n, h⟩)] at hG
      obtain ⟨G₀, X, hG₀, hX, rfl⟩ := hG
      obtain ⟨e0', e1, e2⟩ := idx_w3 ⟨n, h⟩
      have e0 : win0_3.index ⟨n, h⟩ (0 : Fin 3) = n := e0'
      clear e0'
      by_cases e : t.val = n
      · have : t = ⟨n, h⟩ := Fin.ext e
        subst this
        refine ⟨X, hX, fun j => ?_⟩
        have hw := View.write_emb_of_mem (Val := Elt F) (v := ((cfg0.win 3).blk ⟨n, h⟩).view) G₀
          ((cfg0.win 3).cut (grid0.coords ⟨n, h⟩) X) (M := Finset.univ) (x := ix3 0 0 j) (Finset.mem_univ _)
        have hemb : ((cfg0.win 3).blk ⟨n, h⟩).view.emb (ix3 0 0 j) = ix3 ⟨n, h⟩ 0 j := by
          funext a; apply Fin.ext
          match a with
          | ⟨0, _⟩ => show win0_3.index ⟨n, h⟩ (0 : Fin 3) * 1 + 1 * 0 = n; omega
          | ⟨1, _⟩ => show win0_3.index ⟨n, h⟩ (1 : Fin 3) * 1 + 1 * 0 = 0; omega
          | ⟨2, _⟩ => show win0_3.index ⟨n, h⟩ (2 : Fin 3) * 2048 + 1 * j.val = j.val; omega
        rw [hemb] at hw
        exact hw
      · obtain ⟨X', hX', hval⟩ := arrAt_row n G₀ hG₀ t (by omega)
        refine ⟨X', hX', fun j => ?_⟩
        rw [View.write_of_not_mem]
        · exact hval j
        · rw [View.setOn_univ]
          show ix3 t 0 j ∉ ((View.whole main_v0).slice (win0_3.rect ⟨n, h⟩)).set
          rw [View.set_slice_whole]
          intro hmem
          have hall := Rect.mem_set_unit.1 hmem
          have h0 : win0_3.index ⟨n, h⟩ (0 : Fin 3) * 1 ≤ t.val ∧ t.val < win0_3.index ⟨n, h⟩ (0 : Fin 3) * 1 + 1 := hall 0
          omega
    · have hN : cfg0.N ≤ n := Nat.le_of_not_lt h
      rw [(rdat m d).ArrAt_stable 3 (n + 1) (Nat.le_succ_of_le hN), ← (rdat m d).ArrAt_stable 3 n hN] at hG
      exact arrAt_row n G hG t (Nat.lt_of_lt_of_le t.isLt hN)

/-- What `RegionPost` says, row by row: row `t` of the score array is the payload of a weight row, a table block and a
    bias word that the three inputs' staging buffers may hold at point `t`. -/
theorem regionPost_row (f0 : Buf (Elt F) ((T d : Thread nD τ).loc main_v0)) (h : RegionPost m d f0) (t : Fin cfg0.N) :
    ∃ (Y0 : S1x128.Idx → Elt F .f32) (Y1 : S2048x128.Idx → Elt F .f32) (Y2 : S1.Idx → Elt F .f32),
      (rd₀ m d).Finds 0 t Y0 ∧ (rd₀ m d).Finds 1 t Y1 ∧ (rd₀ m d).Finds 2 t Y2
        ∧ ∀ j : Fin 2048, f0 (ix3 t 0 j) = k0_pay1 Y0 Y1 (Y2 i1) (ix3 0 0 j) := by
  obtain ⟨X, ⟨Y, -, hYX⟩, hval⟩ := arrAt_row m d 49 f0 h t t.isLt
  obtain ⟨Y0, Y1, Y2, h0, h1, h2, rfl⟩ : outRel m d t X := hYX
  exact ⟨Y0, Y1, Y2, h0, h1, h2, hval⟩

end Cert.Proof.KI

end
-- ==== Proof.PayValue.lean ====
/- The TensorCore body's stored value read at one index, at the ideal instance (a float an extended real): the
   dot product of the weight row with one row of the block, plus the bias word. -/
import proofs.«211127_g52536039965321_cont_9to1c4b_697_4_alg».proof.KernelIdeal
import proofs.«211127_g52536039965321_cont_9to1c4b_697_4_alg».proof.Proof.Gen.KernelIdeal
import proofs.«211127_g52536039965321_cont_9to1c4b_697_4_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Proof.PayValue

open Cert.KernelIdeal Cert.KernelIdeal.Gen Idealize.ShloMosaic Idealize.ShloMosaic.ValueIdx

/-! ## The contraction's operand indices -/

/-- The left operand (the weight row) is read at the result's first coordinate, then the contracted one. -/
theorem lhs_0 (i : S1x2048.Idx) (q : dot_S1x128_S2048x128_S1x2048_1_1_0_0_n_n.contr.Idx) : (dot_S1x128_S2048x128_S1x2048_1_1_0_0_n_n.lhsIdx i q 0).val = (i 0).val := by
  unfold DotDims.lhsIdx
  rw [dif_neg (show ¬(0 : Fin S1x128.rank) ∈ dot_S1x128_S2048x128_S1x2048_1_1_0_0_n_n.lhsBatch by decide),
    dif_pos (show (0 : Fin S1x128.rank) ∈ dot_S1x128_S2048x128_S1x2048_1_1_0_0_n_n.lhsNonContracting by decide)]
  rfl
theorem lhs_1 (i : S1x2048.Idx) (q : dot_S1x128_S2048x128_S1x2048_1_1_0_0_n_n.contr.Idx) : (dot_S1x128_S2048x128_S1x2048_1_1_0_0_n_n.lhsIdx i q 1).val = (q ⟨0, by decide⟩).val :=
  dot_S1x128_S2048x128_S1x2048_1_1_0_0_n_n.lhsIdx_val_of_single rfl i q
/-- The right operand (the block of rows) is read at the result's second coordinate, then the contracted one. -/
theorem rhs_0 (i : S1x2048.Idx) (q : dot_S1x128_S2048x128_S1x2048_1_1_0_0_n_n.contr.Idx) : (dot_S1x128_S2048x128_S1x2048_1_1_0_0_n_n.rhsIdx i q 0).val = (i 1).val := by
  unfold DotDims.rhsIdx
  rw [dif_neg (show ¬(0 : Fin S2048x128.rank) ∈ dot_S1x128_S2048x128_S1x2048_1_1_0_0_n_n.rhsBatch by decide),
    dif_pos (show (0 : Fin S2048x128.rank) ∈ dot_S1x128_S2048x128_S1x2048_1_1_0_0_n_n.rhsNonContracting by decide)]
  rfl
theorem rhs_1 (i : S1x2048.Idx) (q : dot_S1x128_S2048x128_S1x2048_1_1_0_0_n_n.contr.Idx) : (dot_S1x128_S2048x128_S1x2048_1_1_0_0_n_n.rhsIdx i q 1).val = (q ⟨0, by decide⟩).val :=
  dot_S1x128_S2048x128_S1x2048_1_1_0_0_n_n.rhsIdx_val_of_single rfl i q

/-- Into the zero accumulator the product at a column is the sum over the features of the weight row times that
    row of the block. -/
theorem matmul_zero_apply (v0 : FVec Ideal S1x128 .f32) (v1 : FVec Ideal S2048x128 .f32) (u : Fin 1) (j : Fin 2048) :
    matmul dot_S1x128_S2048x128_S1x2048_1_1_0_0_n_n none v0 v1 (constant (F := Ideal) S1x2048 .f32 0x00000000#32) (ix2 u j)
      = ∑ k : Fin 128, v0 (ix2 0 k) * v1 (ix2 j k) := by
  show FloatOps.matmul dot_S1x128_S2048x128_S1x2048_1_1_0_0_n_n none v0 v1 (constant (F := Ideal) S1x2048 .f32 0x00000000#32) (ix2 u j) = _
  rw [Ideal.matmul_constant_zero_apply, ← Equiv.sum_comp (contrEquiv1 dot_S1x128_S2048x128_S1x2048_1_1_0_0_n_n 128 rfl rfl).symm]
  refine Finset.sum_congr rfl fun k _ => ?_
  have hk := contrEquiv1_symm_val dot_S1x128_S2048x128_S1x2048_1_1_0_0_n_n 128 rfl rfl k
  have hu : u.val = 0 := by omega
  have el : dot_S1x128_S2048x128_S1x2048_1_1_0_0_n_n.lhsIdx (ix2 u j) ((contrEquiv1 dot_S1x128_S2048x128_S1x2048_1_1_0_0_n_n 128 rfl rfl).symm k) = ix2 0 k :=
    funext fun a => Fin.ext (by
      match a with
      | ⟨0, _⟩ => exact (lhs_0 _ _).trans hu
      | ⟨1, _⟩ => exact (lhs_1 _ _).trans hk)
  have er : dot_S1x128_S2048x128_S1x2048_1_1_0_0_n_n.rhsIdx (ix2 u j) ((contrEquiv1 dot_S1x128_S2048x128_S1x2048_1_1_0_0_n_n 128 rfl rfl).symm k) = ix2 j k :=
    funext fun a => Fin.ext (by
      match a with
      | ⟨0, _⟩ => exact rhs_0 _ _
      | ⟨1, _⟩ => exact (rhs_1 _ _).trans hk)
  rw [el, er]

/-! ## The stored value at an index -/

/-- The body's stored value at column j: the weight row's dot product with row j of the block, plus the bias word. -/
theorem pay_apply (v0 : Vec Ideal S1x128 .f32) (v1 : Vec Ideal S2048x128 .f32) (v3 : EReal) (j : Fin 2048) :
    Cert.KernelIdeal.Gen.k0_pay1 (F := Ideal) v0 v1 v3 (ix3 0 0 j)
      = (∑ k : Fin 128, v0 (ix2 0 k) * v1 (ix2 j k)) + v3 := by
  show shapeCast S1x1x2048 (addf (matmul dot_S1x128_S2048x128_S1x2048_1_1_0_0_n_n none v0 v1 (constant (F := Ideal) S1x2048 .f32 0x00000000#32))
      (broadcast S1x2048 v3)) shapeCasts_S1x2048_S1x1x2048 (ix3 0 0 j) = _
  rw [shapeCast_ab_1ab_apply, addf_apply, broadcast_apply, matmul_zero_apply]

end Cert.Proof.PayValue

end
-- ==== Proof.KI.RegionValue.lean ====
/-
  The score array after the region, at the ideal values.

  Row `r` of the table (below its 100000 rows) lies in block `r / 2048` at row `r % 2048`, inside the table, so the
  score the region leaves for it is the weight row's dot product with that table row plus the bias: the table's
  staging buffer holds the table's own rows there, whatever it holds on the rows past the table's end, which no score
  below 100000 reads.
-/
import proofs.«211127_g52536039965321_cont_9to1c4b_697_4_alg».proof.Proof.KI.RegionRead
import proofs.«211127_g52536039965321_cont_9to1c4b_697_4_alg».proof.Proof.PayValue

noncomputable section

namespace Cert.Proof.KI

open Cert.KernelIdeal Cert.KernelIdeal.Gen

open Idealize.ShloMosaic
open Idealize.ShloMosaic.TcCoe
open Idealize.ShloMosaic.SparseCore (S V T)
open Idealize.SL.Sem
open Idealize.ShloMosaic.ValueIdx
open scoped BigOperators

/-- The weight row, the table and the bias at the launch contents, as arrays of ideal values. -/
abbrev wRow (m : (ℓ : Loc nD τ sig) → Buf (Elt Ideal) ℓ) (d : Dev nD) : FVec Ideal S1x128 .f32 := m ((T d : Thread nD τ).loc main_arg2)
abbrev table (m : (ℓ : Loc nD τ sig) → Buf (Elt Ideal) ℓ) (d : Dev nD) : FVec Ideal S100000x128 .f32 := m ((T d : Thread nD τ).loc main_arg1)
abbrev bias (m : (ℓ : Loc nD τ sig) → Buf (Elt Ideal) ℓ) (d : Dev nD) : FVec Ideal S1 .f32 := m ((T d : Thread nD τ).loc main_arg3)

/-- The score of table row `r`: the weight row times that row, plus the bias. -/
theorem region_value (m : (ℓ : Loc nD τ sig) → Buf (Elt Ideal) ℓ) (d : Dev nD)
    (f0 : FVec Ideal S49x1x2048 .f32) (h : RegionPost (F := Ideal) m d f0) (r : Fin 100000) :
    f0 (ix3 (⟨r.val / 2048, by have := r.isLt; omega⟩ : Fin 49) 0 (⟨r.val % 2048, Nat.mod_lt _ (by decide)⟩ : Fin 2048))
      = (∑ k : Fin 128, wRow m d (ix2 0 k) * table m d (ix2 r k)) + bias m d (ix1 0) := by
  have hq : r.val / 2048 < 49 := by have := r.isLt; omega
  have hrem : r.val % 2048 < 2048 := Nat.mod_lt _ (by decide)
  have hr : 2048 * (r.val / 2048) + r.val % 2048 < 100000 := by have := r.isLt; have := Nat.div_add_mod r.val 2048; omega
  obtain ⟨Y0, Y1, Y2, h0, h1, h2, hval⟩ := regionPost_row m d f0 h ⟨r.val / 2048, hq⟩
  refine (hval ⟨r.val % 2048, hrem⟩).trans ?_
  rw [Cert.Proof.PayValue.pay_apply, finds_w2 m d _ hq Y2 h2]
  congr 1
  refine Finset.sum_congr rfl fun k _ => ?_
  rw [finds_w0 m d _ hq Y0 h0 k, finds_w1 m d ⟨r.val / 2048, hq⟩ Y1 h1 ⟨r.val % 2048, hrem⟩ k hr]
  have e : (⟨2048 * (r.val / 2048) + r.val % 2048, hr⟩ : Fin 100000) = r := Fin.ext (Nat.div_add_mod r.val 2048)
  rw [e]

end Cert.Proof.KI

end
-- ==== Proof.PreDecode.lean ====
/-
  The precondition, read back as an index range.

  The printed predicate is a conjunction of four one-bit words: three of them say that every element of a
  float argument is finite, the fourth that every element `x` of the integer argument satisfies
  `0 ≤ x` and `x ≤ 99999` as signed 32-bit words. Only the fourth is opened here, so nothing is asked of
  the float instance. A conjunction of one-bit words is 1 exactly when both are; a reduction by `and` over
  all axes that is 1 had a 1 at every index; and a signed word in `[0, 99999]` has its top bit clear, so its
  unsigned reading is its signed one and is at most 99999.
-/
import proofs.«211127_g52536039965321_cont_9to1c4b_697_4_alg».proof.Pre_input_domain
import proofs.«211127_g52536039965321_cont_9to1c4b_697_4_alg».proof.Proof.Gen.Pre_input_domain
import proofs.«211127_g52536039965321_cont_9to1c4b_697_4_alg».proof.Defs
import Idealize.ShloMosaic.Lib.ReduceAll

noncomputable section

namespace Cert.Proof.PreDecode

open Idealize.ShloMosaic Idealize.SL.Sem Cert.Pre_input_domain

/-- The rank-0 shape has exactly one index: there is no axis to give a coordinate on. -/
instance subsingleton_S_ : Subsingleton S_.Idx := ⟨fun a b => funext fun d => d.elim0⟩

/-- A 32-bit word whose signed value lies in `[0, 99999]` has unsigned value at most 99999:
    were its top bit set its signed value would be negative. -/
theorem toNat_le_of_signed_range (x : BitVec 32) (h0 : (0#32).toInt ≤ x.toInt) (h1 : x.toInt ≤ (99999#32).toInt) :
    x.toNat ≤ 99999 := by
  have e := BitVec.toInt_eq_toNat_cond x
  have hlt := x.isLt
  have z : (0#32).toInt = 0 := by decide
  have n : (99999#32).toInt = 99999 := by decide
  rw [z] at h0
  rw [n] at h1
  omega

/-- If the precondition holds of the arguments, every element of the integer argument, read unsigned,
    is at most 99999. Generic in the float instance: the three finiteness conjuncts are split off and dropped. -/
theorem idx_range {F : FTy → Type} [FloatOps F] [Cert.Pre_input_domain.Facts]
    (a0 : IVec Cert.Pre_input_domain.S4096x200 32) (a1 : FVec F Cert.Pre_input_domain.S100000x128 .f32)
    (a2 : FVec F Cert.Pre_input_domain.S1x128 .f32) (a3 : FVec F Cert.Pre_input_domain.S1 .f32)
    (h : Cert.Pre_input_domain.fn (F := F) a0 a1 a2 a3 = fun _ => 1#1) : ∀ j, (a0 j).toNat ≤ 99999 := by
  intro j
  -- the predicate at the one index of the rank-0 result
  have e := congrFun h (fun d => d.elim0)
  dsimp only [fn, fn_part1] at e
  -- the last conjunct: the reduction by `and` of the integer test over both axes
  have eInt := (IntOp.andi_eq_one.1 e).2
  -- that reduction is 1, so the test is 1 at `j`
  have ej := Host.reduce_andi_all _ _ _ _ _ eInt j
  -- the test at `j` is the conjunction of the two signed comparisons against the splatted constants
  obtain ⟨g0, g1⟩ := IntOp.andi_eq_one.1 ej
  have k0 : (0#32).toInt ≤ (a0 j).toInt := IntOp.cmpi_sge.1 g0
  have k1 : (a0 j).toInt ≤ (99999#32).toInt := IntOp.cmpi_sle.1 g1
  exact toNat_le_of_signed_range (a0 j) k0 k1

/-- The range, of the kernel's integer argument on every device. -/
theorem idx_range_Kernel [Cert.Pre_input_domain.Facts]
    (m : (l : Loc Cert.Kernel.nD Cert.Kernel.τ Cert.Kernel.sig) → Buf (Elt Bits) l)
    (h : Cert.Pre_Kernel m) (c : Dev Cert.Kernel.nD) :
    ∀ j, (m ((c.tc : Thread Cert.Kernel.nD Cert.Kernel.τ).loc Cert.Kernel.main_arg0) j).toNat ≤ 99999 :=
  idx_range (F := Bits) _ _ _ _ (h c)

/-- The range, of the idealized kernel's integer argument on every device. -/
theorem idx_range_KernelIdeal [Cert.Pre_input_domain.Facts]
    (m : (l : Loc Cert.KernelIdeal.nD Cert.KernelIdeal.τ Cert.KernelIdeal.sig) → Buf (Elt Ideal) l)
    (h : Cert.Pre_KernelIdeal m) (c : Dev Cert.KernelIdeal.nD) :
    ∀ j, (m ((c.tc : Thread Cert.KernelIdeal.nD Cert.KernelIdeal.τ).loc Cert.KernelIdeal.main_arg0) j).toNat ≤ 99999 :=
  idx_range (F := Ideal) _ _ _ _ (h c)

/-- The range, of the idealized reference's integer argument on every device. -/
theorem idx_range_ReferenceIdeal [Cert.Pre_input_domain.Facts]
    (m : (l : Loc Cert.ReferenceIdeal.nD Cert.ReferenceIdeal.τ Cert.ReferenceIdeal.sig) → Buf (Elt Ideal) l)
    (h : Cert.Pre_ReferenceIdeal m) (c : Dev Cert.ReferenceIdeal.nD) :
    ∀ j, (m ((c.tc : Thread Cert.ReferenceIdeal.nD Cert.ReferenceIdeal.τ).loc Cert.ReferenceIdeal.main_arg0) j).toNat ≤ 99999 :=
  idx_range (F := Ideal) _ _ _ _ (h c)

end Cert.Proof.PreDecode

end
-- ==== Proof.RefOps.lean ====
/- The reference program's @main as the list of its operations — the two functions it calls written out at
   their call sites, over the calls' own buffers —, the composed term of the four argument arrays those
   operations compute, and that @main is the straight line of that list. -/
import proofs.«211127_g52536039965321_cont_9to1c4b_697_4_alg».proof.Defs
import proofs.«211127_g52536039965321_cont_9to1c4b_697_4_alg».proof.Proof.Gen.ReferenceIdeal
import Idealize.ShloMosaic.Lib.StableHlo.Run

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The row index with a negative one counted from the end: where i < 0 take i + 100000, else i. -/
def wrapIdx (I : IVec S4096x200 32) : IVec S4096x200 32 :=
  select (cmpi .slt I (broadcastInDim S4096x200 ![] bcast_S_S4096x200 (constantI S_ 32 0#32)))
    (addi I (broadcastInDim S4096x200 ![] bcast_S_S4096x200 (constantI S_ 32 100000#32))) I

/-- The wrapped index as the gather's table of one-component index vectors. -/
def idxCol (I : IVec S4096x200 32) : IVec S4096x200x1 32 :=
  broadcastInDim S4096x200x1 ![0, 1] bcast_S4096x200_S4096x200x1_0_1 (wrapIdx I)

/-- Which positions hold a row index in range: 0 ≤ i and i ≤ 99999, all components (there is one). -/
def inRange (I : IVec S4096x200 32) : IVec S4096x200 1 :=
  Host.reduce IntOp.andi
    (andi (cmpi .sge (idxCol I) (broadcastInDim S4096x200x1 ![] bcast_S_S4096x200x1 (constantI S_ 32 0#32)))
      (cmpi .sle (idxCol I)
        (broadcastInDim S4096x200x1 ![0, 1, 2] bcast_S1x1x1_S4096x200x1_0_1_2
          (broadcastInDim S1x1x1 ![2] bcast_S1_S1x1x1_2 (constantI S1 32 99999#32)))))
    (constantI S_ 1 1#1) reducesTo_S4096x200x1_S4096x200_d2 h_S_

/-- The rows of the table at the indices: the gathered row where the index is in range, the quiet NaN word elsewhere. -/
def taken (I : IVec S4096x200 32) (E : FVec F S100000x128 .f32) : FVec F S4096x200x128 .f32 :=
  select (broadcastInDim S4096x200x128 ![0, 1] bcast_S4096x200_S4096x200x128_0_1 (inRange I))
    (Host.gather gather_S100000x128_S4096x200x1_S4096x200x128_2_0_n_n_0_2_1128 E (idxCol I))
    (broadcastInDim S4096x200x128 ![] bcast_S_S4096x200x128 (constant S_ .f32 0x7FC00000#32))

/-- What the reference computes from its four argument arrays: the taken rows contracted with the weight row
    along the feature axis, plus the bias broadcast to every position. -/
def refTerm (I : IVec S4096x200 32) (E : FVec F S100000x128 .f32) (W : FVec F S1x128 .f32) (B : FVec F S1 .f32) :
    FVec F S4096x200x1 .f32 :=
  addf (Host.dotGeneral dot_S4096x200x128_S1x128_S4096x200x1_2_1_01_0_n_n none (taken I E) W)
    (broadcastInDim S4096x200x1 ![0, 1, 2] bcast_S1x1x1_S4096x200x1_0_1_2
      (broadcastInDim S1x1x1 ![2] bcast_S1_S1x1x1_2 B))

/-! ## The program as a straight line -/

/-- @main's 27 operations in order: the 23 of the row lookup — the index wrap's select among them, written into
    that inner call's own buffer — each over the buffer the call gives its value, then the contraction, the bias's
    two broadcasts and the sum. -/
abbrev ops : List (HloOp τ sig (Elt F)) :=
  [ nullary main_call0_c (constantI S_ 32 0#32 : (⟨S_, .i32⟩ : BufTy).Contents (Elt F)),
    unary main_call0_c main_call0_v0 (broadcastInDim S4096x200 ![] bcast_S_S4096x200 : (⟨S_, .i32⟩ : BufTy).Contents (Elt F) → (⟨S4096x200, .i32⟩ : BufTy).Contents (Elt F)),
    binary main_arg0 main_call0_v0 main_call0_v1 (cmpi .slt : (⟨S4096x200, .i32⟩ : BufTy).Contents (Elt F) → (⟨S4096x200, .i32⟩ : BufTy).Contents (Elt F) → (⟨S4096x200, .i1⟩ : BufTy).Contents (Elt F)),
    nullary main_call0_c_0 (constantI S_ 32 100000#32 : (⟨S_, .i32⟩ : BufTy).Contents (Elt F)),
    unary main_call0_c_0 main_call0_v2 (broadcastInDim S4096x200 ![] bcast_S_S4096x200 : (⟨S_, .i32⟩ : BufTy).Contents (Elt F) → (⟨S4096x200, .i32⟩ : BufTy).Contents (Elt F)),
    binary main_arg0 main_call0_v2 main_call0_v3 (addi : (⟨S4096x200, .i32⟩ : BufTy).Contents (Elt F) → (⟨S4096x200, .i32⟩ : BufTy).Contents (Elt F) → (⟨S4096x200, .i32⟩ : BufTy).Contents (Elt F)),
    ternary main_call0_v1 main_call0_v3 main_arg0 main_call0_v4 (select : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)),
    unary main_call0_v4 main_call0_v5 (broadcastInDim S4096x200x1 ![0, 1] bcast_S4096x200_S4096x200x1_0_1 : (⟨S4096x200, .i32⟩ : BufTy).Contents (Elt F) → (⟨S4096x200x1, .i32⟩ : BufTy).Contents (Elt F)),
    nullary main_call0_c_1 (constantI S1 32 99999#32 : (⟨S1, .i32⟩ : BufTy).Contents (Elt F)),
    nullary main_call0_c_2 (constantI S_ 32 0#32 : (⟨S_, .i32⟩ : BufTy).Contents (Elt F)),
    unary main_call0_c_2 main_call0_v6 (broadcastInDim S4096x200x1 ![] bcast_S_S4096x200x1 : (⟨S_, .i32⟩ : BufTy).Contents (Elt F) → (⟨S4096x200x1, .i32⟩ : BufTy).Contents (Elt F)),
    binary main_call0_v5 main_call0_v6 main_call0_v7 (cmpi .sge : (⟨S4096x200x1, .i32⟩ : BufTy).Contents (Elt F) → (⟨S4096x200x1, .i32⟩ : BufTy).Contents (Elt F) → (⟨S4096x200x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S4096x200x1 ![0, 1, 2] bcast_S1x1x1_S4096x200x1_0_1_2 : (⟨S1x1x1, .i32⟩ : BufTy).Contents (Elt F) → (⟨S4096x200x1, .i32⟩ : BufTy).Contents (Elt F)),
    binary main_call0_v5 main_call0_v9 main_call0_v10 (cmpi .sle : (⟨S4096x200x1, .i32⟩ : BufTy).Contents (Elt F) → (⟨S4096x200x1, .i32⟩ : BufTy).Contents (Elt F) → (⟨S4096x200x1, .i1⟩ : BufTy).Contents (Elt F)),
    binary main_call0_v7 main_call0_v10 main_call0_v11 (andi : (⟨S4096x200x1, .i1⟩ : BufTy).Contents (Elt F) → (⟨S4096x200x1, .i1⟩ : BufTy).Contents (Elt F) → (⟨S4096x200x1, .i1⟩ : BufTy).Contents (Elt F)),
    nullary main_call0_c_3 (constantI S_ 1 1#1 : (⟨S_, .i1⟩ : BufTy).Contents (Elt F)),
    binary main_call0_v11 main_call0_c_3 main_call0_v12 (fun x v => Host.reduce IntOp.andi x v reducesTo_S4096x200x1_S4096x200_d2 h_S_ : (⟨S4096x200x1, .i1⟩ : BufTy).Contents (Elt F) → (⟨S_, .i1⟩ : BufTy).Contents (Elt F) → (⟨S4096x200, .i1⟩ : BufTy).Contents (Elt F)),
    binary main_arg1 main_call0_v5 main_call0_v13 (fun x i => Host.gather gather_S100000x128_S4096x200x1_S4096x200x128_2_0_n_n_0_2_1128 x i : (⟨S100000x128, .f32⟩ : BufTy).Contents (Elt F) → (⟨S4096x200x1, .i32⟩ : BufTy).Contents (Elt F) → (⟨S4096x200x128, .f32⟩ : BufTy).Contents (Elt F)),
    unary main_call0_v12 main_call0_v14 (broadcastInDim S4096x200x128 ![0, 1] bcast_S4096x200_S4096x200x128_0_1 : (⟨S4096x200, .i1⟩ : BufTy).Contents (Elt F) → (⟨S4096x200x128, .i1⟩ : BufTy).Contents (Elt F)),
    nullary main_call0_cst (constant S_ .f32 0x7FC00000#32 : (⟨S_, .f32⟩ : BufTy).Contents (Elt F)),
    unary main_call0_cst main_call0_v15 (broadcastInDim S4096x200x128 ![] bcast_S_S4096x200x128 : (⟨S_, .f32⟩ : BufTy).Contents (Elt F) → (⟨S4096x200x128, .f32⟩ : BufTy).Contents (Elt F)),
    ternary main_call0_v14 main_call0_v13 main_call0_v15 main_v0 (select : (⟨S4096x200x128, .i1⟩ : BufTy).Contents (Elt F) → (⟨S4096x200x128, .f32⟩ : BufTy).Contents (Elt F) → (⟨S4096x200x128, .f32⟩ : BufTy).Contents (Elt F) → (⟨S4096x200x128, .f32⟩ : BufTy).Contents (Elt F)),
    binary main_v0 main_arg2 main_v1 (fun l r => Host.dotGeneral dot_S4096x200x128_S1x128_S4096x200x1_2_1_01_0_n_n none l r : (⟨S4096x200x128, .f32⟩ : BufTy).Contents (Elt F) → (⟨S1x128, .f32⟩ : BufTy).Contents (Elt F) → (⟨S4096x200x1, .f32⟩ : BufTy).Contents (Elt F)),
    unary main_arg3 main_v2 (broadcastInDim S1x1x1 ![2] bcast_S1_S1x1x1_2 : (⟨S1, .f32⟩ : BufTy).Contents (Elt F) → (⟨S1x1x1, .f32⟩ : BufTy).Contents (Elt F)),
    unary main_v2 main_v3 (broadcastInDim S4096x200x1 ![0, 1, 2] bcast_S1x1x1_S4096x200x1_0_1_2 : (⟨S1x1x1, .f32⟩ : BufTy).Contents (Elt F) → (⟨S4096x200x1, .f32⟩ : BufTy).Contents (Elt F)),
    binary main_v1 main_v3 main_v4 (addf : (⟨S4096x200x1, .f32⟩ : BufTy).Contents (Elt F) → (⟨S4096x200x1, .f32⟩ : BufTy).Contents (Elt F) → (⟨S4096x200x1, .f32⟩ : BufTy).Contents (Elt F)) ]

-- twenty-seven binds re-associated
set_option maxRecDepth 1024 in
attribute [local irreducible] Host.reduce Host.gather in
/-- @main is that straight line: the two functions' definitions unfolded at their calls, both sides are one chain
    of steps once sequencing is reassociated; an operation stated over a typed reference is the same operation
    over the buffer itself, the transport along the buffer's type being the identity at a literal buffer. -/
theorem main_eq (c : Dev nD) : main (F := F) c = seq ops := by
  simp only [main, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., unary_bufs_sub .., unary_bufs_sub .., binary_bufs_sub ..⟩

end Cert.Proof.RefRun

end
-- ==== Proof.RefRun.lean ====
/- The reference program's run read back: every weakly fair execution terminates with the result buffer at
   the operations' composed term of the four argument arrays, the arguments unchanged. -/
import proofs.«211127_g52536039965321_cont_9to1c4b_697_4_alg».proof.Proof.RefOps

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-! ## What the line leaves in the result and the argument buffers -/

attribute [local irreducible] Host.reduce Host.gather in
/-- The fold of the operations' results at the result buffer is the composed term of the four arguments' contents:
    each operation's result read at its own buffer is its function's value, at any other buffer what was there. -/
theorem out_eq (V : Valuation τ sig (Elt F)) :
    after ops V (main_v4 : DevRef τ sig)
      = refTerm (V (main_arg0 : DevRef τ sig)) (V (main_arg1 : DevRef τ sig)) (V (main_arg2 : DevRef τ sig))
          (V (main_arg3 : DevRef τ sig)) := by
  unfold refTerm taken inRange idxCol wrapIdx
  after_results_simp

/-- No operation writes an argument's buffer. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-! ## The run -/

/-- On every device, for any float values, from any memory with zero counters: every weakly fair execution of @main
    terminates with the result at the composed term of the arguments and the arguments unchanged. -/
theorem runF (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v4)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v4).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq defs main (fun _ => ops) main_eq (fun _ => ops_sub) m ρ)

/-- The same at the ideal instance (a float an extended real), spelled as the certificate's claims spell it. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v4)
            = refTerm (F := Ideal) (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  runF m ρ

end Cert.Proof.RefRun

end
-- ==== Proof.RefValue.lean ====
/- The reference's composed term read at one index, at the ideal instance (a float an extended real), when every
   row index is in range: the dot product of the table's row at the index with the weight row, plus the bias. -/
import proofs.«211127_g52536039965321_cont_9to1c4b_697_4_alg».proof.Proof.RefOps
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.Proof.RefRun

open Cert.ReferenceIdeal Cert.ReferenceIdeal.Gen Idealize.ShloMosaic Idealize.ShloMosaic.ValueIdx

/-! ## Words: a 32-bit row index below 100000 -/

/-- Such a word's signed reading is its unsigned one. -/
theorem toInt_of_le {x : BitVec 32} (hx : x.toNat ≤ 99999) : x.toInt = (x.toNat : Int) := by
  rw [BitVec.toInt_eq_toNat_cond]
  split
  · rfl
  · omega

/-- It is not below zero, … -/
theorem cmpi_slt_zero {x : BitVec 32} (hx : x.toNat ≤ 99999) : IntOp.cmpi .slt x 0#32 = 0#1 := by
  have h : x.slt 0#32 = false := by
    rw [BitVec.slt, toInt_of_le hx]
    simp
  show BitVec.ofBool (x.slt 0#32) = 0#1
  rw [h]; rfl

/-- … it is at least zero, … -/
theorem cmpi_sge_zero {x : BitVec 32} (hx : x.toNat ≤ 99999) : IntOp.cmpi .sge x 0#32 = 1#1 := by
  have h : (0#32 : BitVec 32).sle x = true := by
    rw [BitVec.sle, toInt_of_le hx]
    simp
  show BitVec.ofBool ((0#32 : BitVec 32).sle x) = 1#1
  rw [h]; rfl

/-- … and at most the last row's index. -/
theorem cmpi_sle_last {x : BitVec 32} (hx : x.toNat ≤ 99999) : IntOp.cmpi .sle x 99999#32 = 1#1 := by
  have h : x.sle 99999#32 = true := by
    rw [BitVec.sle, toInt_of_le hx]
    simp
    omega
  show BitVec.ofBool (x.sle 99999#32) = 1#1
  rw [h]; rfl

/-- A left fold by "and" from 1 over words that are all 1 is 1. -/
theorem foldl_andi_one {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a]
    exact ih

/-- A word whose signed value is between 0 and 99999 is at most 99999 read unsigned. -/
theorem toNat_le_of_signed {x : BitVec 32} (h0 : 0 ≤ x.toInt) (h1 : x.toInt ≤ 99999) : x.toNat ≤ 99999 := by
  have := x.isLt
  by_cases h : 2 * x.toNat < 2 ^ 32
  · rw [BitVec.toInt_eq_toNat_cond, if_pos h] at h1
    omega
  · rw [BitVec.toInt_eq_toNat_cond, if_neg h] at h0
    omega

/-- A condition bit made from a truth value is 1 only for "true". -/
theorem ofBool_eq_one {c : Bool} (h : BitVec.ofBool c = 1#1) : c = true := by
  cases c with
  | false => exact absurd h (by decide)
  | true => rfl

/-- The same from the two signed comparisons' bits: at least zero, at most 99999. -/
theorem toNat_le_of_cmpi {x : BitVec 32} (h0 : IntOp.cmpi .sge x 0#32 = 1#1) (h1 : IntOp.cmpi .sle x 99999#32 = 1#1) :
    x.toNat ≤ 99999 := by
  have a0 : (0#32 : BitVec 32).sle x = true := ofBool_eq_one h0
  have a1 : x.sle 99999#32 = true := ofBool_eq_one h1
  rw [BitVec.sle, decide_eq_true_eq] at a0 a1
  have e0 : (0#32 : BitVec 32).toInt = 0 := by decide
  have e1 : (99999#32 : BitVec 32).toInt = 99999 := by decide
  rw [e0] at a0
  rw [e1] at a1
  exact toNat_le_of_signed a0 a1

/-! ## The row lookup read at an index -/

section Take

variable (I : IVec S4096x200 32)

/-- An index in range is its own wrap: it is not negative. -/
theorem wrapIdx_apply (j : S4096x200.Idx) (hj : (I j).toNat ≤ 99999) : wrapIdx I j = I j := by
  unfold wrapIdx
  rw [select_apply]
  have h : cmpi .slt I (broadcastInDim S4096x200 ![] bcast_S_S4096x200 (constantI S_ 32 0#32)) j = 0#1 :=
    cmpi_slt_zero hj
  rw [h, select_zero]

/-- The table of one-component index vectors at a position is the wrapped index there. -/
theorem idxCol_apply (b : Fin 4096) (l : Fin 200) (z : Fin 1) : idxCol I (ix3 b l z) = wrapIdx I (ix2 b l) := by
  unfold idxCol
  exact broadcastInDim_apply _ _ _ _ (ix2 b l) (fun a => by
    match a with
    | ⟨0, _⟩ => rfl
    | ⟨1, _⟩ => rfl)

/-- With every index in range the range mask is all ones. -/
theorem inRange_apply (hI : ∀ j, (I j).toNat ≤ 99999) (j : S4096x200.Idx) : inRange I j = 1#1 := by
  unfold inRange
  rw [Host.reduce_eq_foldl]
  refine foldl_andi_one _ (fun i => ?_) _
  obtain ⟨b, l, z, rfl⟩ : ∃ (b : Fin 4096) (l : Fin 200) (z : Fin 1), i = ix3 b l z := ⟨i 0, i 1, i 2, eq_ix3 i⟩
  show IntOp.andi (IntOp.cmpi .sge (idxCol I (ix3 b l z)) 0#32) (IntOp.cmpi .sle (idxCol I (ix3 b l z)) 99999#32) = 1#1
  rw [idxCol_apply, wrapIdx_apply I _ (hI _), cmpi_sge_zero (hI _), cmpi_sle_last (hI _)]
  rfl

/-- The gather of rows read at a position and a feature: the table at the row the index vector's one component
    names — read signed and clamped into the table's rows — and that feature. -/
theorem gather_rows_apply {α : Type} (E : S100000x128.Idx → α) (idx : IVec S4096x200x1 32) (b : Fin 4096) (l : Fin 200)
    (d : Fin 128) :
    Host.gather gather_S100000x128_S4096x200x1_S4096x200x128_2_0_n_n_0_2_1128 E idx (ix3 b l d)
      = E (ix2 ⟨min (idx (ix3 b l 0)).toInt.toNat 99999, by omega⟩ d) := by
  unfold Host.gather
  congr 1
  funext a
  refine Fin.ext ?_
  match a with
  | ⟨0, _⟩ =>
    show gather_S100000x128_S4096x200x1_S4096x200x128_2_0_n_n_0_2_1128.start (ix3 b l d) idx 0
        + gather_S100000x128_S4096x200x1_S4096x200x128_2_0_n_n_0_2_1128.batchCoord (ix3 b l d) 0
        + gather_S100000x128_S4096x200x1_S4096x200x128_2_0_n_n_0_2_1128.offCoord (ix3 b l d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S4096x200x1_S4096x200x128_2_0_n_n_0_2_1128.startIndexMap from
      List.mem_singleton.mpr rfl)]
    have hsi : gather_S100000x128_S4096x200x1_S4096x200x128_2_0_n_n_0_2_1128.siIdx (ix3 b l d)
        ⟨List.idxOf (0 : Fin 2) gather_S100000x128_S4096x200x1_S4096x200x128_2_0_n_n_0_2_1128.startIndexMap,
          List.idxOf_lt_length_iff.2 (List.mem_singleton.mpr rfl)⟩ = ix3 b l 0 := by
      funext c; refine Fin.ext ?_
      match c with
      | ⟨0, _⟩ => rfl
      | ⟨1, _⟩ => rfl
      | ⟨2, _⟩ => rfl
    rw [hsi]
    rfl
  | ⟨1, _⟩ =>
    show gather_S100000x128_S4096x200x1_S4096x200x128_2_0_n_n_0_2_1128.start (ix3 b l d) idx 1
        + gather_S100000x128_S4096x200x1_S4096x200x128_2_0_n_n_0_2_1128.batchCoord (ix3 b l d) 1
        + gather_S100000x128_S4096x200x1_S4096x200x128_2_0_n_n_0_2_1128.offCoord (ix3 b l d) 1 = d.val
    rw [GatherDims.batchCoord_eq_zero _ _ _ List.not_mem_nil]
    unfold GatherDims.start GatherDims.offCoord
    rw [dif_neg (show ¬ (1 : Fin 2) ∈ gather_S100000x128_S4096x200x1_S4096x200x128_2_0_n_n_0_2_1128.startIndexMap by decide),
      dif_pos (show (1 : Fin 2) ∈ gather_S100000x128_S4096x200x1_S4096x200x128_2_0_n_n_0_2_1128.sKept by decide)]
    have hk : gather_S100000x128_S4096x200x1_S4096x200x128_2_0_n_n_0_2_1128.sKept = [1] := by decide
    have ho : gather_S100000x128_S4096x200x1_S4096x200x128_2_0_n_n_0_2_1128.offsetDims = [2] := rfl
    simp only [hk, ho, List.idxOf_cons_self, List.getElem_cons_zero, Nat.zero_add]
    rfl

/-- With every index in range, the taken rows at a position and a feature are the table's row at the index, at that
    feature: the mask picks the gathered row and the clamp is the identity. -/
theorem taken_apply {F : FTy → Type} [FloatOps F] (E : FVec F S100000x128 .f32) (hI : ∀ j, (I j).toNat ≤ 99999)
    (b : Fin 4096) (l : Fin 200) (d : Fin 128) :
    taken I E (ix3 b l d) = E (ix2 ⟨(I (ix2 b l)).toNat, by have := hI (ix2 b l); omega⟩ d) := by
  unfold taken
  rw [select_apply]
  have hm : broadcastInDim S4096x200x128 ![0, 1] bcast_S4096x200_S4096x200x128_0_1 (inRange I) (ix3 b l d) = 1#1 := by
    rw [broadcastInDim_apply _ _ _ _ (ix2 b l) (fun a => by
      match a with
      | ⟨0, _⟩ => rfl
      | ⟨1, _⟩ => rfl)]
    exact inRange_apply I hI _
  rw [hm, select_one, gather_rows_apply]
  refine congrArg E (congrArg (fun r => ix2 r d) (Fin.ext ?_))
  show min (idxCol I (ix3 b l 0)).toInt.toNat 99999 = (I (ix2 b l)).toNat
  have := hI (ix2 b l)
  rw [idxCol_apply, wrapIdx_apply I _ this, toInt_of_le this]
  omega

end Take

/-! ## The contraction and the bias read at an index -/

/-- The contraction's left operand index: the result's first two coordinates, then the contracted one. -/
theorem lhs_0 (i : S4096x200x1.Idx) (q : dot_S4096x200x128_S1x128_S4096x200x1_2_1_01_0_n_n.contr.Idx) : (dot_S4096x200x128_S1x128_S4096x200x1_2_1_01_0_n_n.lhsIdx i q 0).val = (i 0).val := by
  unfold DotDims.lhsIdx
  rw [dif_neg (show ¬(0 : Fin S4096x200x128.rank) ∈ dot_S4096x200x128_S1x128_S4096x200x1_2_1_01_0_n_n.lhsBatch by decide),
    dif_pos (show (0 : Fin S4096x200x128.rank) ∈ dot_S4096x200x128_S1x128_S4096x200x1_2_1_01_0_n_n.lhsNonContracting by decide)]
  rfl
theorem lhs_1 (i : S4096x200x1.Idx) (q : dot_S4096x200x128_S1x128_S4096x200x1_2_1_01_0_n_n.contr.Idx) : (dot_S4096x200x128_S1x128_S4096x200x1_2_1_01_0_n_n.lhsIdx i q 1).val = (i 1).val := by
  unfold DotDims.lhsIdx
  rw [dif_neg (show ¬(1 : Fin S4096x200x128.rank) ∈ dot_S4096x200x128_S1x128_S4096x200x1_2_1_01_0_n_n.lhsBatch by decide),
    dif_pos (show (1 : Fin S4096x200x128.rank) ∈ dot_S4096x200x128_S1x128_S4096x200x1_2_1_01_0_n_n.lhsNonContracting by decide)]
  rfl
theorem lhs_2 (i : S4096x200x1.Idx) (q : dot_S4096x200x128_S1x128_S4096x200x1_2_1_01_0_n_n.contr.Idx) : (dot_S4096x200x128_S1x128_S4096x200x1_2_1_01_0_n_n.lhsIdx i q 2).val = (q ⟨0, by decide⟩).val :=
  dot_S4096x200x128_S1x128_S4096x200x1_2_1_01_0_n_n.lhsIdx_val_of_single rfl i q
/-- The right operand index: the result's last coordinate (the weight's one row), then the contracted one. -/
theorem rhs_0 (i : S4096x200x1.Idx) (q : dot_S4096x200x128_S1x128_S4096x200x1_2_1_01_0_n_n.contr.Idx) : (dot_S4096x200x128_S1x128_S4096x200x1_2_1_01_0_n_n.rhsIdx i q 0).val = (i 2).val := by
  unfold DotDims.rhsIdx
  rw [dif_neg (show ¬(0 : Fin S1x128.rank) ∈ dot_S4096x200x128_S1x128_S4096x200x1_2_1_01_0_n_n.rhsBatch by decide),
    dif_pos (show (0 : Fin S1x128.rank) ∈ dot_S4096x200x128_S1x128_S4096x200x1_2_1_01_0_n_n.rhsNonContracting by decide)]
  rfl
theorem rhs_1 (i : S4096x200x1.Idx) (q : dot_S4096x200x128_S1x128_S4096x200x1_2_1_01_0_n_n.contr.Idx) : (dot_S4096x200x128_S1x128_S4096x200x1_2_1_01_0_n_n.rhsIdx i q 1).val = (q ⟨0, by decide⟩).val :=
  dot_S4096x200x128_S1x128_S4096x200x1_2_1_01_0_n_n.rhsIdx_val_of_single rfl i q

/-- At the ideal instance the contraction at a position is the sum over the features of the left operand there times
    the weight row. -/
theorem dot_apply (X : FVec Ideal S4096x200x128 .f32) (W : FVec Ideal S1x128 .f32) (b : Fin 4096) (l : Fin 200) :
    Host.dotGeneral dot_S4096x200x128_S1x128_S4096x200x1_2_1_01_0_n_n none X W (ix3 b l 0) = ∑ k : Fin 128, X (ix3 b l k) * W (ix2 0 k) := by
  simp only [Host.dotGeneral]
  rw [Ideal.dotGeneral_apply, ← Equiv.sum_comp (contrEquiv1 dot_S4096x200x128_S1x128_S4096x200x1_2_1_01_0_n_n 128 rfl rfl).symm]
  refine Finset.sum_congr rfl fun k _ => ?_
  have hk := contrEquiv1_symm_val dot_S4096x200x128_S1x128_S4096x200x1_2_1_01_0_n_n 128 rfl rfl k
  have el : dot_S4096x200x128_S1x128_S4096x200x1_2_1_01_0_n_n.lhsIdx (ix3 b l 0) ((contrEquiv1 dot_S4096x200x128_S1x128_S4096x200x1_2_1_01_0_n_n 128 rfl rfl).symm k) = ix3 b l k :=
    funext fun a => Fin.ext (by
      match a with
      | ⟨0, _⟩ => exact lhs_0 _ _
      | ⟨1, _⟩ => exact lhs_1 _ _
      | ⟨2, _⟩ => exact (lhs_2 _ _).trans hk)
  have er : dot_S4096x200x128_S1x128_S4096x200x1_2_1_01_0_n_n.rhsIdx (ix3 b l 0) ((contrEquiv1 dot_S4096x200x128_S1x128_S4096x200x1_2_1_01_0_n_n 128 rfl rfl).symm k) = ix2 0 k :=
    funext fun a => Fin.ext (by
      match a with
      | ⟨0, _⟩ => exact rhs_0 _ _
      | ⟨1, _⟩ => exact (rhs_1 _ _).trans hk)
  rw [el, er]

/-- The bias broadcast to every position reads the bias's one element. -/
theorem bias_apply {α : Type} (B : S1.Idx → α) (b : Fin 4096) (l : Fin 200) (z : Fin 1) :
    broadcastInDim S4096x200x1 ![0, 1, 2] bcast_S1x1x1_S4096x200x1_0_1_2 (broadcastInDim S1x1x1 ![2] bcast_S1_S1x1x1_2 B)
      (ix3 b l z) = B (ix1 0) := by
  rw [broadcastInDim_apply _ _ _ _ (ix3 (0 : Fin 1) (0 : Fin 1) (0 : Fin 1)) (fun a => by
      match a with
      | ⟨0, _⟩ => rfl
      | ⟨1, _⟩ => rfl
      | ⟨2, _⟩ => rfl),
    broadcastInDim_apply _ _ _ _ (ix1 (0 : Fin 1)) (fun a => by
      match a with
      | ⟨0, _⟩ => rfl)]

/-! ## The reference's result at an index -/

/-- With every row index in range (as an unsigned word at most 99999: the same as its signed value between 0 and
    99999), the reference's result at a position is the dot product of the table's row at that position's index with
    the weight row, plus the bias. -/
theorem refTerm_apply (I : IVec S4096x200 32) (E : FVec Ideal S100000x128 .f32) (W : FVec Ideal S1x128 .f32)
    (B : FVec Ideal S1 .f32) (hI : ∀ j, (I j).toNat ≤ 99999) (b : Fin 4096) (l : Fin 200) :
    refTerm I E W B (ix3 b l 0)
      = (∑ d : Fin 128, E (ix2 ⟨(I (ix2 b l)).toNat, by have := hI (ix2 b l); omega⟩ d) * W (ix2 0 d)) + B (ix1 0) := by
  unfold refTerm
  rw [addf_apply, dot_apply, bias_apply]
  refine congrArg (fun s => s + B (ix1 0)) (Finset.sum_congr rfl fun d _ => ?_)
  rw [taken_apply I E hI]

end Cert.Proof.RefRun

end
-- ==== Proof.Bridge.lean ====
/-
  At the extended reals, what the gather-of-scores program leaves in its result array.

  The score of table row `r` is `Σ_k W[0,k] · E[r,k] + b[0]`. The flat index at position `p` is the index array's
  entry `[p / 200, p % 200]`, and under the precondition it names a table row (at most 99999). If the region leaves
  every row's score at that row's place in its [49, 1, 2048] result — row `r` at `[r / 2048, 0, r % 2048]` — then the flat
  scores hold, at the position each flat index names, the score of the row it names: the gather kernel's result is the
  score of the named row at every flat position, and the result array, the flat result re-laid as [4096, 200, 1], holds at
  `[b, l, 0]` the score of the row the index `[b, l]` names.
-/
import proofs.«211127_g52536039965321_cont_9to1c4b_697_4_alg».proof.Proof.KI.Flat
import proofs.«211127_g52536039965321_cont_9to1c4b_697_4_alg».proof.Proof.PreDecode
import proofs.«211127_g52536039965321_cont_9to1c4b_697_4_alg».proof.Proof.RefValue
import Idealize.ShloMosaic.Lib.Pipeline.Value
import Idealize.ShloMosaic.PureOps.Ideal.Laws

noncomputable section

namespace Cert.Proof.Bridge

open Cert.KernelIdeal Cert.KernelIdeal.Gen Cert.Proof.KI
open Idealize.ShloMosaic Idealize.ShloMosaic.ValueIdx Idealize.SL.Sem
open Idealize.ShloMosaic.SparseCore (T)

variable (m : (ℓ : Loc nD τ sig) → Buf (Elt Ideal) ℓ)

/-- A table row from a number, kept inside the table. -/
def rowOf (n : ℕ) : Fin 100000 := ⟨min n 99999, by omega⟩

/-- The four argument arrays on device `d`: the row indices (words), and the table, the weight row and the bias
    (extended reals). -/
abbrev argI (d : Dev nD) : S4096x200.Idx → BitVec 32 := m (a0Loc d)
abbrev argE (d : Dev nD) : S100000x128.Idx → EReal := m (a1Loc d)
abbrev argW (d : Dev nD) : S1x128.Idx → EReal := m (a2Loc d)
abbrev argB (d : Dev nD) : S1.Idx → EReal := m (a3Loc d)

/-- The score of table row `r` on device `d`. -/
def score (d : Dev nD) (r : Fin 100000) : EReal :=
  (∑ k : Fin 128, argW m d (ix2 0 k) * argE m d (ix2 r k)) + argB m d (ix1 0)

/-- Under the precondition every row index, read unsigned, is at most 99999. -/
theorem idx_le (hpre : Cert.Pre_KernelIdeal m) (d : Dev nD) (j : S4096x200.Idx) : (argI m d j).toNat ≤ 99999 :=
  Cert.Proof.PreDecode.idx_range_KernelIdeal m hpre d j

/-- What the result is to hold at flat position `k`: the score of the row the flat index there names. -/
def ValI (d : Dev nD) (k : S819200.Idx) (x : Elt Ideal .f32) : Prop := x = score m d (rowOf (flatI m d k).toNat)

theorem flatI_le' (hpre : Cert.Pre_KernelIdeal m) (d : Dev nD) (k : S819200.Idx) : (flatI m d k).toNat ≤ 99999 :=
  flatI_le m 99999 d (fun j => idx_le m hpre d j) k

/-- The flat scores at a position are the region's result at the position's block and place in the block. -/
theorem flatS_apply (d : Dev nD) (f0 : Buf (Elt Ideal) (v0Loc d)) (r : Fin 100000) :
    flatS d f0 (ix1 (⟨r.val, by have := r.isLt; omega⟩ : Fin 100352))
      = (f0 : S49x1x2048.Idx → EReal) (ix3 ⟨r.val / 2048, by have := r.isLt; omega⟩ 0 ⟨r.val % 2048, Nat.mod_lt _ (by decide)⟩) := by
  unfold flatS
  refine shapeCast_apply _ _ _ _ ?_
  show (S49x1x2048.rowMajor _).val = (S100352.rowMajor _).val
  rw [Shape.rowMajor_val_three, Shape.rowMajor_val_one]
  show (r.val / 2048 * 1 + 0) * 2048 + r.val % 2048 = r.val
  omega

/-- If the region leaves every row's score at the row's place, the flat scores are as the kernel's result needs. -/
theorem sok_of_rows (hpre : Cert.Pre_KernelIdeal m) (d : Dev nD) (f0 : Buf (Elt Ideal) (v0Loc d))
    (h : ∀ r : Fin 100000, (f0 : S49x1x2048.Idx → EReal) (ix3 ⟨r.val / 2048, by have := r.isLt; omega⟩ 0 ⟨r.val % 2048, Nat.mod_lt _ (by decide)⟩) = score m d r) :
    Sok (flatI m) (ValI m) d (flatS d f0) := by
  unfold Sok
  intro k
  have hk := flatI_le' m hpre d k
  unfold ValI
  have e1 : sAt (flatI m d k).toNat = ix1 (⟨(rowOf (flatI m d k).toNat).val, by have := (rowOf (flatI m d k).toNat).isLt; omega⟩ : Fin 100352) := by
    unfold sAt
    refine congrArg (ix1 (n := 100352)) (Fin.ext ?_)
    show min (flatI m d k).toNat 100351 = min (flatI m d k).toNat 99999
    omega
  rw [e1, flatS_apply, h]

/-- The result array at the extended reals. -/
def outI (d : Dev nD) : Buf (Elt Ideal) (rLoc d) := relay (F := Ideal) d (fun k => score m d (rowOf (flatI m d k).toNat))

theorem resOk_eq (d : Dev nD) (r : Buf (Elt Ideal) (rLoc d)) (h : ResOk (ValI m) d r) : r = outI m d := by
  obtain ⟨g, hg, rfl⟩ := h
  unfold outI
  exact congrArg (relay d) (funext fun k => hg k)

/-- The result array at `[b, l, 0]` is the flat result at position `200 b + l`. -/
theorem relay_apply (d : Dev nD) (g : Buf (Elt Ideal) (oLoc d)) (b : Fin 4096) (l : Fin 200) :
    (relay d g : S4096x200x1.Idx → EReal) (ix3 b l 0)
      = (g : S819200.Idx → EReal) (ix1 (⟨b.val * 200 + l.val, by have := b.isLt; have := l.isLt; omega⟩ : Fin 819200)) := by
  unfold relay
  refine shapeCast_apply _ _ _ _ ?_
  show (S819200.rowMajor _).val = (S4096x200x1.rowMajor _).val
  rw [Shape.rowMajor_val_three, Shape.rowMajor_val_one]
  show b.val * 200 + l.val = (b.val * 200 + l.val) * 1 + 0
  omega

/-- The result array at `[b, l, 0]` is the score of the row the index `[b, l]` names. -/
theorem outI_apply (hpre : Cert.Pre_KernelIdeal m) (d : Dev nD) (b : Fin 4096) (l : Fin 200) :
    (outI m d : S4096x200x1.Idx → EReal) (ix3 b l 0)
      = score m d ⟨(argI m d (ix2 b l)).toNat, by have := idx_le m hpre d (ix2 b l); omega⟩ := by
  have hp : b.val * 200 + l.val < 819200 := by have := b.isLt; have := l.isLt; omega
  unfold outI
  rw [relay_apply d _ b l]
  have e : flatI m d (ix1 (⟨b.val * 200 + l.val, hp⟩ : Fin 819200)) = argI m d (ix2 b l) := by
    rw [flatI_apply]
    congr 1
    have h1 : (b.val * 200 + l.val) / 200 = b.val := by have := l.isLt; omega
    have h2 : (b.val * 200 + l.val) % 200 = l.val := by have := l.isLt; omega
    funext a
    match a with
    | ⟨0, _⟩ => exact Fin.ext h1
    | ⟨1, _⟩ => exact Fin.ext h2
  rw [e]
  congr 1
  apply Fin.ext
  show min (argI m d (ix2 b l)).toNat 99999 = (argI m d (ix2 b l)).toNat
  have := idx_le m hpre d (ix2 b l)
  omega

/-- The reference's composed term of the four argument arrays is that result array: at every position both are the
    score of the row the index there names, the products' factors in the other order. -/
theorem ref_eq_out (hpre : Cert.Pre_KernelIdeal m) (d : Dev nD) :
    Cert.Proof.RefRun.refTerm (F := Ideal) (m (a0Loc d)) (m (a1Loc d)) (m (a2Loc d)) (m (a3Loc d)) = outI m d := by
  funext j
  obtain ⟨b, l, z, rfl⟩ : ∃ (b : Fin 4096) (l : Fin 200) (z : Fin 1), j = ix3 b l z := ⟨j 0, j 1, j 2, eq_ix3 j⟩
  have hz : z = 0 := Fin.ext (by have := z.isLt; omega)
  subst hz
  rw [Cert.Proof.RefRun.refTerm_apply _ _ _ _ (idx_le m hpre d) b l, outI_apply m hpre d b l]
  unfold score
  exact congrArg₂ (· + ·) (Finset.sum_congr rfl fun k _ => mul_comm _ _) rfl

end Cert.Proof.Bridge

end
-- ==== Proof.lean ====
/-
  The certificate's five claims for the gather-of-scores kernel against its jnp reference.

  The kernel computes a score per table row, `Σ_k W[0,k] · E[r,k] + b[0]`, in a pipelined TensorCore region, lays the
  scores and the indices out flat, and has 32 SparseCore subcores look each index's score up; the reference takes the
  indexed rows of the table and contracts each with `W`, `Σ_k E[idx,k] · W[0,k] + b[0]`. Under the precondition every index
  names a table row, so the reference's wrap of negative indices, its range mask and its fill are inert and the kernel's
  look-ups stay inside the scores that are determined (the last block of the region runs past the table; those scores
  are never looked up). The two results differ by the order of the two factors under the sum: multiplication of extended
  reals is commutative, and nothing else is used — no finiteness.

  The three frames: each program runs to the end from any memory the precondition holds of, nothing faulting, its
  argument arrays unchanged. For the kernel (both at machine words and at extended reals) this is the SparseCore launch
  theorem applied to: @main on the TensorCore (the region, three re-layings, the call), a subcore's task (copies in, a
  counted loop of indexed loads, copies out), and the hand-out of read shares and result chunks. For the reference it is
  the run of its operations in order. The idealization rewrote nothing, so `preserves` is trivial.
-/
import proofs.«211127_g52536039965321_cont_9to1c4b_697_4_alg».proof.Defs
import proofs.«211127_g52536039965321_cont_9to1c4b_697_4_alg».proof.Proof.Gen.Kernel
import proofs.«211127_g52536039965321_cont_9to1c4b_697_4_alg».proof.Proof.Gen.KernelIdeal
import proofs.«211127_g52536039965321_cont_9to1c4b_697_4_alg».proof.Proof.Gen.ReferenceIdeal
import proofs.«211127_g52536039965321_cont_9to1c4b_697_4_alg».proof.Proof.Gen.Pre_input_domain
import proofs.«211127_g52536039965321_cont_9to1c4b_697_4_alg».proof.Proof.KI.Run
import proofs.«211127_g52536039965321_cont_9to1c4b_697_4_alg».proof.Proof.KB.Run
import proofs.«211127_g52536039965321_cont_9to1c4b_697_4_alg».proof.Proof.KI.RegionValue
import proofs.«211127_g52536039965321_cont_9to1c4b_697_4_alg».proof.Proof.PreDecode
import proofs.«211127_g52536039965321_cont_9to1c4b_697_4_alg».proof.Proof.RefRun
import proofs.«211127_g52536039965321_cont_9to1c4b_697_4_alg».proof.Proof.Bridge

noncomputable section

namespace Cert.Proof

open Idealize.ShloMosaic Idealize.SL.Sem

/-- The kernel at machine words runs and keeps its arguments: its run with nothing said of the values. -/
theorem frame_k : Cert.frame_Kernel (hKernel := Cert.Kernel.Gen.facts) (hPre_input_domain := Cert.Pre_input_domain.Gen.facts) := fun m ρ hpre =>
  (θ_run (Cert.Kernel.defs (F := Bits)) _ _).mono (fun _ h c => ⟨(h c).2.1, (h c).2.2.1, (h c).2.2.2.1, (h c).2.2.2.2⟩)
    (Cert.Proof.KB.run (F := Bits) m ρ (fun _ _ _ => True) (fun _ _ _ _ => trivial)
      (fun d j => Cert.Proof.PreDecode.idx_range_Kernel m hpre d j))

/-- The same at the extended reals. -/
theorem frame_ki : Cert.frame_KernelIdeal (hKernelIdeal := Cert.KernelIdeal.Gen.facts) (hPre_input_domain := Cert.Pre_input_domain.Gen.facts) := fun m ρ hpre =>
  (θ_run (Cert.KernelIdeal.defs (F := Ideal)) _ _).mono (fun _ h c => ⟨(h c).2.1, (h c).2.2.1, (h c).2.2.2.1, (h c).2.2.2.2⟩)
    (Cert.Proof.KI.run (F := Ideal) m ρ (fun _ _ _ => True) (fun _ _ _ _ => trivial)
      (fun d j => Cert.Proof.PreDecode.idx_range_KernelIdeal m hpre d j))

/-- The reference runs and keeps its arguments: its run with the value dropped. -/
theorem frame_ri : Cert.frame_ReferenceIdeal (hReferenceIdeal := Cert.ReferenceIdeal.Gen.facts) (hPre_input_domain := Cert.Pre_input_domain.Gen.facts) := fun m ρ _ =>
  (θ_run (Cert.ReferenceIdeal.defs (F := Ideal)) _ _).mono (fun _ h c => (h c).2) (Cert.Proof.RefRun.run m ρ)

/-- Both idealized programs end with the score of the row each index names at that index's place. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' hpre hagree
  refine ⟨fun c => Cert.Proof.Bridge.outI m c, ?_, ?_⟩
  · refine (θ_run (Cert.KernelIdeal.defs (F := Ideal)) _ _).mono
      (fun _ h c => ⟨Cert.Proof.Bridge.resOk_eq m c _ (h c).1, (h c).2.1, (h c).2.2.1, (h c).2.2.2.1, (h c).2.2.2.2⟩)
      (Cert.Proof.KI.run (F := Ideal) m ρ (Cert.Proof.Bridge.ValI m)
        (fun d f0 hf0 => Cert.Proof.Bridge.sok_of_rows m hpre d f0 fun r => Cert.Proof.KI.region_value m d f0 hf0 r)
        (fun d j => Cert.Proof.PreDecode.idx_range_KernelIdeal m hpre d j))
  · refine (θ_run (Cert.ReferenceIdeal.defs (F := Ideal)) _ _).mono (fun _ h c => ⟨(h c).1.trans ?_, (h c).2⟩) (Cert.Proof.RefRun.run m' ρ')
    rw [(hagree c).1, (hagree c).2.1, (hagree c).2.2.1, (hagree c).2.2.2]
    exact Cert.Proof.Bridge.ref_eq_out m hpre c

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
